-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x256 : Shape := ⟨3, ![1, 50000, 256]⟩
abbrev S8x256x256 : Shape := ⟨3, ![8, 256, 256]⟩
abbrev S256x256 : Shape := ⟨2, ![256, 256]⟩
abbrev S8x200000x2 : Shape := ⟨3, ![8, 200000, 2]⟩
abbrev S_ : Shape := ⟨0, ![]⟩

class Facts : Prop where
  bcast_S_S1x50000x256 : S_.BroadcastsInDim S1x50000x256 (![] : Fin 0 → Fin S1x50000x256.rank)
  reducesTo_S1x50000x256_S_d0_1_2 : S1x50000x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S1x50000x256 .f32) (main_arg1 : FVec F S8x256x256 .f32) (main_arg2 : FVec F S256x256 .f32) (main_arg3 : IVec S8x200000x2 32) : IVec S_ 1 :=
  let main_v0 : FVec F S1x50000x256 .f32 := Host.absf main_arg0
  let main_cst : FVec F S_ .f32 := constant S_ .f32 0x7F800000#32
  let main_v1 : FVec F S1x50000x256 .f32 := broadcastInDim S1x50000x256 ![] bcast_S_S1x50000x256 main_cst
  let main_v2 : IVec S1x50000x256 1 := cmpf .olt main_v0 main_v1
  let main_c : IVec S_ 1 := constantI S_ 1 1#1
  let main_v3 : IVec S_ 1 := (fun x v => Host.reduce IntOp.andi x v reducesTo_S1x50000x256_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S1x50000x256 : Shape := ⟨3, ![1, 50000, 256]⟩
abbrev S8x256x256 : Shape := ⟨3, ![8, 256, 256]⟩
abbrev S256x256 : Shape := ⟨2, ![256, 256]⟩
abbrev S8x200000x2 : Shape := ⟨3, ![8, 200000, 2]⟩
abbrev S50000x256 : Shape := ⟨2, ![50000, 256]⟩
abbrev S1x256x256 : Shape := ⟨3, ![1, 256, 256]⟩
abbrev S9x256x256 : Shape := ⟨3, ![9, 256, 256]⟩
abbrev S9x50000x256 : Shape := ⟨3, ![9, 50000, 256]⟩
abbrev S5000x256 : Shape := ⟨2, ![5000, 256]⟩
abbrev S1x5000x256 : Shape := ⟨3, ![1, 5000, 256]⟩
abbrev S1x200000x1 : Shape := ⟨3, ![1, 200000, 1]⟩
abbrev S200000 : Shape := ⟨1, ![200000]⟩
abbrev S_ : Shape := ⟨0, ![]⟩
abbrev S200000x1 : Shape := ⟨2, ![200000, 1]⟩
abbrev S200000x256 : Shape := ⟨2, ![200000, 256]⟩

abbrev nBuf : Space → Nat
  | .hbm => 212
  | .vmem => 6
  | .smem => 0
  | _ => 0

abbrev hbmTy0_0 (i : Nat) : BufTy := match i % 128 with
  | 0 => ⟨S1x50000x256, .f32⟩
  | 1 => ⟨S8x256x256, .f32⟩
  | 2 => ⟨S256x256, .f32⟩
  | 3 => ⟨S8x200000x2, .i32⟩
  | 4 => ⟨S50000x256, .f32⟩
  | 5 => ⟨S1x256x256, .f32⟩
  | 6 => ⟨S9x256x256, .f32⟩
  | 7 => ⟨S9x50000x256, .bf16⟩
  | 8 => ⟨S1x50000x256, .bf16⟩
  | 9 => ⟨S50000x256, .bf16⟩
  | 10 => ⟨S50000x256, .f32⟩
  | 11 => ⟨S1x200000x1, .i32⟩
  | 12 => ⟨S200000, .i32⟩
  | 13 => ⟨S1x200000x1, .i32⟩
  | 14 => ⟨S200000, .i32⟩
  | 15 => ⟨S1x50000x256, .bf16⟩
  | 16 => ⟨S50000x256, .bf16⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x256, .bf16⟩
  | 26 => ⟨S200000x256, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S50000x256, .f32⟩
  | 36 => ⟨S1x200000x1, .i32⟩
  | 37 => ⟨S200000, .i32⟩
  | 38 => ⟨S1x200000x1, .i32⟩
  | 39 => ⟨S200000, .i32⟩
  | 40 => ⟨S1x50000x256, .bf16⟩
  | 41 => ⟨S50000x256, .bf16⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x256, .bf16⟩
  | 51 => ⟨S200000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S50000x256, .f32⟩
  | 61 => ⟨S1x200000x1, .i32⟩
  | 62 => ⟨S200000, .i32⟩
  | 63 => ⟨S1x200000x1, .i32⟩
  | 64 => ⟨S200000, .i32⟩
  | 65 => ⟨S1x50000x256, .bf16⟩
  | 66 => ⟨S50000x256, .bf16⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x256, .bf16⟩
  | 76 => ⟨S200000x256, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S50000x256, .f32⟩
  | 86 => ⟨S1x200000x1, .i32⟩
  | 87 => ⟨S200000, .i32⟩
  | 88 => ⟨S1x200000x1, .i32⟩
  | 89 => ⟨S200000, .i32⟩
  | 90 => ⟨S1x50000x256, .bf16⟩
  | 91 => ⟨S50000x256, .bf16⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x256, .bf16⟩
  | 101 => ⟨S200000x256, .f32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S50000x256, .f32⟩
  | 111 => ⟨S1x200000x1, .i32⟩
  | 112 => ⟨S200000, .i32⟩
  | 113 => ⟨S1x200000x1, .i32⟩
  | 114 => ⟨S200000, .i32⟩
  | 115 => ⟨S1x50000x256, .bf16⟩
  | 116 => ⟨S50000x256, .bf16⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x256, .bf16⟩
  | 126 => ⟨S200000x256, .f32⟩
  | 127 => ⟨S_, .i32⟩
  | _ => ⟨S1x50000x256, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S50000x256, .f32⟩
  | 8 => ⟨S1x200000x1, .i32⟩
  | 9 => ⟨S200000, .i32⟩
  | 10 => ⟨S1x200000x1, .i32⟩
  | 11 => ⟨S200000, .i32⟩
  | 12 => ⟨S1x50000x256, .bf16⟩
  | 13 => ⟨S50000x256, .bf16⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x256, .bf16⟩
  | 23 => ⟨S200000x256, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S50000x256, .f32⟩
  | 33 => ⟨S1x200000x1, .i32⟩
  | 34 => ⟨S200000, .i32⟩
  | 35 => ⟨S1x200000x1, .i32⟩
  | 36 => ⟨S200000, .i32⟩
  | 37 => ⟨S1x50000x256, .bf16⟩
  | 38 => ⟨S50000x256, .bf16⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x256, .bf16⟩
  | 48 => ⟨S200000x256, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S50000x256, .f32⟩
  | 58 => ⟨S1x200000x1, .i32⟩
  | 59 => ⟨S200000, .i32⟩
  | 60 => ⟨S1x200000x1, .i32⟩
  | 61 => ⟨S200000, .i32⟩
  | 62 => ⟨S1x50000x256, .bf16⟩
  | 63 => ⟨S50000x256, .bf16⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x256, .bf16⟩
  | 73 => ⟨S200000x256, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S50000x256, .f32⟩
  | 83 => ⟨S1x50000x256, .f32⟩
  | _ => ⟨S1x50000x256, .f32⟩

abbrev hbmTy (i : Nat) : BufTy := match i / 128 with
  | 0 => hbmTy0_0 i
  | 1 => hbmTy0_1 i
  | _ => ⟨S1x50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S1x256x256, .f32⟩
  | .local _ .vmem, ⟨3, _⟩ => ⟨S1x256x256, .f32⟩
  | .local _ .vmem, ⟨4, _⟩ => ⟨S1x5000x256, .bf16⟩
  | .local _ .vmem, ⟨5, _⟩ => ⟨S1x5000x256, .bf16⟩
  | _, _ => ⟨S1x50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_7 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_9 : Ref sig .tc := ⟨.hbm, 77, rfl⟩
abbrev main_v63 : Ref sig .tc := ⟨.hbm, 78, rfl⟩
abbrev main_v64 : Ref sig .tc := ⟨.hbm, 79, rfl⟩
abbrev main_c_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_11 : Ref sig .tc := ⟨.hbm, 92, rfl⟩
abbrev main_v76 : Ref sig .tc := ⟨.hbm, 93, rfl⟩
abbrev main_v77 : Ref sig .tc := ⟨.hbm, 94, rfl⟩
abbrev main_c_12 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_c_13 : Ref sig .tc := ⟨.hbm, 102, rfl⟩
abbrev main_v84 : Ref sig .tc := ⟨.hbm, 103, rfl⟩
abbrev main_v85 : Ref sig .tc := ⟨.hbm, 104, rfl⟩
abbrev main_c_14 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_c_15 : Ref sig .tc := ⟨.hbm, 117, rfl⟩
abbrev main_v97 : Ref sig .tc := ⟨.hbm, 118, rfl⟩
abbrev main_v98 : Ref sig .tc := ⟨.hbm, 119, rfl⟩
abbrev main_c_16 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_c_17 : Ref sig .tc := ⟨.hbm, 127, rfl⟩
abbrev main_v105 : Ref sig .tc := ⟨.hbm, 128, rfl⟩
abbrev main_v106 : Ref sig .tc := ⟨.hbm, 129, rfl⟩
abbrev main_c_18 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_19 : Ref sig .tc := ⟨.hbm, 142, rfl⟩
abbrev main_v118 : Ref sig .tc := ⟨.hbm, 143, rfl⟩
abbrev main_v119 : Ref sig .tc := ⟨.hbm, 144, rfl⟩
abbrev main_c_20 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_21 : Ref sig .tc := ⟨.hbm, 152, rfl⟩
abbrev main_v126 : Ref sig .tc := ⟨.hbm, 153, rfl⟩
abbrev main_v127 : Ref sig .tc := ⟨.hbm, 154, rfl⟩
abbrev main_c_22 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_c_23 : Ref sig .tc := ⟨.hbm, 167, rfl⟩
abbrev main_v139 : Ref sig .tc := ⟨.hbm, 168, rfl⟩
abbrev main_v140 : Ref sig .tc := ⟨.hbm, 169, rfl⟩
abbrev main_c_24 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_c_25 : Ref sig .tc := ⟨.hbm, 177, rfl⟩
abbrev main_v147 : Ref sig .tc := ⟨.hbm, 178, rfl⟩
abbrev main_v148 : Ref sig .tc := ⟨.hbm, 179, rfl⟩
abbrev main_c_26 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_c_27 : Ref sig .tc := ⟨.hbm, 192, rfl⟩
abbrev main_v160 : Ref sig .tc := ⟨.hbm, 193, rfl⟩
abbrev main_v161 : Ref sig .tc := ⟨.hbm, 194, rfl⟩
abbrev main_c_28 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_c_29 : Ref sig .tc := ⟨.hbm, 202, rfl⟩
abbrev main_v168 : Ref sig .tc := ⟨.hbm, 203, rfl⟩
abbrev main_v169 : Ref sig .tc := ⟨.hbm, 204, rfl⟩
abbrev main_c_30 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x50000x256_S50000x256 : S1x50000x256.ShapeCasts S50000x256
  bcast_S256x256_S1x256x256_1_2 : S256x256.BroadcastsInDim S1x256x256 (![1, 2] : Fin 2 → Fin S1x256x256.rank)
  concatenates_S1x256x256_S8x256x256_S9x256x256_d0 : Shape.Concatenates [S1x256x256, S8x256x256] S9x256x256 0
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  shapeCasts_S5000x256_S1x5000x256 : S5000x256.ShapeCasts S1x5000x256
  packedbf16_S1x5000x256_S1x5000x256_0_0_0 : (Rect.unit (s := S1x5000x256) ![0, 0, 0] S1x5000x256.size inb_S1x5000x256_S1x5000x256_0_0_0).PackedRows (EltTy.packing .bf16)
  slices_S9x50000x256_S1x50000x256_0_0_0 : S9x50000x256.Slices ![0, 0, 0] S1x50000x256
  slices_S8x200000x2_S1x200000x1_0_0_0 : S8x200000x2.Slices ![0, 0, 0] S1x200000x1
  shapeCasts_S1x200000x1_S200000 : S1x200000x1.ShapeCasts S200000
  slices_S8x200000x2_S1x200000x1_0_0_1 : S8x200000x2.Slices ![0, 0, 1] S1x200000x1
  slices_S9x50000x256_S1x50000x256_1_0_0 : S9x50000x256.Slices ![1, 0, 0] S1x50000x256
  bcast_S_S200000 : S_.BroadcastsInDim S200000 (![] : Fin 0 → Fin S200000.rank)
  bcast_S200000_S200000x1_0 : S200000.BroadcastsInDim S200000x1 (![0] : Fin 1 → Fin S200000x1.rank)
  slices_S8x200000x2_S1x200000x1_1_0_0 : S8x200000x2.Slices ![1, 0, 0] S1x200000x1
  slices_S8x200000x2_S1x200000x1_1_0_1 : S8x200000x2.Slices ![1, 0, 1] S1x200000x1
  slices_S9x50000x256_S1x50000x256_2_0_0 : S9x50000x256.Slices ![2, 0, 0] S1x50000x256
  slices_S8x200000x2_S1x200000x1_2_0_0 : S8x200000x2.Slices ![2, 0, 0] S1x200000x1
  slices_S8x200000x2_S1x200000x1_2_0_1 : S8x200000x2.Slices ![2, 0, 1] S1x200000x1
  slices_S9x50000x256_S1x50000x256_3_0_0 : S9x50000x256.Slices ![3, 0, 0] S1x50000x256
  slices_S8x200000x2_S1x200000x1_3_0_0 : S8x200000x2.Slices ![3, 0, 0] S1x200000x1
  slices_S8x200000x2_S1x200000x1_3_0_1 : S8x200000x2.Slices ![3, 0, 1] S1x200000x1
  slices_S9x50000x256_S1x50000x256_4_0_0 : S9x50000x256.Slices ![4, 0, 0] S1x50000x256
  slices_S8x200000x2_S1x200000x1_4_0_0 : S8x200000x2.Slices ![4, 0, 0] S1x200000x1
  slices_S8x200000x2_S1x200000x1_4_0_1 : S8x200000x2.Slices ![4, 0, 1] S1x200000x1
  slices_S9x50000x256_S1x50000x256_5_0_0 : S9x50000x256.Slices ![5, 0, 0] S1x50000x256
  slices_S8x200000x2_S1x200000x1_5_0_0 : S8x200000x2.Slices ![5, 0, 0] S1x200000x1
  slices_S8x200000x2_S1x200000x1_5_0_1 : S8x200000x2.Slices ![5, 0, 1] S1x200000x1
  slices_S9x50000x256_S1x50000x256_6_0_0 : S9x50000x256.Slices ![6, 0, 0] S1x50000x256
  slices_S8x200000x2_S1x200000x1_6_0_0 : S8x200000x2.Slices ![6, 0, 0] S1x200000x1
  slices_S8x200000x2_S1x200000x1_6_0_1 : S8x200000x2.Slices ![6, 0, 1] S1x200000x1
  slices_S9x50000x256_S1x50000x256_7_0_0 : S9x50000x256.Slices ![7, 0, 0] S1x50000x256
  slices_S8x200000x2_S1x200000x1_7_0_0 : S8x200000x2.Slices ![7, 0, 0] S1x200000x1
  slices_S8x200000x2_S1x200000x1_7_0_1 : S8x200000x2.Slices ![7, 0, 1] S1x200000x1
  slices_S9x50000x256_S1x50000x256_8_0_0 : S9x50000x256.Slices ![8, 0, 0] S1x50000x256
  bcast_S50000x256_S1x50000x256_1_2 : S50000x256.BroadcastsInDim S1x50000x256 (![1, 2] : Fin 2 → Fin S1x50000x256.rank)
  dot_S5000x256_S256x256_S5000x256_1_0_0_1_n_n_wf : DotDims.WF S5000x256 S256x256 S5000x256 [1] [0] [0] [1] [] []
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S9x256x256.size a
  hwx0_1 : ∀ i : grid0.Coords, EltTy.bits .f32 = 32 ∨ (Rect.block (s := S9x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x256.size a ≤ S9x50000x256.size a
  hwx0_2 : ∀ i : grid0.Coords, EltTy.bits .bf16 = 32 ∨ (Rect.block (s := S9x50000x256) S1x5000x256.size (cc0_transform_2 i) (hinb0_2 i)).WholeWords (EltTy.packing .bf16)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x50000x256 : Shape := ⟨3, ![1, 50000, 256]⟩
abbrev S8x256x256 : Shape := ⟨3, ![8, 256, 256]⟩
abbrev S256x256 : Shape := ⟨2, ![256, 256]⟩
abbrev S8x200000x2 : Shape := ⟨3, ![8, 200000, 2]⟩
abbrev S1x200000x1 : Shape := ⟨3, ![1, 200000, 1]⟩
abbrev S200000 : Shape := ⟨1, ![200000]⟩
abbrev S_ : Shape := ⟨0, ![]⟩
abbrev S200000x1 : Shape := ⟨2, ![200000, 1]⟩
abbrev S1x200000x256 : Shape := ⟨3, ![1, 200000, 256]⟩
abbrev S1x256x256 : Shape := ⟨3, ![1, 256, 256]⟩

abbrev nBuf : Space → Nat
  | .hbm => 205
  | .vmem => 0
  | .smem => 0
  | _ => 0

abbrev hbmTy0_0 (i : Nat) : BufTy := match i % 128 with
  | 0 => ⟨S1x50000x256, .f32⟩
  | 1 => ⟨S8x256x256, .f32⟩
  | 2 => ⟨S256x256, .f32⟩
  | 3 => ⟨S8x200000x2, .i32⟩
  | 4 => ⟨S1x50000x256, .f32⟩
  | 5 => ⟨S1x200000x1, .i32⟩
  | 6 => ⟨S200000, .i32⟩
  | 7 => ⟨S1x200000x1, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S1x200000x256, .f32⟩
  | 18 => ⟨S1x256x256, .f32⟩
  | 19 => ⟨S256x256, .f32⟩
  | 20 => ⟨S1x200000x256, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S1x50000x256, .f32⟩
  | 30 => ⟨S1x200000x1, .i32⟩
  | 31 => ⟨S200000, .i32⟩
  | 32 => ⟨S1x200000x1, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S1x200000x256, .f32⟩
  | 43 => ⟨S1x256x256, .f32⟩
  | 44 => ⟨S256x256, .f32⟩
  | 45 => ⟨S1x200000x256, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S1x50000x256, .f32⟩
  | 55 => ⟨S1x200000x1, .i32⟩
  | 56 => ⟨S200000, .i32⟩
  | 57 => ⟨S1x200000x1, .i32⟩
  | 58 => ⟨S200000, .i32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S1x200000x256, .f32⟩
  | 68 => ⟨S1x256x256, .f32⟩
  | 69 => ⟨S256x256, .f32⟩
  | 70 => ⟨S1x200000x256, .f32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S1x50000x256, .f32⟩
  | 80 => ⟨S1x200000x1, .i32⟩
  | 81 => ⟨S200000, .i32⟩
  | 82 => ⟨S1x200000x1, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S1x200000x256, .f32⟩
  | 93 => ⟨S1x256x256, .f32⟩
  | 94 => ⟨S256x256, .f32⟩
  | 95 => ⟨S1x200000x256, .f32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S1x50000x256, .f32⟩
  | 105 => ⟨S1x200000x1, .i32⟩
  | 106 => ⟨S200000, .i32⟩
  | 107 => ⟨S1x200000x1, .i32⟩
  | 108 => ⟨S200000, .i32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S1x200000x256, .f32⟩
  | 118 => ⟨S1x256x256, .f32⟩
  | 119 => ⟨S256x256, .f32⟩
  | 120 => ⟨S1x200000x256, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S1x50000x256, .f32⟩

abbrev hbmTy0_1 (i : Nat) : BufTy := match i % 128 with
  | 0 => ⟨S200000x1, .i32⟩
  | 1 => ⟨S1x50000x256, .f32⟩
  | 2 => ⟨S1x200000x1, .i32⟩
  | 3 => ⟨S200000, .i32⟩
  | 4 => ⟨S1x200000x1, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S1x200000x256, .f32⟩
  | 15 => ⟨S1x256x256, .f32⟩
  | 16 => ⟨S256x256, .f32⟩
  | 17 => ⟨S1x200000x256, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S1x50000x256, .f32⟩
  | 27 => ⟨S1x200000x1, .i32⟩
  | 28 => ⟨S200000, .i32⟩
  | 29 => ⟨S1x200000x1, .i32⟩
  | 30 => ⟨S200000, .i32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S1x200000x256, .f32⟩
  | 40 => ⟨S1x256x256, .f32⟩
  | 41 => ⟨S256x256, .f32⟩
  | 42 => ⟨S1x200000x256, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S1x50000x256, .f32⟩
  | 52 => ⟨S1x200000x1, .i32⟩
  | 53 => ⟨S200000, .i32⟩
  | 54 => ⟨S1x200000x1, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S1x200000x256, .f32⟩
  | 65 => ⟨S1x256x256, .f32⟩
  | 66 => ⟨S256x256, .f32⟩
  | 67 => ⟨S1x200000x256, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S1x50000x256, .f32⟩
  | _ => ⟨S1x50000x256, .f32⟩

abbrev hbmTy (i : Nat) : BufTy := match i / 128 with
  | 0 => hbmTy0_0 i
  | 1 => hbmTy0_1 i
  | _ => ⟨S1x50000x256, .f32⟩

abbrev bufTy : (tb : Table) → Fin (tcTables nBuf tb) → BufTy
  | .hbm, ⟨i, _⟩ => hbmTy i
  | _, _ => ⟨S1x50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_c_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_9 : Ref sig .tc := ⟨.hbm, 71, rfl⟩
abbrev main_v57 : Ref sig .tc := ⟨.hbm, 72, rfl⟩
abbrev main_v58 : Ref sig .tc := ⟨.hbm, 73, rfl⟩
abbrev main_c_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_11 : Ref sig .tc := ⟨.hbm, 84, rfl⟩
abbrev main_v68 : Ref sig .tc := ⟨.hbm, 85, rfl⟩
abbrev main_v69 : Ref sig .tc := ⟨.hbm, 86, rfl⟩
abbrev main_c_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_13 : Ref sig .tc := ⟨.hbm, 96, rfl⟩
abbrev main_v78 : Ref sig .tc := ⟨.hbm, 97, rfl⟩
abbrev main_v79 : Ref sig .tc := ⟨.hbm, 98, rfl⟩
abbrev main_c_14 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_c_15 : Ref sig .tc := ⟨.hbm, 109, rfl⟩
abbrev main_v89 : Ref sig .tc := ⟨.hbm, 110, rfl⟩
abbrev main_v90 : Ref sig .tc := ⟨.hbm, 111, rfl⟩
abbrev main_c_16 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_c_17 : Ref sig .tc := ⟨.hbm, 121, rfl⟩
abbrev main_v99 : Ref sig .tc := ⟨.hbm, 122, rfl⟩
abbrev main_v100 : Ref sig .tc := ⟨.hbm, 123, rfl⟩
abbrev main_c_18 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_c_19 : Ref sig .tc := ⟨.hbm, 134, rfl⟩
abbrev main_v110 : Ref sig .tc := ⟨.hbm, 135, rfl⟩
abbrev main_v111 : Ref sig .tc := ⟨.hbm, 136, rfl⟩
abbrev main_c_20 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c_21 : Ref sig .tc := ⟨.hbm, 146, rfl⟩
abbrev main_v120 : Ref sig .tc := ⟨.hbm, 147, rfl⟩
abbrev main_v121 : Ref sig .tc := ⟨.hbm, 148, rfl⟩
abbrev main_c_22 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_c_23 : Ref sig .tc := ⟨.hbm, 159, rfl⟩
abbrev main_v131 : Ref sig .tc := ⟨.hbm, 160, rfl⟩
abbrev main_v132 : Ref sig .tc := ⟨.hbm, 161, rfl⟩
abbrev main_c_24 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_c_25 : Ref sig .tc := ⟨.hbm, 171, rfl⟩
abbrev main_v141 : Ref sig .tc := ⟨.hbm, 172, rfl⟩
abbrev main_v142 : Ref sig .tc := ⟨.hbm, 173, rfl⟩
abbrev main_c_26 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_c_27 : Ref sig .tc := ⟨.hbm, 184, rfl⟩
abbrev main_v152 : Ref sig .tc := ⟨.hbm, 185, rfl⟩
abbrev main_v153 : Ref sig .tc := ⟨.hbm, 186, rfl⟩
abbrev main_c_28 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_c_29 : Ref sig .tc := ⟨.hbm, 196, rfl⟩
abbrev main_v162 : Ref sig .tc := ⟨.hbm, 197, rfl⟩
abbrev main_v163 : Ref sig .tc := ⟨.hbm, 198, rfl⟩
abbrev main_c_30 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩

abbrev nD : Nat := 1
abbrev τ : Topo := Topo.v7x

variable {F : FTy → Type} [FloatOps F]

class Facts₀ : Prop where
  slices_S8x200000x2_S1x200000x1_0_0_0 : S8x200000x2.Slices ![0, 0, 0] S1x200000x1
  shapeCasts_S1x200000x1_S200000 : S1x200000x1.ShapeCasts S200000
  slices_S8x200000x2_S1x200000x1_0_0_1 : S8x200000x2.Slices ![0, 0, 1] S1x200000x1
  bcast_S_S200000 : S_.BroadcastsInDim S200000 (![] : Fin 0 → Fin S200000.rank)
  bcast_S200000_S200000x1_0 : S200000.BroadcastsInDim S200000x1 (![0] : Fin 1 → Fin S200000x1.rank)
  slices_S8x256x256_S1x256x256_0_0_0 : S8x256x256.Slices ![0, 0, 0] S1x256x256
  shapeCasts_S1x256x256_S256x256 : S1x256x256.ShapeCasts S256x256
  slices_S8x200000x2_S1x200000x1_1_0_0 : S8x200000x2.Slices ![1, 0, 0] S1x200000x1
  slices_S8x200000x2_S1x200000x1_1_0_1 : S8x200000x2.Slices ![1, 0, 1] S1x200000x1
  slices_S8x256x256_S1x256x256_1_0_0 : S8x256x256.Slices ![1, 0, 0] S1x256x256
  slices_S8x200000x2_S1x200000x1_2_0_0 : S8x200000x2.Slices ![2, 0, 0] S1x200000x1
  slices_S8x200000x2_S1x200000x1_2_0_1 : S8x200000x2.Slices ![2, 0, 1] S1x200000x1
  slices_S8x256x256_S1x256x256_2_0_0 : S8x256x256.Slices ![2, 0, 0] S1x256x256
  slices_S8x200000x2_S1x200000x1_3_0_0 : S8x200000x2.Slices ![3, 0, 0] S1x200000x1
  slices_S8x200000x2_S1x200000x1_3_0_1 : S8x200000x2.Slices ![3, 0, 1] S1x200000x1
  slices_S8x256x256_S1x256x256_3_0_0 : S8x256x256.Slices ![3, 0, 0] S1x256x256
  slices_S8x200000x2_S1x200000x1_4_0_0 : S8x200000x2.Slices ![4, 0, 0] S1x200000x1
  slices_S8x200000x2_S1x200000x1_4_0_1 : S8x200000x2.Slices ![4, 0, 1] S1x200000x1
  slices_S8x256x256_S1x256x256_4_0_0 : S8x256x256.Slices ![4, 0, 0] S1x256x256
  slices_S8x200000x2_S1x200000x1_5_0_0 : S8x200000x2.Slices ![5, 0, 0] S1x200000x1
  slices_S8x200000x2_S1x200000x1_5_0_1 : S8x200000x2.Slices ![5, 0, 1] S1x200000x1
  slices_S8x256x256_S1x256x256_5_0_0 : S8x256x256.Slices ![5, 0, 0] S1x256x256
  slices_S8x200000x2_S1x200000x1_6_0_0 : S8x200000x2.Slices ![6, 0, 0] S1x200000x1
  slices_S8x200000x2_S1x200000x1_6_0_1 : S8x200000x2.Slices ![6, 0, 1] S1x200000x1
  slices_S8x256x256_S1x256x256_6_0_0 : S8x256x256.Slices ![6, 0, 0] S1x256x256
  slices_S8x200000x2_S1x200000x1_7_0_0 : S8x200000x2.Slices ![7, 0, 0] S1x200000x1
  slices_S8x200000x2_S1x200000x1_7_0_1 : S8x200000x2.Slices ![7, 0, 1] S1x200000x1
  slices_S8x256x256_S1x256x256_7_0_0 : S8x256x256.Slices ![7, 0, 0] S1x256x256
  dot_S1x50000x256_S256x256_S1x50000x256_2_0_01_1_n_n_wf : DotDims.WF S1x50000x256 S256x256 S1x50000x256 [2] [0] [0, 1] [1] [] []
  gather_S1x50000x256_S200000x1_S1x200000x256_02_1_n_n_1_1_11256_wf : GatherDims.WF S1x50000x256 S200000x1 S1x200000x256 [0, 2] [1] [] [1] [] 1 ![1, 1, 256]
  dot_S1x200000x256_S256x256_S1x200000x256_2_0_01_1_n_n_wf : DotDims.WF S1x200000x256 S256x256 S1x200000x256 [2] [0] [0, 1] [1] [] []
  scatter_S1x50000x256_S200000x1_S1x200000x256_02_1_1_1_wf : ScatterDims.WF S1x50000x256 S200000x1 S1x200000x256 [0, 2] [1] [1] 1

variable [Facts₀]

def dot_S1x50000x256_S256x256_S1x50000x256_2_0_01_1_n_n : DotDims S1x50000x256 S256x256 S1x50000x256 where
  lhsContracting := [2]
  rhsContracting := [0]
  lhsNonContracting := [0, 1]
  rhsNonContracting := [1]
  lhsBatch := []
  rhsBatch := []
  wf := dot_S1x50000x256_S256x256_S1x50000x256_2_0_01_1_n_n_wf
def gather_S1x50000x256_S200000x1_S1x200000x256_02_1_n_n_1_1_11256 : GatherDims S1x50000x256 S200000x1 S1x200000x256 where
  offsetDims := [0, 2]
  collapsedSliceDims := [1]
  operandBatchingDims := []
  startIndicesBatchingDims := []
  startIndexMap := [1]
  indexVectorDim := 1
  sliceSizes := ![1, 1, 256]
  wf := gather_S1x50000x256_S200000x1_S1x200000x256_02_1_n_n_1_1_11256_wf
def dot_S1x200000x256_S256x256_S1x200000x256_2_0_01_1_n_n : DotDims S1x200000x256 S256x256 S1x200000x256 where
  lhsContracting := [2]
  rhsContracting := [0]
  lhsNonContracting := [0, 1]
  rhsNonContracting := [1]
  lhsBatch := []
  rhsBatch := []
  wf := dot_S1x200000x256_S256x256_S1x200000x256_2_0_01_1_n_n_wf
def scatter_S1x50000x256_S200000x1_S1x200000x256_02_1_1_1 : ScatterDims S1x50000x256 S200000x1 S1x200000x256 where
  updateWindowDims := [0, 2]
  insertedWindowDims := [1]
  scatterDimsToOperandDims := [1]
  indexVectorDim := 1
  wf := scatter_S1x50000x256_S200000x1_S1x200000x256_02_1_1_1_wf

class Facts : Prop extends Facts₀ where

variable [Facts]
-- ==== Proof.FrameDataB.lean ====
/-
  The data of the projection kernel's run, stated once for any float instance.

  The program is: three host lines (x as a 50000 x 256 matrix; the nine weight matrices stacked, the
  self weight first), one region over a 10 x 9 grid, and a host tail. At grid point (i, r) the body
  reads rows 5000 i .. 5000 i + 4999 of x and weight matrix r, multiplies them, and stores the
  5000 x 256 product as block (r, i) of the projected array; it keeps nothing between points.
  Here: the contents the region finds (V), a window's block at a point (iblk), what the body leaves in
  the output window's buffer (projBlock: its one store, read back), and the per-point record the
  launch theorem is applied to (dats).
-/
import proofs.«173822_j17076789969202_1_alg».proof.Proof.Gen.Kernel.Launch
import proofs.«173822_j17076789969202_1_alg».proof.Proof.Gen.Kernel.Skeleton
import proofs.«173822_j17076789969202_1_alg».proof.Proof.Gen.Kernel.Points
import Idealize.ShloMosaic.Lib.Pipeline.FrameBody
import Idealize.ShloMosaic.Lib.Pipeline.FrameSuffix

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core c's buffer contents when the region is entered: the launch memory after the three host lines
    before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output block, as a rectangle of the staging buffer. -/
abbrev rOut : Rect S1x5000x256 := Rect.unit (s := S1x5000x256) ![0, 0, 0] S1x5000x256.size inb_S1x5000x256_S1x5000x256_0_0_0

/-- What the body leaves in the output window's buffer, from the two input blocks: its one store,
    which covers the buffer, of the rows-times-weights product. -/
def projBlock (x0 : Vec F S5000x256 .f32) (x1 : Vec F S1x256x256 .f32) : Vec F S1x5000x256 .bf16 :=
  View.canon [⟨rOut, k0_pay1 x0 x1⟩]

/-- The per-point record on core c: the arrays as the region finds them; after the body at point t the
    two input buffers hold their blocks and the output buffer the product of those blocks; the invariant
    is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => projBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = projBlock (iblk m c 0 t) (iblk m c 1 t) := by dsimp only [dats]

/-- The statement of the run that the frame and the value are both read off: every weakly fair execution
    ends, faulting nowhere, with each array of the region at what the record computes and every other
    buffer as the host tail leaves it. -/
abbrev RunMain : Prop :=
  θ_run defs (onTc (τ := τ) (main (F := F))) (s₀ m ρ)
    (Pipeline.FramePost cfgs (dats m) 0 (Pipeline.afterTail₀ cfgs (dats m) 0 (V0 m) [hostOps1]))

end Cert.Kernel.Fr

end
-- ==== Proof.FrameB.lean ====
/-
  The frame of the projection kernel's program, for any float instance: it runs to the end on every core,
  faulting nowhere, and its four argument arrays end as they were launched.

  The program is three host lines (x as a 50000 x 256 matrix; the nine weight matrices stacked), one
  region over a 10 x 9 grid, and 204 host lines. The region stages three arrays: the matrix x (read in
  blocks of 5000 rows), the stacked weights (read one 256 x 256 matrix at a time), and the projected array
  (written one 5000 x 256 block at a time). At grid point (i, r) the body multiplies row block i of x by
  weight matrix r and stores the product over the whole output buffer, which the pipeline writes back as
  block (r, i) of the projected array.

  The road: the host lines around the region write only their own results, so they leave the arguments and
  (after the region) the staged arrays alone; the body's triple at generic buffers; the body obligation of
  the launch theorem at a generic point; the run of the whole program around the region; and the frame read
  off the run's postcondition at the four arguments.
-/
import proofs.«173822_j17076789969202_1_alg».proof.Proof.FrameDataB
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region

The program is three host lines, the region, and 204 host lines. Every host line writes one buffer, its
result, and allocates nothing. The results of the lines after the region are buffers of their own: none is
an argument array and none is an array the region stages. -/

/-- The buffers the lines after the region must leave alone: the four argument arrays, and the three arrays
    the region stages (x as a matrix, the stacked weights, the projected array). -/
abbrev kept : List (Ref sig .tc) := [main_arg0, main_arg1, main_arg2, main_arg3, main_v0, main_v2, main_v3]

/-- A line whose one result is outside a list of references writes no buffer of the list. -/
theorem result_avoids (L : List (Ref sig .tc)) (y : Ref sig .tc) (h : ∀ r ∈ L, r ≠ y) :
    ∀ r ∈ L, Proc.devRef (τ := τ) .tc r ∉ ({Proc.devRef .tc y} : Finset (DevRef τ sig)) :=
  fun r hr hm => StableHlo.devRef_ne_of_ne (h r hr) (Finset.mem_singleton.mp hm)

set_option maxHeartbeats 40000000 in
/-- No line after the region writes a kept buffer: line by line, its result is another reference. -/
theorem tail_avoids : (hostOps1 : List (HloOp τ sig (Elt F))).Forall fun op =>
    ∀ r ∈ kept, Proc.devRef (τ := τ) .tc r ∉ op.writes := by
  simp only [hostOps1, List.Forall, StableHlo.nullary_writes, StableHlo.unary_writes, StableHlo.binary_writes,
    StableHlo.ternary_writes, StableHlo.reshape_writes]
  repeat' apply And.intro
  all_goals exact result_avoids kept _ (by decide)

/-- The same, read at one line and one kept buffer. -/
theorem tail_keeps {op : HloOp τ sig (Elt F)} (hop : op ∈ (hostOps1 : List (HloOp τ sig (Elt F))))
    {r : Ref sig .tc} (hr : r ∈ kept) : Proc.devRef (τ := τ) .tc r ∉ op.writes :=
  List.forall_iff_forall_mem.mp tail_avoids op hop r hr

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [hostOps1, List.Forall]; repeat' constructor

set_option maxRecDepth 100000 in
/-- The main function is the three lines, the region, the 204 lines: run around the region, it is the region
    continued by the later lines, entered at the contents the three lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: each is an array of the region or a buffer that
    bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And they write none of the three arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact tail_keeps hop (r := main_v0) (by decide)
  · exact tail_keeps hop (r := main_v2) (by decide)
  · exact tail_keeps hop (r := main_v3) (by decide)

/-! ## The arguments through the lines -/

/-- None of the three lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 0 ends as
    launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (fun op hop =>
      tail_keeps (r := main_arg0) (by simpa only [List.flatten_cons, List.flatten_nil, List.append_nil] using hop) (by decide)),
    Pipeline.withArrays_of_ne _ c (V0 m c) _ main_arg0 (by exact (by decide : ∀ w, Pipeline.arrRef spec0 w ≠ main_arg0))]
  exact V_main_arg0 m c

/-- None of the three lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 1 ends as
    launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (fun op hop =>
      tail_keeps (r := main_arg1) (by simpa only [List.flatten_cons, List.flatten_nil, List.append_nil] using hop) (by decide)),
    Pipeline.withArrays_of_ne _ c (V0 m c) _ main_arg1 (by exact (by decide : ∀ w, Pipeline.arrRef spec0 w ≠ main_arg1))]
  exact V_main_arg1 m c

/-- None of the three lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 2 ends as
    launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (fun op hop =>
      tail_keeps (r := main_arg2) (by simpa only [List.flatten_cons, List.flatten_nil, List.append_nil] using hop) (by decide)),
    Pipeline.withArrays_of_ne _ c (V0 m c) _ main_arg2 (by exact (by decide : ∀ w, Pipeline.arrRef spec0 w ≠ main_arg2))]
  exact V_main_arg2 m c

/-- None of the three lines before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 3 ends as
    launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (fun op hop =>
      tail_keeps (r := main_arg3) (by simpa only [List.flatten_cons, List.flatten_nil, List.append_nil] using hop) (by decide)),
    Pipeline.withArrays_of_ne _ c (V0 m c) _ main_arg3 (by exact (by decide : ∀ w, Pipeline.arrRef spec0 w ≠ main_arg3))]
  exact V_main_arg3 m c

/-! ## The body's triple

At a grid point the body reads its two input buffers whole (a block of 5000 rows of x, one 256 x 256
weight matrix), reads its output buffer (a value nothing uses), and stores the rows-times-weights product
over the whole output buffer. -/

/-- The one store of the body covers the output buffer. -/
theorem coverOut (p0 : Vec F S1x5000x256 .bf16) (y : S1x5000x256.Idx) :
    ∃ pc ∈ ([⟨rOut, p0⟩] : List (View.Piece (Elt F) S1x5000x256 .bf16)), y ∈ pc.1.set :=
  View.cover_of_tiled [⟨rOut, p0⟩] S1x5000x256.size (by rfl) y

set_option maxHeartbeats 1000000 in
/-- The body on whole buffers, the inputs at contents x0 and x1 and the output at anything, runs to the
    continuation with the inputs as they were and the output at the product of x0 and x1: a whole-buffer
    load reads the contents, and the covering store leaves its payload whatever was there. -/
theorem sound_kernel (c : Dev nD) (E : Set ℕ) (i : grid0.Coords)
    (arg2 : Memref sig .tc .vmem S5000x256 .f32) (harg2 : arg2.IsWhole)
    (arg3 : Memref sig .tc .vmem S1x256x256 .f32) (harg3 : arg3.IsWhole)
    (arg4 : Memref sig .tc .vmem S1x5000x256 .bf16) (harg4 : arg4.IsWhole)
    (x0 : Vec F S5000x256 .f32) (x1 : Vec F S1x256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (projBlock x0 x1)) -∗ K ⟨⟩))
      ⊢ wp frame (wpE (defs₀ (F := F)) Variants.none c none) E (cc0__project_kernel i arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz0 : (![0, 0] : Fin S5000x256.rank → Nat) = fun _ => 0 := funext fun a => by fin_cases a <;> rfl
  have hz1 : (![0, 0, 0] : Fin S1x256x256.rank → Nat) = fun _ => 0 := funext fun a => by fin_cases a <;> rfl
  rw [View.read_writes_eq_canon _ _ _ (coverOut _)]
  simp only [View.readAt_eq_ld, View.ld_unit_zero (S := S5000x256) hz0, View.ld_unit_zero (S := S1x256x256) hz1]
  rfl

/-! ## What the body finds in the input buffers

An input window's current buffer holds the window's block at every point, whether the block was fetched at
that point or was already there: the rows of x change only when the first coordinate moves, so their buffer is
fetched at every ninth point and found in place at the eight between; the weight matrix is fetched at every
point. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

/-- What the body is called with at point t: the invariant, what the core owes, and each window's current
    buffer — the inputs at their blocks, the output at whatever the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer at what the record says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies at those blocks;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 100000 in
set_option backward.isDefEq.respectTransparency.types false in
/-- From any launch memory with zero counters, every weakly fair execution of the program on the TensorCores
    ends, faulting nowhere; at the end each array of the region holds what the record computes, and every other
    unscoped buffer what the 204 later lines make of what the region found. -/
theorem run_main : RunMain m ρ :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end on every core, and its four argument arrays end as launched. Each
    is unscoped and no array of the region, so it ends at what the later lines leave of it, which is what was
    launched (no line writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.Kernel.Fr

end
-- ==== Proof.FrameDataI.lean ====
/-
  The data of the projection kernel's run, stated once for any float instance.

  The program is: three host lines (x as a 50000 x 256 matrix; the nine weight matrices stacked, the
  self weight first), one region over a 10 x 9 grid, and a host tail. At grid point (i, r) the body
  reads rows 5000 i .. 5000 i + 4999 of x and weight matrix r, multiplies them, and stores the
  5000 x 256 product as block (r, i) of the projected array; it keeps nothing between points.
  Here: the contents the region finds (V), a window's block at a point (iblk), what the body leaves in
  the output window's buffer (projBlock: its one store, read back), and the per-point record the
  launch theorem is applied to (dats).
-/
import proofs.«173822_j17076789969202_1_alg».proof.Proof.Gen.KernelIdeal.Launch
import proofs.«173822_j17076789969202_1_alg».proof.Proof.Gen.KernelIdeal.Skeleton
import proofs.«173822_j17076789969202_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core c's buffer contents when the region is entered: the launch memory after the three host lines
    before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output block, as a rectangle of the staging buffer. -/
abbrev rOut : Rect S1x5000x256 := Rect.unit (s := S1x5000x256) ![0, 0, 0] S1x5000x256.size inb_S1x5000x256_S1x5000x256_0_0_0

/-- What the body leaves in the output window's buffer, from the two input blocks: its one store,
    which covers the buffer, of the rows-times-weights product. -/
def projBlock (x0 : Vec F S5000x256 .f32) (x1 : Vec F S1x256x256 .f32) : Vec F S1x5000x256 .bf16 :=
  View.canon [⟨rOut, k0_pay1 x0 x1⟩]

/-- The per-point record on core c: the arrays as the region finds them; after the body at point t the
    two input buffers hold their blocks and the output buffer the product of those blocks; the invariant
    is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => projBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = projBlock (iblk m c 0 t) (iblk m c 1 t) := by dsimp only [dats]

/-- The statement of the run that the frame and the value are both read off: every weakly fair execution
    ends, faulting nowhere, with each array of the region at what the record computes and every other
    buffer as the host tail leaves it. -/
abbrev RunMain : Prop :=
  θ_run defs (onTc (τ := τ) (main (F := F))) (s₀ m ρ)
    (Pipeline.FramePost cfgs (dats m) 0 (Pipeline.afterTail₀ cfgs (dats m) 0 (V0 m) [hostOps1]))

end Cert.KernelIdeal.Fr

end
-- ==== Proof.FrameI.lean ====
/-
  The frame of the projection kernel's program, for any float instance: it runs to the end on every core,
  faulting nowhere, and its four argument arrays end as they were launched.

  The program is three host lines (x as a 50000 x 256 matrix; the nine weight matrices stacked), one
  region over a 10 x 9 grid, and 204 host lines. The region stages three arrays: the matrix x (read in
  blocks of 5000 rows), the stacked weights (read one 256 x 256 matrix at a time), and the projected array
  (written one 5000 x 256 block at a time). At grid point (i, r) the body multiplies row block i of x by
  weight matrix r and stores the product over the whole output buffer, which the pipeline writes back as
  block (r, i) of the projected array.

  The road: the host lines around the region write only their own results, so they leave the arguments and
  (after the region) the staged arrays alone; the body's triple at generic buffers; the body obligation of
  the launch theorem at a generic point; the run of the whole program around the region; and the frame read
  off the run's postcondition at the four arguments.
-/
import proofs.«173822_j17076789969202_1_alg».proof.Proof.FrameDataI
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region

The program is three host lines, the region, and 204 host lines. Every host line writes one buffer, its
result, and allocates nothing. The results of the lines after the region are buffers of their own: none is
an argument array and none is an array the region stages. -/

/-- The buffers the lines after the region must leave alone: the four argument arrays, and the three arrays
    the region stages (x as a matrix, the stacked weights, the projected array). -/
abbrev kept : List (Ref sig .tc) := [main_arg0, main_arg1, main_arg2, main_arg3, main_v0, main_v2, main_v3]

/-- A line whose one result is outside a list of references writes no buffer of the list. -/
theorem result_avoids (L : List (Ref sig .tc)) (y : Ref sig .tc) (h : ∀ r ∈ L, r ≠ y) :
    ∀ r ∈ L, Proc.devRef (τ := τ) .tc r ∉ ({Proc.devRef .tc y} : Finset (DevRef τ sig)) :=
  fun r hr hm => StableHlo.devRef_ne_of_ne (h r hr) (Finset.mem_singleton.mp hm)

set_option maxHeartbeats 40000000 in
/-- No line after the region writes a kept buffer: line by line, its result is another reference. -/
theorem tail_avoids : (hostOps1 : List (HloOp τ sig (Elt F))).Forall fun op =>
    ∀ r ∈ kept, Proc.devRef (τ := τ) .tc r ∉ op.writes := by
  simp only [hostOps1, List.Forall, StableHlo.nullary_writes, StableHlo.unary_writes, StableHlo.binary_writes,
    StableHlo.ternary_writes, StableHlo.reshape_writes]
  repeat' apply And.intro
  all_goals exact result_avoids kept _ (by decide)

/-- The same, read at one line and one kept buffer. -/
theorem tail_keeps {op : HloOp τ sig (Elt F)} (hop : op ∈ (hostOps1 : List (HloOp τ sig (Elt F))))
    {r : Ref sig .tc} (hr : r ∈ kept) : Proc.devRef (τ := τ) .tc r ∉ op.writes :=
  List.forall_iff_forall_mem.mp tail_avoids op hop r hr

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [hostOps1, List.Forall]; repeat' constructor

set_option maxRecDepth 100000 in
/-- The main function is the three lines, the region, the 204 lines: run around the region, it is the region
    continued by the later lines, entered at the contents the three lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: each is an array of the region or a buffer that
    bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And they write none of the three arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact tail_keeps hop (r := main_v0) (by decide)
  · exact tail_keeps hop (r := main_v2) (by decide)
  · exact tail_keeps hop (r := main_v3) (by decide)

/-! ## The arguments through the lines -/

/-- None of the three lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 0 ends as
    launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (fun op hop =>
      tail_keeps (r := main_arg0) (by simpa only [List.flatten_cons, List.flatten_nil, List.append_nil] using hop) (by decide)),
    Pipeline.withArrays_of_ne _ c (V0 m c) _ main_arg0 (by exact (by decide : ∀ w, Pipeline.arrRef spec0 w ≠ main_arg0))]
  exact V_main_arg0 m c

/-- None of the three lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 1 ends as
    launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (fun op hop =>
      tail_keeps (r := main_arg1) (by simpa only [List.flatten_cons, List.flatten_nil, List.append_nil] using hop) (by decide)),
    Pipeline.withArrays_of_ne _ c (V0 m c) _ main_arg1 (by exact (by decide : ∀ w, Pipeline.arrRef spec0 w ≠ main_arg1))]
  exact V_main_arg1 m c

/-- None of the three lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 2 ends as
    launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (fun op hop =>
      tail_keeps (r := main_arg2) (by simpa only [List.flatten_cons, List.flatten_nil, List.append_nil] using hop) (by decide)),
    Pipeline.withArrays_of_ne _ c (V0 m c) _ main_arg2 (by exact (by decide : ∀ w, Pipeline.arrRef spec0 w ≠ main_arg2))]
  exact V_main_arg2 m c

/-- None of the three lines before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-- Nor does a line after it, and the region writes only the array it projects into: argument 3 ends as
    launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (fun op hop =>
      tail_keeps (r := main_arg3) (by simpa only [List.flatten_cons, List.flatten_nil, List.append_nil] using hop) (by decide)),
    Pipeline.withArrays_of_ne _ c (V0 m c) _ main_arg3 (by exact (by decide : ∀ w, Pipeline.arrRef spec0 w ≠ main_arg3))]
  exact V_main_arg3 m c

/-! ## The body's triple

At a grid point the body reads its two input buffers whole (a block of 5000 rows of x, one 256 x 256
weight matrix), reads its output buffer (a value nothing uses), and stores the rows-times-weights product
over the whole output buffer. -/

/-- The one store of the body covers the output buffer. -/
theorem coverOut (p0 : Vec F S1x5000x256 .bf16) (y : S1x5000x256.Idx) :
    ∃ pc ∈ ([⟨rOut, p0⟩] : List (View.Piece (Elt F) S1x5000x256 .bf16)), y ∈ pc.1.set :=
  View.cover_of_tiled [⟨rOut, p0⟩] S1x5000x256.size (by rfl) y

set_option maxHeartbeats 1000000 in
/-- The body on whole buffers, the inputs at contents x0 and x1 and the output at anything, runs to the
    continuation with the inputs as they were and the output at the product of x0 and x1: a whole-buffer
    load reads the contents, and the covering store leaves its payload whatever was there. -/
theorem sound_kernel (c : Dev nD) (E : Set ℕ) (i : grid0.Coords)
    (arg2 : Memref sig .tc .vmem S5000x256 .f32) (harg2 : arg2.IsWhole)
    (arg3 : Memref sig .tc .vmem S1x256x256 .f32) (harg3 : arg3.IsWhole)
    (arg4 : Memref sig .tc .vmem S1x5000x256 .bf16) (harg4 : arg4.IsWhole)
    (x0 : Vec F S5000x256 .f32) (x1 : Vec F S1x256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (projBlock x0 x1)) -∗ K ⟨⟩))
      ⊢ wp frame (wpE (defs₀ (F := F)) Variants.none c none) E (cc0__project_kernel i arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz0 : (![0, 0] : Fin S5000x256.rank → Nat) = fun _ => 0 := funext fun a => by fin_cases a <;> rfl
  have hz1 : (![0, 0, 0] : Fin S1x256x256.rank → Nat) = fun _ => 0 := funext fun a => by fin_cases a <;> rfl
  rw [View.read_writes_eq_canon _ _ _ (coverOut _)]
  simp only [View.readAt_eq_ld, View.ld_unit_zero (S := S5000x256) hz0, View.ld_unit_zero (S := S1x256x256) hz1]
  rfl

/-! ## What the body finds in the input buffers

An input window's current buffer holds the window's block at every point, whether the block was fetched at
that point or was already there: the rows of x change only when the first coordinate moves, so their buffer is
fetched at every ninth point and found in place at the eight between; the weight matrix is fetched at every
point. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body obligation -/

/-- What the body is called with at point t: the invariant, what the core owes, and each window's current
    buffer — the inputs at their blocks, the output at whatever the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer at what the record says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies at those blocks;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 100000 in
set_option backward.isDefEq.respectTransparency.types false in
/-- From any launch memory with zero counters, every weakly fair execution of the program on the TensorCores
    ends, faulting nowhere; at the end each array of the region holds what the record computes, and every other
    unscoped buffer what the 204 later lines make of what the region found. -/
theorem run_main : RunMain m ρ :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end on every core, and its four argument arrays end as launched. Each
    is unscoped and no array of the region, so it ends at what the later lines leave of it, which is what was
    launched (no line writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Fr

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.ProjValue.lean ====
/-
  What the projection region leaves in its output array.

  The region's grid is 10 x 9; at point (i, r) the body multiplies rows 5000 i .. 5000 i + 4999 of the node matrix
  (50000 x 256) by weight matrix r of the stack (9 x 256 x 256) and writes the 5000 x 256 product as block (r, i) of
  the 9 x 50000 x 256 output. Every element of the output lies in exactly one such block, so after the region the
  output holds, at (r, n, o), the sum over k of x(n, k) * W(r, k, o): one whole-array function (projOf) of what the
  region found in its two input arrays. Those two arrays are themselves the launch arguments re-laid by the three
  host lines before the region: x with its leading unit axis dropped, and the self weight stacked before the eight
  relation weights; so slab 0 of the output is x times the self weight and slab r + 1 is x times relation weight r.
  Nothing here needs the inputs to be finite: only sums and products are formed, none rearranged.
-/
import proofs.«173822_j17076789969202_1_alg».proof.Proof.FrameDataI
import proofs.«173822_j17076789969202_1_alg».proof.Proof.LibPlainDot
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ)

/-- The projected array as one function of the node matrix and the weight stack: entry (r, n, o) is the sum over
    k of x(n, k) * W(r, k, o). -/
def projOf (X : S50000x256.Idx → EReal) (W : S9x256x256.Idx → EReal) : S9x50000x256.Idx → EReal :=
  fun i => ∑ k : Fin 256, X (ix2 (n0 := 50000) (n1 := 256) (i 1) k) * W (ix3 (n0 := 9) (n1 := 256) (n2 := 256) (i 0) k (i 2))

theorem hz3 : (![0, 0, 0] : Fin 3 → Nat) = fun _ => 0 := funext fun a => by fin_cases a <;> rfl

/-- The body's one stored value at (0, p, q): row p of the loaded rows times column q of the loaded weight matrix. -/
theorem pay_apply (x0 : Vec Ideal S5000x256 .f32) (x1 : Vec Ideal S1x256x256 .f32) (p : Fin 5000) (q : Fin 256) :
    k0_pay1 x0 x1 (ix3 (0 : Fin 1) p q) = ∑ k : Fin 256, x0 (ix2 p k) * x1 (ix3 (0 : Fin 1) k q) := by
  unfold k0_pay1
  refine (shapeCast_ab_1ab_apply _ _ (0 : Fin 1) p q).trans ?_
  refine (Ideal.matmul_constant_zero_apply dot_S5000x256_S256x256_S5000x256_1_0_0_1_n_n none _ _ (ix2 p q)).trans ?_
  refine (Cert.LibPlainDot.sum_plain dot_S5000x256_S256x256_S5000x256_1_0_0_1_n_n rfl rfl rfl rfl rfl rfl _ _ p q).trans ?_
  refine Finset.sum_congr rfl fun k _ => ?_
  refine congrArg₂ (· * ·) ?_ ?_
  · show shapeCast S5000x256 x0 _ (ix2 p k) = x0 (ix2 p k)
    rw [shapeCast_self]
  · exact shapeCast_1ab_ab_apply x1 _ k q

/-- The printed index maps over the grid: the rows block of the node matrix moves with the output's row block, the
    weight matrix with the output's slab, every other block index is 0. -/
theorem idx_facts : ∀ t : Fin cfg0.N,
    win0_0.index t (0 : Fin 2) = win0_2.index t (1 : Fin 3) ∧ win0_0.index t (1 : Fin 2) = 0
    ∧ win0_1.index t (0 : Fin 3) = win0_2.index t (0 : Fin 3) ∧ win0_1.index t (1 : Fin 3) = 0
    ∧ win0_1.index t (2 : Fin 3) = 0 ∧ win0_2.index t (2 : Fin 3) = 0
    ∧ win0_2.index t (0 : Fin 3) < 9 ∧ win0_2.index t (1 : Fin 3) < 10 :=
  (by decide +kernel : ∀ t : Fin grid0.N, _)

/-- Every (slab, row block) pair is some grid point's. -/
theorem idx_onto : ∀ (q0 : Fin 9) (q1 : Fin 10), ∃ t : Fin cfg0.N, win0_2.index t = ![q0.val, q1.val, 0] :=
  (by decide +kernel : ∀ (q0 : Fin 9) (q1 : Fin 10), ∃ t : Fin grid0.N, win0_2.index t = ![q0.val, q1.val, 0])

/-- An element of the rows block at point t is the node matrix's element 5000 * (block index) rows further down. -/
theorem iblk0_apply (c : Dev nD) (t : Fin cfg0.N) (p : Fin 5000) (k : Fin 256) (i : S50000x256.Idx)
    (h0 : (i 0).val = win0_0.index t (0 : Fin 2) * 5000 + p.val) (h1 : (i 1).val = win0_0.index t (1 : Fin 2) * 256 + k.val) :
    (iblk m c 0 t : Vec Ideal S5000x256 .f32) (ix2 p k) = V m c main_v0 i := by
  unfold iblk
  rw [View.read_apply]
  show V m c main_v0 _ = V m c main_v0 i
  refine congrArg (V m c main_v0) ?_
  funext a
  apply Fin.ext
  match a with
  | ⟨0, _⟩ => show win0_0.index t (0 : Fin 2) * 5000 + 1 * p.val = (i 0).val; omega
  | ⟨1, _⟩ => show win0_0.index t (1 : Fin 2) * 256 + 1 * k.val = (i 1).val; omega

/-- An element of the weight block at point t is the stack's element in slab (block index). -/
theorem iblk1_apply (c : Dev nD) (t : Fin cfg0.N) (k : Fin 256) (q : Fin 256) (i : S9x256x256.Idx)
    (h0 : (i 0).val = win0_1.index t (0 : Fin 3) * 1 + 0) (h1 : (i 1).val = win0_1.index t (1 : Fin 3) * 256 + k.val)
    (h2 : (i 2).val = win0_1.index t (2 : Fin 3) * 256 + q.val) :
    (iblk m c 1 t : Vec Ideal S1x256x256 .f32) (ix3 (0 : Fin 1) k q) = V m c main_v2 i := by
  unfold iblk
  rw [View.read_apply]
  show V m c main_v2 _ = V m c main_v2 i
  refine congrArg (V m c main_v2) ?_
  funext a
  apply Fin.ext
  match a with
  | ⟨0, _⟩ => show win0_1.index t (0 : Fin 3) * 1 + 1 * 0 = (i 0).val; omega
  | ⟨1, _⟩ => show win0_1.index t (1 : Fin 3) * 256 + 1 * k.val = (i 1).val; omega
  | ⟨2, _⟩ => show win0_1.index t (2 : Fin 3) * 256 + 1 * q.val = (i 2).val; omega

/-- What point t writes back is block t of projOf of the two input arrays as the region finds them. -/
theorem flushed_eq (c : Dev nD) (t : Fin cfg0.N) :
    (dats (F := Ideal) m 0 c).flushed 2 t
      = ((cfg0.win 2).blk t).view.read (Elt Ideal) (projOf (V m c main_v0) (V m c main_v2)) := by
  show (cfg0.win 2).cut (grid0.coords t) ((dats m 0 c).after 2 t) = _
  rw [after2]
  unfold projBlock
  rw [View.canon_unit_zero hz3]
  obtain ⟨e0, e1, e2, e3, e4, e5, e6, e7⟩ := idx_facts t
  funext j
  obtain ⟨b, p, q, rfl⟩ : ∃ (b : Fin 1) (p : Fin 5000) (q : Fin 256), j = ix3 b p q := ⟨j 0, j 1, j 2, eq_ix3 j⟩
  obtain rfl : b = 0 := Subsingleton.elim _ _
  show k0_pay1 (iblk m c 0 t) (iblk m c 1 t) (ix3 (0 : Fin 1) p q)
    = projOf (V m c main_v0) (V m c main_v2) (((cfg0.win 2).blk t).view.emb (ix3 (0 : Fin 1) p q))
  refine (pay_apply (iblk m c 0 t) (iblk m c 1 t) p q).trans ?_
  unfold projOf
  refine Finset.sum_congr rfl fun k _ => ?_
  refine congrArg₂ (· * ·) ?_ ?_
  · refine iblk0_apply m c t p k _ ?_ ?_
    · show win0_2.index t (1 : Fin 3) * 5000 + 1 * p.val = win0_0.index t (0 : Fin 2) * 5000 + p.val
      omega
    · show k.val = win0_0.index t (1 : Fin 2) * 256 + k.val
      omega
  · refine iblk1_apply m c t k q _ ?_ ?_ ?_
    · show win0_2.index t (0 : Fin 3) * 1 + 1 * 0 = win0_1.index t (0 : Fin 3) * 1 + 0
      omega
    · show k.val = win0_1.index t (1 : Fin 3) * 256 + k.val
      omega
    · show win0_2.index t (2 : Fin 3) * 256 + 1 * q.val = win0_1.index t (2 : Fin 3) * 256 + q.val
      omega

/-- An index of the output array is in point t's block iff each coordinate is in the block's range on its axis. -/
theorem mem_blk (t : Fin cfg0.N) (i : S9x50000x256.Idx) :
    i ∈ ((cfg0.win 2).blk t).view.set ↔ ∀ a : Fin 3, win0_2.index t a * S1x5000x256.size a ≤ (i a).val
      ∧ (i a).val < win0_2.index t a * S1x5000x256.size a + S1x5000x256.size a := by
  show i ∈ ((View.whole main_v3).slice (win0_2.rect t)).set ↔ _
  rw [View.set_slice_whole, Rect.mem_set_unit]
  exact Iff.rfl

/-- The blocks cover the output array: (r, n, o) lies in the block of the point with slab r and row block n / 5000. -/
theorem cover (i : S9x50000x256.Idx) :
    ∃ t : Fin cfg0.N, (cfg0.win 2).flush t = true ∧ i ∈ ((cfg0.win 2).blk t).view.set := by
  have hi0 : (i 0).val < 9 := (i 0).isLt
  have hi1 : (i 1).val < 50000 := (i 1).isLt
  have hi2 : (i 2).val < 256 := (i 2).isLt
  obtain ⟨t, ht⟩ := idx_onto ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 5000 ≤ (i 1).val ∧ (i 1).val < win0_2.index t (1 : Fin 3) * 5000 + 5000
    omega
  | ⟨2, _⟩ =>
    show win0_2.index t (2 : Fin 3) * 256 ≤ (i 2).val ∧ (i 2).val < win0_2.index t (2 : Fin 3) * 256 + 256
    omega

/-- The output array after the region: projOf of the two input arrays as the region finds them. -/
theorem proj_final (c : Dev nD) :
    (dats (F := Ideal) m 0 c).arrAt 2 cfg0.N = projOf (V m c main_v0) (V m c main_v2) :=
  (dats (F := Ideal) m 0 c).arrAt_eq_of_cover 2 (projOf (V m c main_v0) (V m c main_v2))
    (fun t _ => flushed_eq m c t) cover

end Cert.KernelIdeal.Val

end
-- ==== Proof.KTailOps.lean ====
/-
  The kernel program's host tail, cut at its natural joints.

  The 204 host operations after the region are, in order: three that read slab 0 of the projected array as a
  float matrix (the self term); then eight groups of 25, one per relation — read the relation's two edge columns,
  wrap negative node numbers, gather the rows of the relation's slab, add them into the running result —; and one
  last operation that gives the result a leading unit axis. The lists below are those ten pieces; their
  concatenation is the tail.
-/
import proofs.«173822_j17076789969202_1_alg».proof.Proof.Gen.KernelIdeal.Launch
import Idealize.ShloMosaic.Lib.StableHlo.Run

set_option maxRecDepth 16384

noncomputable section

namespace Cert.KernelIdeal.Tail

open Idealize.ShloMosaic Idealize.ShloMosaic.TcCoe Idealize.SL.Sem
open Cert.KernelIdeal Cert.KernelIdeal.Gen

variable {F : FTy → Type} [FloatOps F]

/-- The self term: slab 0 of the projected array, as a float matrix. -/
abbrev tailPre : List (HloOp τ sig (Elt F)) :=
  [ StableHlo.unary main_v3 main_v4 ((extractStridedSlice S1x50000x256 ![0, 0, 0] · slices_S9x50000x256_S1x50000x256_0_0_0) : (⟨S9x50000x256, .bf16⟩ : BufTy).Contents (Elt F) → (⟨S1x50000x256, .bf16⟩ : BufTy).Contents (Elt F)),
    StableHlo.reshape main_v4 main_v5 rfl shapeCasts_S1x50000x256_S50000x256,
    StableHlo.unary main_v5 main_v6 ((extf .f32 · bitsLt_bf16_f32) : (⟨S50000x256, .bf16⟩ : BufTy).Contents (Elt F) → (⟨S50000x256, .f32⟩ : BufTy).Contents (Elt F)) ]

set_option maxHeartbeats 4000000 in
/-- Relation 0's group: its edge columns, the gathered rows of slab 1, the accumulation. -/
abbrev tailR0 : List (HloOp τ sig (Elt F)) :=
  [ StableHlo.unary main_arg3 main_v7 ((extractStridedSlice S1x200000x1 ![0, 0, 0] · slices_S8x200000x2_S1x200000x1_0_0_0) : (⟨S8x200000x2, .i32⟩ : BufTy).Contents (Elt F) → (⟨S1x200000x1, .i32⟩ : BufTy).Contents (Elt F)),
    StableHlo.reshape main_v7 main_v8 rfl shapeCasts_S1x200000x1_S200000,
    StableHlo.unary main_arg3 main_v9 ((extractStridedSlice S1x200000x1 ![0, 0, 1] · slices_S8x200000x2_S1x200000x1_0_0_1) : (⟨S8x200000x2, .i32⟩ : BufTy).Contents (Elt F) → (⟨S1x200000x1, .i32⟩ : BufTy).Contents (Elt F)),
    StableHlo.reshape main_v9 main_v10 rfl shapeCasts_S1x200000x1_S200000,
    StableHlo.unary main_v3 main_v11 ((extractStridedSlice S1x50000x256 ![1, 0, 0] · slices_S9x50000x256_S1x50000x256_1_0_0) : (⟨S9x50000x256, .bf16⟩ : BufTy).Contents (Elt F) → (⟨S1x50000x256, .bf16⟩ : BufTy).Contents (Elt F)),
    StableHlo.reshape main_v11 main_v12 rfl shapeCasts_S1x50000x256_S50000x256,
    StableHlo.nullary main_c (constantI S_ 32 0#32),
    StableHlo.unary main_c main_v13 (broadcastInDim S200000 ![] bcast_S_S200000 : (⟨S_, .i32⟩ : BufTy).Contents (Elt F) → (⟨S200000, .i32⟩ : BufTy).Contents (Elt F)),
    StableHlo.binary main_v8 main_v13 main_v14 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v15 (broadcastInDim S200000 ![] bcast_S_S200000 : (⟨S_, .i32⟩ : BufTy).Contents (Elt F) → (⟨S200000, .i32⟩ : BufTy).Contents (Elt F)),
    StableHlo.binary main_v8 main_v15 main_v16 (addi : (⟨S200000, .i32⟩ : BufTy).Contents (Elt F) → (⟨S200000, .i32⟩ : BufTy).Contents (Elt F) → (⟨S200000, .i32⟩ : BufTy).Contents (Elt F)),
    StableHlo.ternary main_v14 main_v16 main_v8 main_v17 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v17 main_v18 (broadcastInDim S200000x1 ![0] bcast_S200000_S200000x1_0 : (⟨S200000, .i32⟩ : BufTy).Contents (Elt F) → (⟨S200000x1, .i32⟩ : BufTy).Contents (Elt F)),
    StableHlo.binary main_v12 main_v18 main_v19 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v19 main_v20 ((extf .f32 · bitsLt_bf16_f32) : (⟨S200000x256, .bf16⟩ : BufTy).Contents (Elt F) → (⟨S200000x256, .f32⟩ : BufTy).Contents (Elt F)),
    StableHlo.nullary main_c_1 (constantI S_ 32 0#32),
    StableHlo.unary main_c_1 main_v21 (broadcastInDim S200000 ![] bcast_S_S200000 : (⟨S_, .i32⟩ : BufTy).Contents (Elt F) → (⟨S200000, .i32⟩ : BufTy).Contents (Elt F)),
    StableHlo.binary main_v10 main_v21 main_v22 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 50000#32),
    StableHlo.unary main_c_2 main_v23 (broadcastInDim S200000 ![] bcast_S_S200000 : (⟨S_, .i32⟩ : BufTy).Contents (Elt F) → (⟨S200000, .i32⟩ : BufTy).Contents (Elt F)),
    StableHlo.binary main_v10 main_v23 main_v24 (addi : (⟨S200000, .i32⟩ : BufTy).Contents (Elt F) → (⟨S200000, .i32⟩ : BufTy).Contents (Elt F) → (⟨S200000, .i32⟩ : BufTy).Contents (Elt F)),
    StableHlo.ternary main_v22 main_v24 main_v10 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v25 main_v26 (broadcastInDim S200000x1 ![0] bcast_S200000_S200000x1_0 : (⟨S200000, .i32⟩ : BufTy).Contents (Elt F) → (⟨S200000x1, .i32⟩ : BufTy).Contents (Elt F)),
    StableHlo.ternary main_v6 main_v26 main_v20 main_v27 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 1's group: its edge columns, the gathered rows of slab 2, the accumulation. -/
abbrev tailR1 : List (HloOp τ sig (Elt F)) :=
  [ StableHlo.unary main_arg3 main_v28 ((extractStridedSlice S1x200000x1 ![1, 0, 0] · slices_S8x200000x2_S1x200000x1_1_0_0) : (⟨S8x200000x2, .i32⟩ : BufTy).Contents (Elt F) → (⟨S1x200000x1, .i32⟩ : BufTy).Contents (Elt F)),
    StableHlo.reshape main_v28 main_v29 rfl shapeCasts_S1x200000x1_S200000,
    StableHlo.unary main_arg3 main_v30 ((extractStridedSlice S1x200000x1 ![1, 0, 1] · slices_S8x200000x2_S1x200000x1_1_0_1) : (⟨S8x200000x2, .i32⟩ : BufTy).Contents (Elt F) → (⟨S1x200000x1, .i32⟩ : BufTy).Contents (Elt F)),
    StableHlo.reshape main_v30 main_v31 rfl shapeCasts_S1x200000x1_S200000,
    StableHlo.unary main_v3 main_v32 ((extractStridedSlice S1x50000x256 ![2, 0, 0] · slices_S9x50000x256_S1x50000x256_2_0_0) : (⟨S9x50000x256, .bf16⟩ : BufTy).Contents (Elt F) → (⟨S1x50000x256, .bf16⟩ : BufTy).Contents (Elt F)),
    StableHlo.reshape main_v32 main_v33 rfl shapeCasts_S1x50000x256_S50000x256,
    StableHlo.nullary main_c_3 (constantI S_ 32 0#32),
    StableHlo.unary main_c_3 main_v34 (broadcastInDim S200000 ![] bcast_S_S200000 : (⟨S_, .i32⟩ : BufTy).Contents (Elt F) → (⟨S200000, .i32⟩ : BufTy).Contents (Elt F)),
    StableHlo.binary main_v29 main_v34 main_v35 (cmpi .slt : (⟨S200000, .i32⟩ : BufTy).Contents (Elt F) → (⟨S200000, .i32⟩ : BufTy).Contents (Elt F) → (⟨S200000, .i1⟩ : BufTy).Contents (Elt F)),
    StableHlo.nullary main_c_4 (constantI S_ 32 50000#32),
    StableHlo.unary main_c_4 main_v36 (broadcastInDim S200000 ![] bcast_S_S200000 : (⟨S_, .i32⟩ : BufTy).Contents (Elt F) → (⟨S200000, .i32⟩ : BufTy).Contents (Elt F)),
    StableHlo.binary main_v29 main_v36 main_v37 (addi : (⟨S200000, .i32⟩ : BufTy).Contents (Elt F) → (⟨S200000, .i32⟩ : BufTy).Contents (Elt F) → (⟨S200000, .i32⟩ : BufTy).Contents (Elt F)),
    StableHlo.ternary main_v35 main_v37 main_v29 main_v38 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v38 main_v39 (broadcastInDim S200000x1 ![0] bcast_S200000_S200000x1_0 : (⟨S200000, .i32⟩ : BufTy).Contents (Elt F) → (⟨S200000x1, .i32⟩ : BufTy).Contents (Elt F)),
    StableHlo.binary main_v33 main_v39 main_v40 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v40 main_v41 ((extf .f32 · bitsLt_bf16_f32) : (⟨S200000x256, .bf16⟩ : BufTy).Contents (Elt F) → (⟨S200000x256, .f32⟩ : BufTy).Contents (Elt F)),
    StableHlo.nullary main_c_5 (constantI S_ 32 0#32),
    StableHlo.unary main_c_5 main_v42 (broadcastInDim S200000 ![] bcast_S_S200000 : (⟨S_, .i32⟩ : BufTy).Contents (Elt F) → (⟨S200000, .i32⟩ : BufTy).Contents (Elt F)),
    StableHlo.binary main_v31 main_v42 main_v43 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 50000#32),
    StableHlo.unary main_c_6 main_v44 (broadcastInDim S200000 ![] bcast_S_S200000 : (⟨S_, .i32⟩ : BufTy).Contents (Elt F) → (⟨S200000, .i32⟩ : BufTy).Contents (Elt F)),
    StableHlo.binary main_v31 main_v44 main_v45 (addi : (⟨S200000, .i32⟩ : BufTy).Contents (Elt F) → (⟨S200000, .i32⟩ : BufTy).Contents (Elt F) → (⟨S200000, .i32⟩ : BufTy).Contents (Elt F)),
    StableHlo.ternary main_v43 main_v45 main_v31 main_v46 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v46 main_v47 (broadcastInDim S200000x1 ![0] bcast_S200000_S200000x1_0 : (⟨S200000, .i32⟩ : BufTy).Contents (Elt F) → (⟨S200000x1, .i32⟩ : BufTy).Contents (Elt F)),
    StableHlo.ternary main_v27 main_v47 main_v41 main_v48 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 2's group: its edge columns, the gathered rows of slab 3, the accumulation. -/
abbrev tailR2 : List (HloOp τ sig (Elt F)) :=
  [ StableHlo.unary main_arg3 main_v49 ((extractStridedSlice S1x200000x1 ![2, 0, 0] · slices_S8x200000x2_S1x200000x1_2_0_0) : (⟨S8x200000x2, .i32⟩ : BufTy).Contents (Elt F) → (⟨S1x200000x1, .i32⟩ : BufTy).Contents (Elt F)),
    StableHlo.reshape main_v49 main_v50 rfl shapeCasts_S1x200000x1_S200000,
    StableHlo.unary main_arg3 main_v51 ((extractStridedSlice S1x200000x1 ![2, 0, 1] · slices_S8x200000x2_S1x200000x1_2_0_1) : (⟨S8x200000x2, .i32⟩ : BufTy).Contents (Elt F) → (⟨S1x200000x1, .i32⟩ : BufTy).Contents (Elt F)),
    StableHlo.reshape main_v51 main_v52 rfl shapeCasts_S1x200000x1_S200000,
    StableHlo.unary main_v3 main_v53 ((extractStridedSlice S1x50000x256 ![3, 0, 0] · slices_S9x50000x256_S1x50000x256_3_0_0) : (⟨S9x50000x256, .bf16⟩ : BufTy).Contents (Elt F) → (⟨S1x50000x256, .bf16⟩ : BufTy).Contents (Elt F)),
    StableHlo.reshape main_v53 main_v54 rfl shapeCasts_S1x50000x256_S50000x256,
    StableHlo.nullary main_c_7 (constantI S_ 32 0#32),
    StableHlo.unary main_c_7 main_v55 (broadcastInDim S200000 ![] bcast_S_S200000 : (⟨S_, .i32⟩ : BufTy).Contents (Elt F) → (⟨S200000, .i32⟩ : BufTy).Contents (Elt F)),
    StableHlo.binary main_v50 main_v55 main_v56 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 50000#32),
    StableHlo.unary main_c_8 main_v57 (broadcastInDim S200000 ![] bcast_S_S200000 : (⟨S_, .i32⟩ : BufTy).Contents (Elt F) → (⟨S200000, .i32⟩ : BufTy).Contents (Elt F)),
    StableHlo.binary main_v50 main_v57 main_v58 (addi : (⟨S200000, .i32⟩ : BufTy).Contents (Elt F) → (⟨S200000, .i32⟩ : BufTy).Contents (Elt F) → (⟨S200000, .i32⟩ : BufTy).Contents (Elt F)),
    StableHlo.ternary main_v56 main_v58 main_v50 main_v59 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v59 main_v60 (broadcastInDim S200000x1 ![0] bcast_S200000_S200000x1_0 : (⟨S200000, .i32⟩ : BufTy).Contents (Elt F) → (⟨S200000x1, .i32⟩ : BufTy).Contents (Elt F)),
    StableHlo.binary main_v54 main_v60 main_v61 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v61 main_v62 ((extf .f32 · bitsLt_bf16_f32) : (⟨S200000x256, .bf16⟩ : BufTy).Contents (Elt F) → (⟨S200000x256, .f32⟩ : BufTy).Contents (Elt F)),
    StableHlo.nullary main_c_9 (constantI S_ 32 0#32),
    StableHlo.unary main_c_9 main_v63 (broadcastInDim S200000 ![] bcast_S_S200000 : (⟨S_, .i32⟩ : BufTy).Contents (Elt F) → (⟨S200000, .i32⟩ : BufTy).Contents (Elt F)),
    StableHlo.binary main_v52 main_v63 main_v64 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 50000#32),
    StableHlo.unary main_c_10 main_v65 (broadcastInDim S200000 ![] bcast_S_S200000 : (⟨S_, .i32⟩ : BufTy).Contents (Elt F) → (⟨S200000, .i32⟩ : BufTy).Contents (Elt F)),
    StableHlo.binary main_v52 main_v65 main_v66 (addi : (⟨S200000, .i32⟩ : BufTy).Contents (Elt F) → (⟨S200000, .i32⟩ : BufTy).Contents (Elt F) → (⟨S200000, .i32⟩ : BufTy).Contents (Elt F)),
    StableHlo.ternary main_v64 main_v66 main_v52 main_v67 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v67 main_v68 (broadcastInDim S200000x1 ![0] bcast_S200000_S200000x1_0 : (⟨S200000, .i32⟩ : BufTy).Contents (Elt F) → (⟨S200000x1, .i32⟩ : BufTy).Contents (Elt F)),
    StableHlo.ternary main_v48 main_v68 main_v62 main_v69 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 3's group: its edge columns, the gathered rows of slab 4, the accumulation. -/
abbrev tailR3 : List (HloOp τ sig (Elt F)) :=
  [ StableHlo.unary main_arg3 main_v70 ((extractStridedSlice S1x200000x1 ![3, 0, 0] · slices_S8x200000x2_S1x200000x1_3_0_0) : (⟨S8x200000x2, .i32⟩ : BufTy).Contents (Elt F) → (⟨S1x200000x1, .i32⟩ : BufTy).Contents (Elt F)),
    StableHlo.reshape main_v70 main_v71 rfl shapeCasts_S1x200000x1_S200000,
    StableHlo.unary main_arg3 main_v72 ((extractStridedSlice S1x200000x1 ![3, 0, 1] · slices_S8x200000x2_S1x200000x1_3_0_1) : (⟨S8x200000x2, .i32⟩ : BufTy).Contents (Elt F) → (⟨S1x200000x1, .i32⟩ : BufTy).Contents (Elt F)),
    StableHlo.reshape main_v72 main_v73 rfl shapeCasts_S1x200000x1_S200000,
    StableHlo.unary main_v3 main_v74 ((extractStridedSlice S1x50000x256 ![4, 0, 0] · slices_S9x50000x256_S1x50000x256_4_0_0) : (⟨S9x50000x256, .bf16⟩ : BufTy).Contents (Elt F) → (⟨S1x50000x256, .bf16⟩ : BufTy).Contents (Elt F)),
    StableHlo.reshape main_v74 main_v75 rfl shapeCasts_S1x50000x256_S50000x256,
    StableHlo.nullary main_c_11 (constantI S_ 32 0#32),
    StableHlo.unary main_c_11 main_v76 (broadcastInDim S200000 ![] bcast_S_S200000 : (⟨S_, .i32⟩ : BufTy).Contents (Elt F) → (⟨S200000, .i32⟩ : BufTy).Contents (Elt F)),
    StableHlo.binary main_v71 main_v76 main_v77 (cmpi .slt : (⟨S200000, .i32⟩ : BufTy).Contents (Elt F) → (⟨S200000, .i32⟩ : BufTy).Contents (Elt F) → (⟨S200000, .i1⟩ : BufTy).Contents (Elt F)),
    StableHlo.nullary main_c_12 (constantI S_ 32 50000#32),
    StableHlo.unary main_c_12 main_v78 (broadcastInDim S200000 ![] bcast_S_S200000 : (⟨S_, .i32⟩ : BufTy).Contents (Elt F) → (⟨S200000, .i32⟩ : BufTy).Contents (Elt F)),
    StableHlo.binary main_v71 main_v78 main_v79 (addi : (⟨S200000, .i32⟩ : BufTy).Contents (Elt F) → (⟨S200000, .i32⟩ : BufTy).Contents (Elt F) → (⟨S200000, .i32⟩ : BufTy).Contents (Elt F)),
    StableHlo.ternary main_v77 main_v79 main_v71 main_v80 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v80 main_v81 (broadcastInDim S200000x1 ![0] bcast_S200000_S200000x1_0 : (⟨S200000, .i32⟩ : BufTy).Contents (Elt F) → (⟨S200000x1, .i32⟩ : BufTy).Contents (Elt F)),
    StableHlo.binary main_v75 main_v81 main_v82 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v82 main_v83 ((extf .f32 · bitsLt_bf16_f32) : (⟨S200000x256, .bf16⟩ : BufTy).Contents (Elt F) → (⟨S200000x256, .f32⟩ : BufTy).Contents (Elt F)),
    StableHlo.nullary main_c_13 (constantI S_ 32 0#32),
    StableHlo.unary main_c_13 main_v84 (broadcastInDim S200000 ![] bcast_S_S200000 : (⟨S_, .i32⟩ : BufTy).Contents (Elt F) → (⟨S200000, .i32⟩ : BufTy).Contents (Elt F)),
    StableHlo.binary main_v73 main_v84 main_v85 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 50000#32),
    StableHlo.unary main_c_14 main_v86 (broadcastInDim S200000 ![] bcast_S_S200000 : (⟨S_, .i32⟩ : BufTy).Contents (Elt F) → (⟨S200000, .i32⟩ : BufTy).Contents (Elt F)),
    StableHlo.binary main_v73 main_v86 main_v87 (addi : (⟨S200000, .i32⟩ : BufTy).Contents (Elt F) → (⟨S200000, .i32⟩ : BufTy).Contents (Elt F) → (⟨S200000, .i32⟩ : BufTy).Contents (Elt F)),
    StableHlo.ternary main_v85 main_v87 main_v73 main_v88 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v88 main_v89 (broadcastInDim S200000x1 ![0] bcast_S200000_S200000x1_0 : (⟨S200000, .i32⟩ : BufTy).Contents (Elt F) → (⟨S200000x1, .i32⟩ : BufTy).Contents (Elt F)),
    StableHlo.ternary main_v69 main_v89 main_v83 main_v90 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 4's group: its edge columns, the gathered rows of slab 5, the accumulation. -/
abbrev tailR4 : List (HloOp τ sig (Elt F)) :=
  [ StableHlo.unary main_arg3 main_v91 ((extractStridedSlice S1x200000x1 ![4, 0, 0] · slices_S8x200000x2_S1x200000x1_4_0_0) : (⟨S8x200000x2, .i32⟩ : BufTy).Contents (Elt F) → (⟨S1x200000x1, .i32⟩ : BufTy).Contents (Elt F)),
    StableHlo.reshape main_v91 main_v92 rfl shapeCasts_S1x200000x1_S200000,
    StableHlo.unary main_arg3 main_v93 ((extractStridedSlice S1x200000x1 ![4, 0, 1] · slices_S8x200000x2_S1x200000x1_4_0_1) : (⟨S8x200000x2, .i32⟩ : BufTy).Contents (Elt F) → (⟨S1x200000x1, .i32⟩ : BufTy).Contents (Elt F)),
    StableHlo.reshape main_v93 main_v94 rfl shapeCasts_S1x200000x1_S200000,
    StableHlo.unary main_v3 main_v95 ((extractStridedSlice S1x50000x256 ![5, 0, 0] · slices_S9x50000x256_S1x50000x256_5_0_0) : (⟨S9x50000x256, .bf16⟩ : BufTy).Contents (Elt F) → (⟨S1x50000x256, .bf16⟩ : BufTy).Contents (Elt F)),
    StableHlo.reshape main_v95 main_v96 rfl shapeCasts_S1x50000x256_S50000x256,
    StableHlo.nullary main_c_15 (constantI S_ 32 0#32),
    StableHlo.unary main_c_15 main_v97 (broadcastInDim S200000 ![] bcast_S_S200000 : (⟨S_, .i32⟩ : BufTy).Contents (Elt F) → (⟨S200000, .i32⟩ : BufTy).Contents (Elt F)),
    StableHlo.binary main_v92 main_v97 main_v98 (cmpi .slt : (⟨S200000, .i32⟩ : BufTy).Contents (Elt F) → (⟨S200000, .i32⟩ : BufTy).Contents (Elt F) → (⟨S200000, .i1⟩ : BufTy).Contents (Elt F)),
    StableHlo.nullary main_c_16 (constantI S_ 32 50000#32),
    StableHlo.unary main_c_16 main_v99 (broadcastInDim S200000 ![] bcast_S_S200000 : (⟨S_, .i32⟩ : BufTy).Contents (Elt F) → (⟨S200000, .i32⟩ : BufTy).Contents (Elt F)),
    StableHlo.binary main_v92 main_v99 main_v100 (addi : (⟨S200000, .i32⟩ : BufTy).Contents (Elt F) → (⟨S200000, .i32⟩ : BufTy).Contents (Elt F) → (⟨S200000, .i32⟩ : BufTy).Contents (Elt F)),
    StableHlo.ternary main_v98 main_v100 main_v92 main_v101 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v101 main_v102 (broadcastInDim S200000x1 ![0] bcast_S200000_S200000x1_0 : (⟨S200000, .i32⟩ : BufTy).Contents (Elt F) → (⟨S200000x1, .i32⟩ : BufTy).Contents (Elt F)),
    StableHlo.binary main_v96 main_v102 main_v103 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v103 main_v104 ((extf .f32 · bitsLt_bf16_f32) : (⟨S200000x256, .bf16⟩ : BufTy).Contents (Elt F) → (⟨S200000x256, .f32⟩ : BufTy).Contents (Elt F)),
    StableHlo.nullary main_c_17 (constantI S_ 32 0#32),
    StableHlo.unary main_c_17 main_v105 (broadcastInDim S200000 ![] bcast_S_S200000 : (⟨S_, .i32⟩ : BufTy).Contents (Elt F) → (⟨S200000, .i32⟩ : BufTy).Contents (Elt F)),
    StableHlo.binary main_v94 main_v105 main_v106 (cmpi .slt : (⟨S200000, .i32⟩ : BufTy).Contents (Elt F) → (⟨S200000, .i32⟩ : BufTy).Contents (Elt F) → (⟨S200000, .i1⟩ : BufTy).Contents (Elt F)),
    StableHlo.nullary main_c_18 (constantI S_ 32 50000#32),
    StableHlo.unary main_c_18 main_v107 (broadcastInDim S200000 ![] bcast_S_S200000 : (⟨S_, .i32⟩ : BufTy).Contents (Elt F) → (⟨S200000, .i32⟩ : BufTy).Contents (Elt F)),
    StableHlo.binary main_v94 main_v107 main_v108 (addi : (⟨S200000, .i32⟩ : BufTy).Contents (Elt F) → (⟨S200000, .i32⟩ : BufTy).Contents (Elt F) → (⟨S200000, .i32⟩ : BufTy).Contents (Elt F)),
    StableHlo.ternary main_v106 main_v108 main_v94 main_v109 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v109 main_v110 (broadcastInDim S200000x1 ![0] bcast_S200000_S200000x1_0 : (⟨S200000, .i32⟩ : BufTy).Contents (Elt F) → (⟨S200000x1, .i32⟩ : BufTy).Contents (Elt F)),
    StableHlo.ternary main_v90 main_v110 main_v104 main_v111 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 5's group: its edge columns, the gathered rows of slab 6, the accumulation. -/
abbrev tailR5 : List (HloOp τ sig (Elt F)) :=
  [ StableHlo.unary main_arg3 main_v112 ((extractStridedSlice S1x200000x1 ![5, 0, 0] · slices_S8x200000x2_S1x200000x1_5_0_0) : (⟨S8x200000x2, .i32⟩ : BufTy).Contents (Elt F) → (⟨S1x200000x1, .i32⟩ : BufTy).Contents (Elt F)),
    StableHlo.reshape main_v112 main_v113 rfl shapeCasts_S1x200000x1_S200000,
    StableHlo.unary main_arg3 main_v114 ((extractStridedSlice S1x200000x1 ![5, 0, 1] · slices_S8x200000x2_S1x200000x1_5_0_1) : (⟨S8x200000x2, .i32⟩ : BufTy).Contents (Elt F) → (⟨S1x200000x1, .i32⟩ : BufTy).Contents (Elt F)),
    StableHlo.reshape main_v114 main_v115 rfl shapeCasts_S1x200000x1_S200000,
    StableHlo.unary main_v3 main_v116 ((extractStridedSlice S1x50000x256 ![6, 0, 0] · slices_S9x50000x256_S1x50000x256_6_0_0) : (⟨S9x50000x256, .bf16⟩ : BufTy).Contents (Elt F) → (⟨S1x50000x256, .bf16⟩ : BufTy).Contents (Elt F)),
    StableHlo.reshape main_v116 main_v117 rfl shapeCasts_S1x50000x256_S50000x256,
    StableHlo.nullary main_c_19 (constantI S_ 32 0#32),
    StableHlo.unary main_c_19 main_v118 (broadcastInDim S200000 ![] bcast_S_S200000 : (⟨S_, .i32⟩ : BufTy).Contents (Elt F) → (⟨S200000, .i32⟩ : BufTy).Contents (Elt F)),
    StableHlo.binary main_v113 main_v118 main_v119 (cmpi .slt : (⟨S200000, .i32⟩ : BufTy).Contents (Elt F) → (⟨S200000, .i32⟩ : BufTy).Contents (Elt F) → (⟨S200000, .i1⟩ : BufTy).Contents (Elt F)),
    StableHlo.nullary main_c_20 (constantI S_ 32 50000#32),
    StableHlo.unary main_c_20 main_v120 (broadcastInDim S200000 ![] bcast_S_S200000 : (⟨S_, .i32⟩ : BufTy).Contents (Elt F) → (⟨S200000, .i32⟩ : BufTy).Contents (Elt F)),
    StableHlo.binary main_v113 main_v120 main_v121 (addi : (⟨S200000, .i32⟩ : BufTy).Contents (Elt F) → (⟨S200000, .i32⟩ : BufTy).Contents (Elt F) → (⟨S200000, .i32⟩ : BufTy).Contents (Elt F)),
    StableHlo.ternary main_v119 main_v121 main_v113 main_v122 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v122 main_v123 (broadcastInDim S200000x1 ![0] bcast_S200000_S200000x1_0 : (⟨S200000, .i32⟩ : BufTy).Contents (Elt F) → (⟨S200000x1, .i32⟩ : BufTy).Contents (Elt F)),
    StableHlo.binary main_v117 main_v123 main_v124 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v124 main_v125 ((extf .f32 · bitsLt_bf16_f32) : (⟨S200000x256, .bf16⟩ : BufTy).Contents (Elt F) → (⟨S200000x256, .f32⟩ : BufTy).Contents (Elt F)),
    StableHlo.nullary main_c_21 (constantI S_ 32 0#32),
    StableHlo.unary main_c_21 main_v126 (broadcastInDim S200000 ![] bcast_S_S200000 : (⟨S_, .i32⟩ : BufTy).Contents (Elt F) → (⟨S200000, .i32⟩ : BufTy).Contents (Elt F)),
    StableHlo.binary main_v115 main_v126 main_v127 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 50000#32),
    StableHlo.unary main_c_22 main_v128 (broadcastInDim S200000 ![] bcast_S_S200000 : (⟨S_, .i32⟩ : BufTy).Contents (Elt F) → (⟨S200000, .i32⟩ : BufTy).Contents (Elt F)),
    StableHlo.binary main_v115 main_v128 main_v129 (addi : (⟨S200000, .i32⟩ : BufTy).Contents (Elt F) → (⟨S200000, .i32⟩ : BufTy).Contents (Elt F) → (⟨S200000, .i32⟩ : BufTy).Contents (Elt F)),
    StableHlo.ternary main_v127 main_v129 main_v115 main_v130 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v130 main_v131 (broadcastInDim S200000x1 ![0] bcast_S200000_S200000x1_0 : (⟨S200000, .i32⟩ : BufTy).Contents (Elt F) → (⟨S200000x1, .i32⟩ : BufTy).Contents (Elt F)),
    StableHlo.ternary main_v111 main_v131 main_v125 main_v132 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 6's group: its edge columns, the gathered rows of slab 7, the accumulation. -/
abbrev tailR6 : List (HloOp τ sig (Elt F)) :=
  [ StableHlo.unary main_arg3 main_v133 ((extractStridedSlice S1x200000x1 ![6, 0, 0] · slices_S8x200000x2_S1x200000x1_6_0_0) : (⟨S8x200000x2, .i32⟩ : BufTy).Contents (Elt F) → (⟨S1x200000x1, .i32⟩ : BufTy).Contents (Elt F)),
    StableHlo.reshape main_v133 main_v134 rfl shapeCasts_S1x200000x1_S200000,
    StableHlo.unary main_arg3 main_v135 ((extractStridedSlice S1x200000x1 ![6, 0, 1] · slices_S8x200000x2_S1x200000x1_6_0_1) : (⟨S8x200000x2, .i32⟩ : BufTy).Contents (Elt F) → (⟨S1x200000x1, .i32⟩ : BufTy).Contents (Elt F)),
    StableHlo.reshape main_v135 main_v136 rfl shapeCasts_S1x200000x1_S200000,
    StableHlo.unary main_v3 main_v137 ((extractStridedSlice S1x50000x256 ![7, 0, 0] · slices_S9x50000x256_S1x50000x256_7_0_0) : (⟨S9x50000x256, .bf16⟩ : BufTy).Contents (Elt F) → (⟨S1x50000x256, .bf16⟩ : BufTy).Contents (Elt F)),
    StableHlo.reshape main_v137 main_v138 rfl shapeCasts_S1x50000x256_S50000x256,
    StableHlo.nullary main_c_23 (constantI S_ 32 0#32),
    StableHlo.unary main_c_23 main_v139 (broadcastInDim S200000 ![] bcast_S_S200000 : (⟨S_, .i32⟩ : BufTy).Contents (Elt F) → (⟨S200000, .i32⟩ : BufTy).Contents (Elt F)),
    StableHlo.binary main_v134 main_v139 main_v140 (cmpi .slt : (⟨S200000, .i32⟩ : BufTy).Contents (Elt F) → (⟨S200000, .i32⟩ : BufTy).Contents (Elt F) → (⟨S200000, .i1⟩ : BufTy).Contents (Elt F)),
    StableHlo.nullary main_c_24 (constantI S_ 32 50000#32),
    StableHlo.unary main_c_24 main_v141 (broadcastInDim S200000 ![] bcast_S_S200000 : (⟨S_, .i32⟩ : BufTy).Contents (Elt F) → (⟨S200000, .i32⟩ : BufTy).Contents (Elt F)),
    StableHlo.binary main_v134 main_v141 main_v142 (addi : (⟨S200000, .i32⟩ : BufTy).Contents (Elt F) → (⟨S200000, .i32⟩ : BufTy).Contents (Elt F) → (⟨S200000, .i32⟩ : BufTy).Contents (Elt F)),
    StableHlo.ternary main_v140 main_v142 main_v134 main_v143 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v143 main_v144 (broadcastInDim S200000x1 ![0] bcast_S200000_S200000x1_0 : (⟨S200000, .i32⟩ : BufTy).Contents (Elt F) → (⟨S200000x1, .i32⟩ : BufTy).Contents (Elt F)),
    StableHlo.binary main_v138 main_v144 main_v145 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v145 main_v146 ((extf .f32 · bitsLt_bf16_f32) : (⟨S200000x256, .bf16⟩ : BufTy).Contents (Elt F) → (⟨S200000x256, .f32⟩ : BufTy).Contents (Elt F)),
    StableHlo.nullary main_c_25 (constantI S_ 32 0#32),
    StableHlo.unary main_c_25 main_v147 (broadcastInDim S200000 ![] bcast_S_S200000 : (⟨S_, .i32⟩ : BufTy).Contents (Elt F) → (⟨S200000, .i32⟩ : BufTy).Contents (Elt F)),
    StableHlo.binary main_v136 main_v147 main_v148 (cmpi .slt : (⟨S200000, .i32⟩ : BufTy).Contents (Elt F) → (⟨S200000, .i32⟩ : BufTy).Contents (Elt F) → (⟨S200000, .i1⟩ : BufTy).Contents (Elt F)),
    StableHlo.nullary main_c_26 (constantI S_ 32 50000#32),
    StableHlo.unary main_c_26 main_v149 (broadcastInDim S200000 ![] bcast_S_S200000 : (⟨S_, .i32⟩ : BufTy).Contents (Elt F) → (⟨S200000, .i32⟩ : BufTy).Contents (Elt F)),
    StableHlo.binary main_v136 main_v149 main_v150 (addi : (⟨S200000, .i32⟩ : BufTy).Contents (Elt F) → (⟨S200000, .i32⟩ : BufTy).Contents (Elt F) → (⟨S200000, .i32⟩ : BufTy).Contents (Elt F)),
    StableHlo.ternary main_v148 main_v150 main_v136 main_v151 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v151 main_v152 (broadcastInDim S200000x1 ![0] bcast_S200000_S200000x1_0 : (⟨S200000, .i32⟩ : BufTy).Contents (Elt F) → (⟨S200000x1, .i32⟩ : BufTy).Contents (Elt F)),
    StableHlo.ternary main_v132 main_v152 main_v146 main_v153 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

set_option maxHeartbeats 4000000 in
/-- Relation 7's group: its edge columns, the gathered rows of slab 8, the accumulation. -/
abbrev tailR7 : List (HloOp τ sig (Elt F)) :=
  [ StableHlo.unary main_arg3 main_v154 ((extractStridedSlice S1x200000x1 ![7, 0, 0] · slices_S8x200000x2_S1x200000x1_7_0_0) : (⟨S8x200000x2, .i32⟩ : BufTy).Contents (Elt F) → (⟨S1x200000x1, .i32⟩ : BufTy).Contents (Elt F)),
    StableHlo.reshape main_v154 main_v155 rfl shapeCasts_S1x200000x1_S200000,
    StableHlo.unary main_arg3 main_v156 ((extractStridedSlice S1x200000x1 ![7, 0, 1] · slices_S8x200000x2_S1x200000x1_7_0_1) : (⟨S8x200000x2, .i32⟩ : BufTy).Contents (Elt F) → (⟨S1x200000x1, .i32⟩ : BufTy).Contents (Elt F)),
    StableHlo.reshape main_v156 main_v157 rfl shapeCasts_S1x200000x1_S200000,
    StableHlo.unary main_v3 main_v158 ((extractStridedSlice S1x50000x256 ![8, 0, 0] · slices_S9x50000x256_S1x50000x256_8_0_0) : (⟨S9x50000x256, .bf16⟩ : BufTy).Contents (Elt F) → (⟨S1x50000x256, .bf16⟩ : BufTy).Contents (Elt F)),
    StableHlo.reshape main_v158 main_v159 rfl shapeCasts_S1x50000x256_S50000x256,
    StableHlo.nullary main_c_27 (constantI S_ 32 0#32),
    StableHlo.unary main_c_27 main_v160 (broadcastInDim S200000 ![] bcast_S_S200000 : (⟨S_, .i32⟩ : BufTy).Contents (Elt F) → (⟨S200000, .i32⟩ : BufTy).Contents (Elt F)),
    StableHlo.binary main_v155 main_v160 main_v161 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 50000#32),
    StableHlo.unary main_c_28 main_v162 (broadcastInDim S200000 ![] bcast_S_S200000 : (⟨S_, .i32⟩ : BufTy).Contents (Elt F) → (⟨S200000, .i32⟩ : BufTy).Contents (Elt F)),
    StableHlo.binary main_v155 main_v162 main_v163 (addi : (⟨S200000, .i32⟩ : BufTy).Contents (Elt F) → (⟨S200000, .i32⟩ : BufTy).Contents (Elt F) → (⟨S200000, .i32⟩ : BufTy).Contents (Elt F)),
    StableHlo.ternary main_v161 main_v163 main_v155 main_v164 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v164 main_v165 (broadcastInDim S200000x1 ![0] bcast_S200000_S200000x1_0 : (⟨S200000, .i32⟩ : BufTy).Contents (Elt F) → (⟨S200000x1, .i32⟩ : BufTy).Contents (Elt F)),
    StableHlo.binary main_v159 main_v165 main_v166 ((fun x i => Host.gather gather_S50000x256_S200000x1_S200000x256_1_0_n_n_0_1_1256 x i) : (⟨S50000x256, .bf16⟩ : BufTy).Contents (Elt F) → (⟨S200000x1, .i32⟩ : BufTy).Contents (Elt F) → (⟨S200000x256, .bf16⟩ : BufTy).Contents (Elt F)),
    StableHlo.unary main_v166 main_v167 ((extf .f32 · bitsLt_bf16_f32) : (⟨S200000x256, .bf16⟩ : BufTy).Contents (Elt F) → (⟨S200000x256, .f32⟩ : BufTy).Contents (Elt F)),
    StableHlo.nullary main_c_29 (constantI S_ 32 0#32),
    StableHlo.unary main_c_29 main_v168 (broadcastInDim S200000 ![] bcast_S_S200000 : (⟨S_, .i32⟩ : BufTy).Contents (Elt F) → (⟨S200000, .i32⟩ : BufTy).Contents (Elt F)),
    StableHlo.binary main_v157 main_v168 main_v169 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 50000#32),
    StableHlo.unary main_c_30 main_v170 (broadcastInDim S200000 ![] bcast_S_S200000 : (⟨S_, .i32⟩ : BufTy).Contents (Elt F) → (⟨S200000, .i32⟩ : BufTy).Contents (Elt F)),
    StableHlo.binary main_v157 main_v170 main_v171 (addi : (⟨S200000, .i32⟩ : BufTy).Contents (Elt F) → (⟨S200000, .i32⟩ : BufTy).Contents (Elt F) → (⟨S200000, .i32⟩ : BufTy).Contents (Elt F)),
    StableHlo.ternary main_v169 main_v171 main_v157 main_v172 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v172 main_v173 (broadcastInDim S200000x1 ![0] bcast_S200000_S200000x1_0 : (⟨S200000, .i32⟩ : BufTy).Contents (Elt F) → (⟨S200000x1, .i32⟩ : BufTy).Contents (Elt F)),
    StableHlo.ternary main_v153 main_v173 main_v167 main_v174 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F)) ]

/-- The result with a leading unit axis. -/
abbrev tailPost : List (HloOp τ sig (Elt F)) :=
  [ StableHlo.unary main_v174 main_v175 (broadcastInDim S1x50000x256 ![1, 2] bcast_S50000x256_S1x50000x256_1_2 : (⟨S50000x256, .f32⟩ : BufTy).Contents (Elt F) → (⟨S1x50000x256, .f32⟩ : BufTy).Contents (Elt F)) ]

set_option maxHeartbeats 40000000 in
/-- The tail is the ten pieces in order. -/
theorem hostOps1_split : (hostOps1 : List (HloOp τ sig (Elt F)))
    = tailPre ++ (tailR0 ++ (tailR1 ++ (tailR2 ++ (tailR3 ++ (tailR4 ++ (tailR5 ++ (tailR6 ++ (tailR7 ++ tailPost)))))))) := rfl

end Cert.KernelIdeal.Tail

end
-- ==== Proof.KChainDef.lean ====
/-
  The host tail of the kernel's program, as one function of the projected array and the edge list.

  The projected array has nine 50000 x 256 slabs. The result starts as slab 0 (the self term). Then, for each of the
  eight relations r in order: the source and destination columns of relation r's edge list are read, negative node
  numbers wrapped once; the rows of slab r + 1 named by the sources are gathered (one row per edge); and each
  gathered row is added into the result at the row its destination names (an out-of-range destination adds
  nothing). Last, the 50000 x 256 result is given a leading unit axis. (kRound is one relation's step; kChain is
  the eight steps and the final re-layout.)
-/
import proofs.«173822_j17076789969202_1_alg».proof.KernelIdeal
import proofs.«173822_j17076789969202_1_alg».proof.Proof.Gen.KernelIdeal

noncomputable section

namespace Cert.KernelIdeal.Chain

open Idealize.ShloMosaic Cert.KernelIdeal Cert.KernelIdeal.Facts₀

variable {F : FTy → Type} [FloatOps F]

abbrev I32v (F : FTy → Type) : Type := (⟨S200000, .i32⟩ : BufTy).Contents (Elt F)
abbrev I1v (F : FTy → Type) : Type := (⟨S200000, .i1⟩ : BufTy).Contents (Elt F)
abbrev I32c (F : FTy → Type) : Type := (⟨S200000x1, .i32⟩ : BufTy).Contents (Elt F)
abbrev I32s (F : FTy → Type) : Type := (⟨S_, .i32⟩ : BufTy).Contents (Elt F)
abbrev Edges (F : FTy → Type) : Type := (⟨S8x200000x2, .i32⟩ : BufTy).Contents (Elt F)

/-- One column of one relation's edge list, as a vector of 200000 words: the slice of the 8 x 200000 x 2 edge array
    starting at s, with its two unit axes dropped. -/
def col (edges : (Edges F)) (s : Fin 3 → Nat) (h : S8x200000x2.Slices s S1x200000x1) : (I32v F) :=
  shapeCast S200000 ((extractStridedSlice S1x200000x1 s · h : (Edges F) → (⟨S1x200000x1, .i32⟩ : BufTy).Contents (Elt F)) edges)
    shapeCasts_S1x200000x1_S200000

/-- A vector of node numbers with the negative ones wrapped around once (v + 50000 where v < 0), as a 200000 x 1
    array of index words. -/
def normIdx (v : (I32v F)) : (I32c F) :=
  (broadcastInDim S200000x1 ![0] bcast_S200000_S200000x1_0 : (I32v F) → (I32c F))
    ((select : (I1v F) → (I32v F) → (I32v F) → (I32v F))
      ((cmpi .slt : (I32v F) → (I32v F) → (I1v F)) v ((broadcastInDim S200000 ![] bcast_S_S200000 : (I32s F) → (I32v F)) (constantI S_ 32 0#32)))
      ((addi : (I32v F) → (I32v F) → (I32v F)) v ((broadcastInDim S200000 ![] bcast_S_S200000 : (I32s F) → (I32v F)) (constantI S_ 32 50000#32)))
      v)

abbrev Acc (F : FTy → Type) : Type := (⟨S50000x256, .f32⟩ : BufTy).Contents (Elt F)
abbrev Proj (F : FTy → Type) : Type := (⟨S9x50000x256, .bf16⟩ : BufTy).Contents (Elt F)

/-- Slab sP of the projected array, as a 50000 x 256 matrix. -/
def slab (proj : (Proj F)) (sP : Fin 3 → Nat) (hP : S9x50000x256.Slices sP S1x50000x256) :
    (⟨S50000x256, .bf16⟩ : BufTy).Contents (Elt F) :=
  shapeCast S50000x256 ((extractStridedSlice S1x50000x256 sP · hP : (Proj F) → (⟨S1x50000x256, .bf16⟩ : BufTy).Contents (Elt F)) proj)
    shapeCasts_S1x50000x256_S50000x256

/-- One relation's step: the rows of slab sP named by the source column s0 are added into acc at the rows the
    destination column s1 names. -/
def kRound (sP : Fin 3 → Nat) (hP : S9x50000x256.Slices sP S1x50000x256)
    (s0 : Fin 3 → Nat) (h0 : S8x200000x2.Slices s0 S1x200000x1) (s1 : Fin 3 → Nat) (h1 : S8x200000x2.Slices s1 S1x200000x1)
    (acc : (Acc F)) (proj : (Proj F)) (edges : (Edges F)) : (Acc F) :=
  Host.scatterAdd scatter_S50000x256_S200000x1_S200000x256_1_0_0_1 acc (normIdx (col edges s1 h1))
    ((extf .f32 · bitsLt_bf16_f32 : (⟨S200000x256, .bf16⟩ : BufTy).Contents (Elt F) → (⟨S200000x256, .f32⟩ : BufTy).Contents (Elt F))
      (Host.gather gather_S50000x256_S200000x1_S200000x256_1_0_n_n_0_1_1256 (slab proj sP hP) (normIdx (col edges s0 h0))))

/-- The self term: slab 0 of the projected array. -/
def kBase (proj : (Proj F)) : (Acc F) :=
  (extf .f32 · bitsLt_bf16_f32 : (⟨S50000x256, .bf16⟩ : BufTy).Contents (Elt F) → (Acc F)) (slab proj ![0, 0, 0] slices_S9x50000x256_S1x50000x256_0_0_0)

/-- The 50000 x 256 result before its final re-layout: the self term, then the eight relations' steps in order. -/
def kAcc (proj : (Proj F)) (edges : (Edges F)) : (Acc F) :=
  kRound ![8, 0, 0] slices_S9x50000x256_S1x50000x256_8_0_0 ![7, 0, 0] slices_S8x200000x2_S1x200000x1_7_0_0 ![7, 0, 1] slices_S8x200000x2_S1x200000x1_7_0_1 (
  kRound ![7, 0, 0] slices_S9x50000x256_S1x50000x256_7_0_0 ![6, 0, 0] slices_S8x200000x2_S1x200000x1_6_0_0 ![6, 0, 1] slices_S8x200000x2_S1x200000x1_6_0_1 (
  kRound ![6, 0, 0] slices_S9x50000x256_S1x50000x256_6_0_0 ![5, 0, 0] slices_S8x200000x2_S1x200000x1_5_0_0 ![5, 0, 1] slices_S8x200000x2_S1x200000x1_5_0_1 (
  kRound ![5, 0, 0] slices_S9x50000x256_S1x50000x256_5_0_0 ![4, 0, 0] slices_S8x200000x2_S1x200000x1_4_0_0 ![4, 0, 1] slices_S8x200000x2_S1x200000x1_4_0_1 (
  kRound ![4, 0, 0] slices_S9x50000x256_S1x50000x256_4_0_0 ![3, 0, 0] slices_S8x200000x2_S1x200000x1_3_0_0 ![3, 0, 1] slices_S8x200000x2_S1x200000x1_3_0_1 (
  kRound ![3, 0, 0] slices_S9x50000x256_S1x50000x256_3_0_0 ![2, 0, 0] slices_S8x200000x2_S1x200000x1_2_0_0 ![2, 0, 1] slices_S8x200000x2_S1x200000x1_2_0_1 (
  kRound ![2, 0, 0] slices_S9x50000x256_S1x50000x256_2_0_0 ![1, 0, 0] slices_S8x200000x2_S1x200000x1_1_0_0 ![1, 0, 1] slices_S8x200000x2_S1x200000x1_1_0_1 (
  kRound ![1, 0, 0] slices_S9x50000x256_S1x50000x256_1_0_0 ![0, 0, 0] slices_S8x200000x2_S1x200000x1_0_0_0 ![0, 0, 1] slices_S8x200000x2_S1x200000x1_0_0_1 (
    kBase proj) proj edges) proj edges) proj edges) proj edges) proj edges) proj edges) proj edges) proj edges

/-- The tail's result: kAcc with a leading unit axis. -/
def kChain (proj : (Proj F)) (edges : (Edges F)) : (⟨S1x50000x256, .f32⟩ : BufTy).Contents (Elt F) :=
  (broadcastInDim S1x50000x256 ![1, 2] bcast_S50000x256_S1x50000x256_1_2 : (Acc F) → (⟨S1x50000x256, .f32⟩ : BufTy).Contents (Elt F))
    (kAcc proj edges)

end Cert.KernelIdeal.Chain

end
-- ==== Proof.KTail.lean ====
/-
  What the kernel program's host tail computes, read off its operations.

  For any contents W of the device's buffers: after the three operations of the self term the running result is
  slab 0 of whatever W holds as the projected array; after relation r's group it is one step (kRound) applied to
  the result before it, the projected array and the edge list, neither of which any operation of the tail writes;
  and the last operation adds the leading unit axis. Composing the ten pieces, the tail's result is kChain of the
  projected array and the edge list as they stand when the tail starts.
-/
import proofs.«173822_j17076789969202_1_alg».proof.Proof.KTailOps
import proofs.«173822_j17076789969202_1_alg».proof.Proof.KChainDef
import Idealize.ShloMosaic.Lib.Pipeline.Frame

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]
variable (W : Valuation τ sig (Elt F))

set_option maxHeartbeats 4000000 in
theorem pre_acc : after tailPre W (Proc.devRef .tc main_v6) = kBase (W (Proc.devRef .tc main_v3)) := by
  after_results
  try rfl
theorem pre_proj : after tailPre W (Proc.devRef .tc main_v3) = W (Proc.devRef .tc main_v3) := by
  after_results
theorem pre_edges : after tailPre W (Proc.devRef .tc main_arg3) = W (Proc.devRef .tc main_arg3) := by
  after_results

set_option maxHeartbeats 4000000 in
theorem r0_acc : after tailR0 W (Proc.devRef .tc main_v27)
    = kRound ![1, 0, 0] slices_S9x50000x256_S1x50000x256_1_0_0 ![0, 0, 0] slices_S8x200000x2_S1x200000x1_0_0_0 ![0, 0, 1] slices_S8x200000x2_S1x200000x1_0_0_1
        (W (Proc.devRef .tc main_v6)) (W (Proc.devRef .tc main_v3)) (W (Proc.devRef .tc main_arg3)) := by
  after_results_simp
  try rfl
set_option maxHeartbeats 4000000 in
theorem r0_proj : after tailR0 W (Proc.devRef .tc main_v3) = W (Proc.devRef .tc main_v3) := by
  after_results_simp
set_option maxHeartbeats 4000000 in
theorem r0_edges : after tailR0 W (Proc.devRef .tc main_arg3) = W (Proc.devRef .tc main_arg3) := by
  after_results_simp

set_option maxHeartbeats 4000000 in
theorem r1_acc : after tailR1 W (Proc.devRef .tc main_v48)
    = kRound ![2, 0, 0] slices_S9x50000x256_S1x50000x256_2_0_0 ![1, 0, 0] slices_S8x200000x2_S1x200000x1_1_0_0 ![1, 0, 1] slices_S8x200000x2_S1x200000x1_1_0_1
        (W (Proc.devRef .tc main_v27)) (W (Proc.devRef .tc main_v3)) (W (Proc.devRef .tc main_arg3)) := by
  after_results_simp
  try rfl
set_option maxHeartbeats 4000000 in
theorem r1_proj : after tailR1 W (Proc.devRef .tc main_v3) = W (Proc.devRef .tc main_v3) := by
  after_results_simp
set_option maxHeartbeats 4000000 in
theorem r1_edges : after tailR1 W (Proc.devRef .tc main_arg3) = W (Proc.devRef .tc main_arg3) := by
  after_results_simp

set_option maxHeartbeats 4000000 in
theorem r2_acc : after tailR2 W (Proc.devRef .tc main_v69)
    = kRound ![3, 0, 0] slices_S9x50000x256_S1x50000x256_3_0_0 ![2, 0, 0] slices_S8x200000x2_S1x200000x1_2_0_0 ![2, 0, 1] slices_S8x200000x2_S1x200000x1_2_0_1
        (W (Proc.devRef .tc main_v48)) (W (Proc.devRef .tc main_v3)) (W (Proc.devRef .tc main_arg3)) := by
  after_results_simp
  try rfl
set_option maxHeartbeats 4000000 in
theorem r2_proj : after tailR2 W (Proc.devRef .tc main_v3) = W (Proc.devRef .tc main_v3) := by
  after_results_simp
set_option maxHeartbeats 4000000 in
theorem r2_edges : after tailR2 W (Proc.devRef .tc main_arg3) = W (Proc.devRef .tc main_arg3) := by
  after_results_simp

set_option maxHeartbeats 4000000 in
theorem r3_acc : after tailR3 W (Proc.devRef .tc main_v90)
    = kRound ![4, 0, 0] slices_S9x50000x256_S1x50000x256_4_0_0 ![3, 0, 0] slices_S8x200000x2_S1x200000x1_3_0_0 ![3, 0, 1] slices_S8x200000x2_S1x200000x1_3_0_1
        (W (Proc.devRef .tc main_v69)) (W (Proc.devRef .tc main_v3)) (W (Proc.devRef .tc main_arg3)) := by
  after_results_simp
  try rfl
set_option maxHeartbeats 4000000 in
theorem r3_proj : after tailR3 W (Proc.devRef .tc main_v3) = W (Proc.devRef .tc main_v3) := by
  after_results_simp
set_option maxHeartbeats 4000000 in
theorem r3_edges : after tailR3 W (Proc.devRef .tc main_arg3) = W (Proc.devRef .tc main_arg3) := by
  after_results_simp

set_option maxHeartbeats 4000000 in
theorem r4_acc : after tailR4 W (Proc.devRef .tc main_v111)
    = kRound ![5, 0, 0] slices_S9x50000x256_S1x50000x256_5_0_0 ![4, 0, 0] slices_S8x200000x2_S1x200000x1_4_0_0 ![4, 0, 1] slices_S8x200000x2_S1x200000x1_4_0_1
        (W (Proc.devRef .tc main_v90)) (W (Proc.devRef .tc main_v3)) (W (Proc.devRef .tc main_arg3)) := by
  after_results_simp
  try rfl
set_option maxHeartbeats 4000000 in
theorem r4_proj : after tailR4 W (Proc.devRef .tc main_v3) = W (Proc.devRef .tc main_v3) := by
  after_results_simp
set_option maxHeartbeats 4000000 in
theorem r4_edges : after tailR4 W (Proc.devRef .tc main_arg3) = W (Proc.devRef .tc main_arg3) := by
  after_results_simp

set_option maxHeartbeats 4000000 in
theorem r5_acc : after tailR5 W (Proc.devRef .tc main_v132)
    = kRound ![6, 0, 0] slices_S9x50000x256_S1x50000x256_6_0_0 ![5, 0, 0] slices_S8x200000x2_S1x200000x1_5_0_0 ![5, 0, 1] slices_S8x200000x2_S1x200000x1_5_0_1
        (W (Proc.devRef .tc main_v111)) (W (Proc.devRef .tc main_v3)) (W (Proc.devRef .tc main_arg3)) := by
  after_results_simp
  try rfl
set_option maxHeartbeats 4000000 in
theorem r5_proj : after tailR5 W (Proc.devRef .tc main_v3) = W (Proc.devRef .tc main_v3) := by
  after_results_simp
set_option maxHeartbeats 4000000 in
theorem r5_edges : after tailR5 W (Proc.devRef .tc main_arg3) = W (Proc.devRef .tc main_arg3) := by
  after_results_simp

set_option maxHeartbeats 4000000 in
theorem r6_acc : after tailR6 W (Proc.devRef .tc main_v153)
    = kRound ![7, 0, 0] slices_S9x50000x256_S1x50000x256_7_0_0 ![6, 0, 0] slices_S8x200000x2_S1x200000x1_6_0_0 ![6, 0, 1] slices_S8x200000x2_S1x200000x1_6_0_1
        (W (Proc.devRef .tc main_v132)) (W (Proc.devRef .tc main_v3)) (W (Proc.devRef .tc main_arg3)) := by
  after_results_simp
  try rfl
set_option maxHeartbeats 4000000 in
theorem r6_proj : after tailR6 W (Proc.devRef .tc main_v3) = W (Proc.devRef .tc main_v3) := by
  after_results_simp
set_option maxHeartbeats 4000000 in
theorem r6_edges : after tailR6 W (Proc.devRef .tc main_arg3) = W (Proc.devRef .tc main_arg3) := by
  after_results_simp

set_option maxHeartbeats 4000000 in
theorem r7_acc : after tailR7 W (Proc.devRef .tc main_v174)
    = kRound ![8, 0, 0] slices_S9x50000x256_S1x50000x256_8_0_0 ![7, 0, 0] slices_S8x200000x2_S1x200000x1_7_0_0 ![7, 0, 1] slices_S8x200000x2_S1x200000x1_7_0_1
        (W (Proc.devRef .tc main_v153)) (W (Proc.devRef .tc main_v3)) (W (Proc.devRef .tc main_arg3)) := by
  after_results_simp
  try rfl
theorem post_val : after tailPost W (Proc.devRef .tc main_v175)
    = (broadcastInDim S1x50000x256 ![1, 2] bcast_S50000x256_S1x50000x256_1_2 : (⟨S50000x256, .f32⟩ : BufTy).Contents (Elt F) → (⟨S1x50000x256, .f32⟩ : BufTy).Contents (Elt F))
        (W (Proc.devRef .tc main_v174)) := by
  after_results
  try rfl

set_option maxHeartbeats 4000000 in
/-- The tail's result is kChain of the projected array and the edge list it starts from. -/
theorem tail_val : after hostOps1 W (Proc.devRef .tc main_v175)
    = kChain (W (Proc.devRef .tc main_v3)) (W (Proc.devRef .tc main_arg3)) := by
  rw [hostOps1_split]
  simp only [after_append]
  rw [post_val]
  rw [r7_acc]
  rw [r6_acc, r6_proj, r6_edges]
  rw [r5_acc, r5_proj, r5_edges]
  rw [r4_acc, r4_proj, r4_edges]
  rw [r3_acc, r3_proj, r3_edges]
  rw [r2_acc, r2_proj, r2_edges]
  rw [r1_acc, r1_proj, r1_edges]
  rw [r0_acc, r0_proj, r0_edges]
  rw [pre_acc, pre_proj, pre_edges]
  rfl

end Cert.KernelIdeal.Tail

end
-- ==== Proof.KRun.lean ====
/-
  The kernel program's run, read: its result as one function of the arguments.

  After the region the projected array holds projOf of the node matrix and the weight stack; no operation of the
  host tail writes it, nor the edge list, which is still the launch argument; so the tail's result is kChain of that
  projected array and the launch edge list. The four arguments end unchanged: the tail writes none of them.
-/
import proofs.«173822_j17076789969202_1_alg».proof.Proof.FrameDataI
import proofs.«173822_j17076789969202_1_alg».proof.Proof.ProjValue
import proofs.«173822_j17076789969202_1_alg».proof.Proof.KTail
import Idealize.ShloMosaic.Lib.Pipeline.FrameSuffix

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Fr Cert.KernelIdeal.Chain

variable (m : (ℓ : Loc nD τ sig) → Buf (Elt Ideal) ℓ) (ρ : Dev nD → PrngReg)

/-- No host line before the region writes the edge list: the region finds it as launched. -/
theorem V_edges (c : Dev nD) : V (F := Ideal) m c main_arg3 = m ((c : Thread nD τ).loc main_arg3) := by
  show StableHlo.after hostOps0 (fun b => m (c, b)) (Proc.devRef .tc main_arg3) = _
  after_results
  try rfl

/-- The buffer contents the tail starts from: the region's arrays as the run leaves them, every other buffer as the
    region found it. -/
abbrev tailStart (c : Dev nD) : Valuation τ sig (Elt Ideal) :=
  Pipeline.withArrays (cfgs 0).spec c (V0 m c) fun w => (dats (F := Ideal) m 0 c).arrAt w (cfgs 0).N

theorem tailStart_proj (c : Dev nD) :
    tailStart m c (Proc.devRef .tc main_v3) = projOf (V m c main_v0) (V m c main_v2) :=
  (Pipeline.withArrays_arr spec0 launch0.win.arr_inj c _ _ 2).trans (proj_final m c)

theorem tailStart_edges (c : Dev nD) :
    tailStart m c (Proc.devRef .tc main_arg3) = m ((c : Thread nD τ).loc main_arg3) :=
  (Pipeline.withArrays_of_ne _ c (V0 m c) _ main_arg3
    (by exact (by decide : ∀ w, Pipeline.arrRef spec0 w ≠ main_arg3))).trans (V_edges m c)

/-- The tail's result: kChain of the projected array and the launch edge list. -/
theorem tail_final (c : Dev nD) :
    Pipeline.afterTail₀ cfgs (dats (F := Ideal) m) 0 (V0 m) [hostOps1] c main_v175
      = kChain (projOf (V m c main_v0) (V m c main_v2)) (m ((c : Thread nD τ).loc main_arg3)) := by
  unfold Pipeline.afterTail₀
  show StableHlo.after hostOps1 (tailStart m c) (Proc.devRef .tc main_v175) = _
  rw [Cert.KernelIdeal.Tail.tail_val, tailStart_proj, tailStart_edges]

/-- The run, read: the result at kChain of the projected array and the edge list, the arguments unchanged. -/
theorem kernel_run (hrun : RunMain (F := Ideal) m ρ)
    (hW0 : ∀ c, Pipeline.afterTail₀ cfgs (dats (F := Ideal) m) 0 (V0 m) [hostOps1] c main_arg0 = m ((c : Thread nD τ).loc main_arg0))
    (hW1 : ∀ c, Pipeline.afterTail₀ cfgs (dats (F := Ideal) m) 0 (V0 m) [hostOps1] c main_arg1 = m ((c : Thread nD τ).loc main_arg1))
    (hW2 : ∀ c, Pipeline.afterTail₀ cfgs (dats (F := Ideal) m) 0 (V0 m) [hostOps1] c main_arg2 = m ((c : Thread nD τ).loc main_arg2))
    (hW3 : ∀ c, Pipeline.afterTail₀ cfgs (dats (F := Ideal) m) 0 (V0 m) [hostOps1] c main_arg3 = m ((c : Thread nD τ).loc main_arg3)) :
    θ_run defs (onTc (τ := τ) (main (F := Ideal))) ⟨m, fun _ => 0, ρ⟩ (fun r => ∀ c : Dev nD,
      r.2.mem ((c.tc : Thread nD τ).loc main_v175)
        = kChain (projOf (V m c main_v0) (V m c main_v2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v175 (Pipeline.mem_restRefs_of main_v175 (by decide) (by decide))).trans (tail_final m c),
     ((h c).2 main_arg0 (Pipeline.mem_restRefs_of main_arg0 (by decide) (by decide))).trans (hW0 c),
     ((h c).2 main_arg1 (Pipeline.mem_restRefs_of main_arg1 (by decide) (by decide))).trans (hW1 c),
     ((h c).2 main_arg2 (Pipeline.mem_restRefs_of main_arg2 (by decide) (by decide))).trans (hW2 c),
     ((h c).2 main_arg3 (Pipeline.mem_restRefs_of main_arg3 (by decide) (by decide))).trans (hW3 c)⟩) hrun

end Cert.KernelIdeal.Val

end
-- ==== Proof.ProjArgs.lean ====
/-
  The projected array in terms of the launch arguments.

  The three host lines before the region drop the leading unit axis of x and stack the self weight (given a leading
  unit axis) before the eight relation weights. Read at an index: the node matrix at (n, k) is x(0, n, k); slab 0 of
  the stack at (k, o) is the self weight at (k, o); slab r + 1 is relation weight r. So slab 0 of the projected
  array is x times the self weight, and slab r + 1 is x times relation weight r, entry by entry, as plain sums.
-/
import proofs.«173822_j17076789969202_1_alg».proof.Proof.ProjValue

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ)

/-- The node matrix the region finds: x without its leading unit axis. -/
theorem V_v0 (c : Dev nD) :
    (V (F := Ideal) m c main_v0 : S50000x256.Idx → EReal)
      = shapeCast S50000x256 (m ((c : Thread nD τ).loc main_arg0)) shapeCasts_S1x50000x256_S50000x256 := by
  show StableHlo.after hostOps0 (fun b => m (c, b)) (Proc.devRef .tc main_v0) = _
  after_results
  try rfl

/-- The weight stack the region finds: the self weight with a leading unit axis, then the eight relation weights. -/
theorem V_v2 (c : Dev nD) :
    (V (F := Ideal) m c main_v2 : S9x256x256.Idx → EReal)
      = concatenate S9x256x256 0 [⟨S1x256x256, broadcastInDim S1x256x256 ![1, 2] bcast_S256x256_S1x256x256_1_2
          (m ((c : Thread nD τ).loc main_arg2))⟩, ⟨S8x256x256, m ((c : Thread nD τ).loc main_arg1)⟩]
        concatenates_S1x256x256_S8x256x256_S9x256x256_d0 := by
  show StableHlo.after hostOps0 (fun b => m (c, b)) (Proc.devRef .tc main_v2) = _
  after_results
  try rfl

theorem x2_apply (c : Dev nD) (n : Fin 50000) (k : Fin 256) :
    (V (F := Ideal) m c main_v0 : S50000x256.Idx → EReal) (ix2 n k)
      = (m ((c : Thread nD τ).loc main_arg0) : S1x50000x256.Idx → EReal) (ix3 (0 : Fin 1) n k) := by
  rw [V_v0]
  exact shapeCast_1ab_ab_apply _ _ n k

theorem wall_self (c : Dev nD) (k o : Fin 256) :
    (V (F := Ideal) m c main_v2 : S9x256x256.Idx → EReal) (ix3 (0 : Fin 9) k o)
      = (m ((c : Thread nD τ).loc main_arg2) : S256x256.Idx → EReal) (ix2 k o) := by
  rw [V_v2]
  refine (concatenate_pair_apply_left (t := S9x256x256) (s₁ := S1x256x256) (s₂ := S8x256x256) (0 : Fin 3) _ _ _ (ix3 (0 : Fin 9) k o) rfl (ix3 (0 : Fin 1) k o) ?_).trans ?_
  · intro b
    match b with
    | ⟨0, _⟩ => rfl
    | ⟨1, _⟩ => rfl
    | ⟨2, _⟩ => rfl
  · refine broadcastInDim_apply _ _ _ (ix3 (0 : Fin 1) k o) (ix2 k o) fun a => ?_
    match a with
    | ⟨0, _⟩ => rfl
    | ⟨1, _⟩ => rfl

theorem wall_rel (c : Dev nD) (r : Fin 8) (k o : Fin 256) :
    (V (F := Ideal) m c main_v2 : S9x256x256.Idx → EReal) (ix3 (⟨r.val + 1, by omega⟩ : Fin 9) k o)
      = (m ((c : Thread nD τ).loc main_arg1) : S8x256x256.Idx → EReal) (ix3 r k o) := by
  rw [V_v2]
  refine concatenate_pair_apply_right (t := S9x256x256) (s₁ := S1x256x256) (s₂ := S8x256x256) (0 : Fin 3) _ _ _ (ix3 (⟨r.val + 1, by omega⟩ : Fin 9) k o) rfl rfl (ix3 r k o) ?_ ?_
  · intro b hb
    match b with
    | ⟨0, _⟩ => exact absurd rfl hb
    | ⟨1, _⟩ => rfl
    | ⟨2, _⟩ => rfl
  · rfl

/-- Slab 0 of the projected array: x times the self weight. -/
theorem proj_self (c : Dev nD) (A : S1x50000x256.Idx → EReal) (Ws : S256x256.Idx → EReal)
    (hA : m ((c : Thread nD τ).loc main_arg0) = A) (hW : m ((c : Thread nD τ).loc main_arg2) = Ws)
    (n : Fin 50000) (o : Fin 256) :
    projOf (V m c main_v0) (V m c main_v2) (ix3 (0 : Fin 9) n o)
      = ∑ k : Fin 256, A (ix3 (0 : Fin 1) n k) * Ws (ix2 k o) := by
  subst hA hW
  unfold projOf
  refine Finset.sum_congr rfl fun k _ => ?_
  refine congrArg₂ (· * ·) ?_ ?_
  · exact x2_apply m c n k
  · exact wall_self m c k o

/-- Slab r + 1 of the projected array: x times relation weight r. -/
theorem proj_rel (c : Dev nD) (A : S1x50000x256.Idx → EReal) (Wr : S8x256x256.Idx → EReal)
    (hA : m ((c : Thread nD τ).loc main_arg0) = A) (hW : m ((c : Thread nD τ).loc main_arg1) = Wr)
    (r : Fin 8) (n : Fin 50000) (o : Fin 256) :
    projOf (V m c main_v0) (V m c main_v2) (ix3 (⟨r.val + 1, by omega⟩ : Fin 9) n o)
      = ∑ k : Fin 256, A (ix3 (0 : Fin 1) n k) * Wr (ix3 r k o) := by
  subst hA hW
  unfold projOf
  refine Finset.sum_congr rfl fun k _ => ?_
  refine congrArg₂ (· * ·) ?_ ?_
  · exact x2_apply m c n k
  · exact wall_rel m c r k o

end Cert.KernelIdeal.Val

end
-- ==== Proof.RChainDef.lean ====
/-
  The reference program as one function of its four arguments.

  The result starts as x times the self weight (1 x 50000 x 256). Then, for each of the eight relations r in order:
  the source and destination columns of relation r's edge list are read, negative node numbers wrapped once; the
  rows of x named by the sources are gathered (one row per edge) and multiplied by relation weight r; and each
  product row is added into the result at the row its destination names (an out-of-range destination adds
  nothing). (rRound is one relation's step; rChain is the eight steps.)
-/
import proofs.«173822_j17076789969202_1_alg».proof.ReferenceIdeal
import proofs.«173822_j17076789969202_1_alg».proof.Proof.Gen.ReferenceIdeal

noncomputable section

namespace Cert.ReferenceIdeal.Chain

open Idealize.ShloMosaic Cert.ReferenceIdeal Cert.ReferenceIdeal.Facts₀

variable {F : FTy → Type} [FloatOps F]

abbrev I32v (F : FTy → Type) : Type := (⟨S200000, .i32⟩ : BufTy).Contents (Elt F)
abbrev I1v (F : FTy → Type) : Type := (⟨S200000, .i1⟩ : BufTy).Contents (Elt F)
abbrev I32c (F : FTy → Type) : Type := (⟨S200000x1, .i32⟩ : BufTy).Contents (Elt F)
abbrev I32s (F : FTy → Type) : Type := (⟨S_, .i32⟩ : BufTy).Contents (Elt F)
abbrev Edges (F : FTy → Type) : Type := (⟨S8x200000x2, .i32⟩ : BufTy).Contents (Elt F)

/-- One column of one relation's edge list, as a vector of 200000 words: the slice of the 8 x 200000 x 2 edge array
    starting at s, with its two unit axes dropped. -/
def col (edges : (Edges F)) (s : Fin 3 → Nat) (h : S8x200000x2.Slices s S1x200000x1) : (I32v F) :=
  shapeCast S200000 ((extractStridedSlice S1x200000x1 s · h : (Edges F) → (⟨S1x200000x1, .i32⟩ : BufTy).Contents (Elt F)) edges)
    shapeCasts_S1x200000x1_S200000

/-- A vector of node numbers with the negative ones wrapped around once (v + 50000 where v < 0), as a 200000 x 1
    array of index words. -/
def normIdx (v : (I32v F)) : (I32c F) :=
  (broadcastInDim S200000x1 ![0] bcast_S200000_S200000x1_0 : (I32v F) → (I32c F))
    ((select : (I1v F) → (I32v F) → (I32v F) → (I32v F))
      ((cmpi .slt : (I32v F) → (I32v F) → (I1v F)) v ((broadcastInDim S200000 ![] bcast_S_S200000 : (I32s F) → (I32v F)) (constantI S_ 32 0#32)))
      ((addi : (I32v F) → (I32v F) → (I32v F)) v ((broadcastInDim S200000 ![] bcast_S_S200000 : (I32s F) → (I32v F)) (constantI S_ 32 50000#32)))
      v)

abbrev Acc (F : FTy → Type) : Type := (⟨S1x50000x256, .f32⟩ : BufTy).Contents (Elt F)
abbrev Wrel (F : FTy → Type) : Type := (⟨S8x256x256, .f32⟩ : BufTy).Contents (Elt F)
abbrev Wmat (F : FTy → Type) : Type := (⟨S256x256, .f32⟩ : BufTy).Contents (Elt F)

/-- Relation weight sW, as a 256 x 256 matrix. -/
def wmat (wrel : (Wrel F)) (sW : Fin 3 → Nat) (hW : S8x256x256.Slices sW S1x256x256) : (Wmat F) :=
  shapeCast S256x256 ((extractStridedSlice S1x256x256 sW · hW : (Wrel F) → (⟨S1x256x256, .f32⟩ : BufTy).Contents (Elt F)) wrel)
    shapeCasts_S1x256x256_S256x256

/-- One relation's step: the rows of x named by the source column s0, times weight sW, are added into acc at the
    rows the destination column s1 names. -/
def rRound (sW : Fin 3 → Nat) (hW : S8x256x256.Slices sW S1x256x256)
    (s0 : Fin 3 → Nat) (h0 : S8x200000x2.Slices s0 S1x200000x1) (s1 : Fin 3 → Nat) (h1 : S8x200000x2.Slices s1 S1x200000x1)
    (acc : (Acc F)) (x : (Acc F)) (wrel : (Wrel F)) (edges : (Edges F)) : (Acc F) :=
  Host.scatterAdd scatter_S1x50000x256_S200000x1_S1x200000x256_02_1_1_1 acc (normIdx (col edges s1 h1))
    (Host.dotGeneral dot_S1x200000x256_S256x256_S1x200000x256_2_0_01_1_n_n none
      (Host.gather gather_S1x50000x256_S200000x1_S1x200000x256_02_1_n_n_1_1_11256 x (normIdx (col edges s0 h0)))
      (wmat wrel sW hW))

/-- The self term: x times the self weight. -/
def rBase (x : (Acc F)) (wself : (Wmat F)) : (Acc F) :=
  Host.dotGeneral dot_S1x50000x256_S256x256_S1x50000x256_2_0_01_1_n_n none x wself

/-- The reference's result: the self term, then the eight relations' steps in order. -/
def rChain (x : (Acc F)) (wrel : (Wrel F)) (wself : (Wmat F)) (edges : (Edges F)) : (Acc F) :=
  rRound ![7, 0, 0] slices_S8x256x256_S1x256x256_7_0_0 ![7, 0, 0] slices_S8x200000x2_S1x200000x1_7_0_0 ![7, 0, 1] slices_S8x200000x2_S1x200000x1_7_0_1 (
  rRound ![6, 0, 0] slices_S8x256x256_S1x256x256_6_0_0 ![6, 0, 0] slices_S8x200000x2_S1x200000x1_6_0_0 ![6, 0, 1] slices_S8x200000x2_S1x200000x1_6_0_1 (
  rRound ![5, 0, 0] slices_S8x256x256_S1x256x256_5_0_0 ![5, 0, 0] slices_S8x200000x2_S1x200000x1_5_0_0 ![5, 0, 1] slices_S8x200000x2_S1x200000x1_5_0_1 (
  rRound ![4, 0, 0] slices_S8x256x256_S1x256x256_4_0_0 ![4, 0, 0] slices_S8x200000x2_S1x200000x1_4_0_0 ![4, 0, 1] slices_S8x200000x2_S1x200000x1_4_0_1 (
  rRound ![3, 0, 0] slices_S8x256x256_S1x256x256_3_0_0 ![3, 0, 0] slices_S8x200000x2_S1x200000x1_3_0_0 ![3, 0, 1] slices_S8x200000x2_S1x200000x1_3_0_1 (
  rRound ![2, 0, 0] slices_S8x256x256_S1x256x256_2_0_0 ![2, 0, 0] slices_S8x200000x2_S1x200000x1_2_0_0 ![2, 0, 1] slices_S8x200000x2_S1x200000x1_2_0_1 (
  rRound ![1, 0, 0] slices_S8x256x256_S1x256x256_1_0_0 ![1, 0, 0] slices_S8x200000x2_S1x200000x1_1_0_0 ![1, 0, 1] slices_S8x200000x2_S1x200000x1_1_0_1 (
  rRound ![0, 0, 0] slices_S8x256x256_S1x256x256_0_0_0 ![0, 0, 0] slices_S8x200000x2_S1x200000x1_0_0_0 ![0, 0, 1] slices_S8x200000x2_S1x200000x1_0_0_1 (
    rBase x wself) x wrel edges) x wrel edges) x wrel edges) x wrel edges) x wrel edges) x wrel edges) x wrel edges) x wrel edges

end Cert.ReferenceIdeal.Chain

end
-- ==== Proof.RefValue.lean ====
/-
  The reference program's run, with its result written as one function of the program's four arguments.

  The program's run theorem states the result buffer as the composition of the program's operations over the
  arguments' launch contents: the self product, then for each of the eight relations a scatter-add, at the wrapped destination
  nodes, of the rows gathered at the wrapped source nodes times that relation's weight. That composition is, term
  for term, the eight relation steps over the self term. The two spellings are identified in two layers that follow
  the run theorem's own naming: the intermediate it names after relation 3 is the first four steps over the self
  term, and the result is the last four steps over that intermediate. Both identifications are by unfolding the
  definitions on either side; no property of the operations is used.
-/
import proofs.«173822_j17076789969202_1_alg».proof.Proof.RChainDef
import proofs.«173822_j17076789969202_1_alg».proof.Proof.Gen.ReferenceIdeal.Run

noncomputable section

namespace Cert.ReferenceIdeal.Chain

open Cert.ReferenceIdeal Cert.ReferenceIdeal.Gen Cert.ReferenceIdeal.Value Idealize.ShloMosaic Idealize.ShloMosaic.TcCoe Idealize.SL.Sem

variable {F : FTy → Type} [FloatOps F]

/-- The self term followed by the steps of relations 0 to 3. -/
def rChain4 (x : Acc F) (wrel : Wrel F) (wself : Wmat F) (edges : Edges F) : Acc F :=
  rRound ![3, 0, 0] slices_S8x256x256_S1x256x256_3_0_0 ![3, 0, 0] slices_S8x200000x2_S1x200000x1_3_0_0 ![3, 0, 1] slices_S8x200000x2_S1x200000x1_3_0_1 (rRound ![2, 0, 0] slices_S8x256x256_S1x256x256_2_0_0 ![2, 0, 0] slices_S8x200000x2_S1x200000x1_2_0_0 ![2, 0, 1] slices_S8x200000x2_S1x200000x1_2_0_1 (rRound ![1, 0, 0] slices_S8x256x256_S1x256x256_1_0_0 ![1, 0, 0] slices_S8x200000x2_S1x200000x1_1_0_0 ![1, 0, 1] slices_S8x200000x2_S1x200000x1_1_0_1 (rRound ![0, 0, 0] slices_S8x256x256_S1x256x256_0_0_0 ![0, 0, 0] slices_S8x200000x2_S1x200000x1_0_0_0 ![0, 0, 1] slices_S8x200000x2_S1x200000x1_0_0_1 (rBase x wself) x wrel edges) x wrel edges) x wrel edges) x wrel edges

/-- All eight steps are the steps of relations 4 to 7 over the first four. -/
theorem rChain_eq (x : Acc F) (wrel : Wrel F) (wself : Wmat F) (edges : Edges F) :
    rChain x wrel wself edges =
      rRound ![7, 0, 0] slices_S8x256x256_S1x256x256_7_0_0 ![7, 0, 0] slices_S8x200000x2_S1x200000x1_7_0_0 ![7, 0, 1] slices_S8x200000x2_S1x200000x1_7_0_1 (rRound ![6, 0, 0] slices_S8x256x256_S1x256x256_6_0_0 ![6, 0, 0] slices_S8x200000x2_S1x200000x1_6_0_0 ![6, 0, 1] slices_S8x200000x2_S1x200000x1_6_0_1 (rRound ![5, 0, 0] slices_S8x256x256_S1x256x256_5_0_0 ![5, 0, 0] slices_S8x200000x2_S1x200000x1_5_0_0 ![5, 0, 1] slices_S8x200000x2_S1x200000x1_5_0_1 (rRound ![4, 0, 0] slices_S8x256x256_S1x256x256_4_0_0 ![4, 0, 0] slices_S8x200000x2_S1x200000x1_4_0_0 ![4, 0, 1] slices_S8x200000x2_S1x200000x1_4_0_1 (rChain4 x wrel wself edges) x wrel edges) x wrel edges) x wrel edges) x wrel edges := rfl

set_option maxRecDepth 8192 in
set_option maxHeartbeats 400000 in
/-- The run theorem's named intermediate after relation 3 is the first four relation steps over the self term,
    as functions of the arguments' contents. -/
theorem res_main_v84_eq (V0 : Valuation τ sig (Elt F)) :
    res_main_v84 V0 = rChain4 (V0 (Proc.devRef .tc main_arg0)) (V0 (Proc.devRef .tc main_arg1))
      (V0 (Proc.devRef .tc main_arg2)) (V0 (Proc.devRef .tc main_arg3)) := rfl

set_option maxRecDepth 8192 in
set_option maxHeartbeats 400000 in
/-- On every device, from any memory with zero counters, every weakly fair execution of the reference terminates
    with the result buffer holding the eight relation steps over the self term, computed from the four arguments'
    launch contents, and with the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168)
        = rChain (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      rw [res_main_v84_eq, rChain_eq]
      rfl), (h c).2⟩) (Cert.ReferenceIdeal.Value.run m ρ)

end Cert.ReferenceIdeal.Chain

end
-- ==== Proof.LibUnitAxis.lean ====
/-
  An array with a leading axis of extent one, and the same array without it.

  An index (b, p, q) of a 1 x A x B array has b = 0, so dropping b is a bijection onto the indices (p, q) of an A x B
  array; `low` drops the unit coordinate, `up` restores it, and `lowEquiv` is the bijection, through which a sum over
  one index set is re-indexed as a sum over the other.
-/
import Idealize.ShloMosaic.Lib.ValueIdx

noncomputable section

namespace Cert.LibUnitAxis

open Idealize.ShloMosaic Idealize.ShloMosaic.ValueIdx

/-- The index (p, q) of an A x B array under the index (0, p, q) of the 1 x A x B array. -/
def low {A B : Nat} (i : (⟨3, ![1, A, B]⟩ : Shape).Idx) : (⟨2, ![A, B]⟩ : Shape).Idx :=
  ix2 (n0 := A) (n1 := B) (i 1) (i 2)

/-- The index (0, p, q) of the 1 x A x B array over the index (p, q). -/
def up {A B : Nat} (j : (⟨2, ![A, B]⟩ : Shape).Idx) : (⟨3, ![1, A, B]⟩ : Shape).Idx :=
  ix3 (n0 := 1) (n1 := A) (n2 := B) (0 : Fin 1) (j 0) (j 1)

theorem low_ix3 {A B : Nat} (b : Fin 1) (p : Fin A) (q : Fin B) : low (ix3 b p q) = ix2 p q := rfl
theorem up_ix2 {A B : Nat} (p : Fin A) (q : Fin B) : up (ix2 p q) = ix3 (0 : Fin 1) p q := rfl

theorem low_up {A B : Nat} (j : (⟨2, ![A, B]⟩ : Shape).Idx) : low (up j) = j := (eq_ix2 j).symm

theorem up_low {A B : Nat} (i : (⟨3, ![1, A, B]⟩ : Shape).Idx) : up (low i) = i := by
  funext a
  match a with
  | ⟨0, _⟩ => exact Subsingleton.elim (α := Fin 1) _ _
  | ⟨1, _⟩ => rfl
  | ⟨2, _⟩ => rfl

/-- Dropping the unit coordinate is a bijection of the two index sets. -/
def lowEquiv {A B : Nat} : (⟨3, ![1, A, B]⟩ : Shape).Idx ≃ (⟨2, ![A, B]⟩ : Shape).Idx where
  toFun := low
  invFun := up
  left_inv := up_low
  right_inv := low_up

theorem low_injective {A B : Nat} : Function.Injective (low (A := A) (B := B)) := lowEquiv.injective

end Cert.LibUnitAxis

end
-- ==== Proof.LibRowGather.lean ====
/-
  Gathering rows of a matrix by a list of row numbers, read at an entry.

  `x[idx]` along the first axis of an `N×D` matrix `x`, with `idx` a list of `E` row numbers held as an `E×1` array
  of index words, is a gather whose slices are whole rows: the slice sizes are `1×D`, the row axis is collapsed and
  is the one axis the start index names, and the result's second axis runs along the slice. Result entry `(e, o)` is
  therefore `x` at row `idx[e, 0]` and column `o`, where the index word is read as a SIGNED integer and clamped so
  that the slice fits: the row axis has extent `N` and slice size `1`, so the clamp is into `[0, N − 1]` (a negative
  word gives row `0`, a word past the end gives the last row). On the column axis the start index names nothing, so
  the slice starts at `0` and the column read is the result's own column coordinate.

  The second form is the same gather on arrays that carry a leading axis of extent one: a `1×N×D` operand, the same
  `E×1` index array, and a `1×E×D` result, with slice sizes `1×1×D`. The unit axis and the column axis run along the
  slice, the row axis (now the middle one) is collapsed and clamped as before; result entry `(b, e, o)` is the
  operand at `(b, idx[e, 0] clamped, o)`.
-/
import Idealize.ShloMosaic.Lib.ValueIdx

noncomputable section

namespace Cert.LibRowGather

open Idealize.ShloMosaic Idealize.ShloMosaic.ValueIdx

/-- The row an index word names: read as a signed integer and clamped into [0, N − 1]. -/
def row (N : Nat) (hN : 0 < N) {w : Nat} (b : BitVec w) : Fin N := ⟨min b.toInt.toNat (N - 1), by omega⟩

/-- The offset coordinate on an operand axis that runs along the slice, once the axis's position `n` among the
    operand's slice axes is known: the result index's coordinate on the `n`-th offset axis. -/
theorem offCoord_of_pos {s si t : Shape} (d : GatherDims s si t) (j : t.Idx) (a : Fin s.rank) (n : Nat)
    (hn : n < d.offsetDims.length) (ha : a ∈ d.sKept) (hi : d.sKept.idxOf a = n) :
    d.offCoord j a = (j d.offsetDims[n]).val := by
  subst hi
  unfold GatherDims.offCoord
  rw [dif_pos ha]

/-- Of a matrix's two axes, the one that is not the first is the second. -/
theorem kept2 : (List.finRange 2).filter (fun a : Fin 2 => a ∉ [(0 : Fin 2)]) = [1] := by decide

/-- Of a rank-3 array's axes, the ones that are not the middle one are the first and the last. -/
theorem kept3 : (List.finRange 3).filter (fun a : Fin 3 => a ∉ [(1 : Fin 3)]) = [0, 2] := by decide

/-- The dimension numbers of the row gather of an `N×D` matrix at an `E×1` array of row numbers, with an `E×D`
    result: whole-row slices `1×D`, the row axis collapsed and named by the start index, the result's second axis
    the slice's column axis. Their conditions `wf` are decided on literal shapes. -/
abbrev dims2 (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, o)`: the matrix at the row the word `idx[e, 0]` names (signed, clamped into
    `[0, N − 1]`) and at column `o`. On the row axis the operand coordinate is the clamped start alone (a collapsed
    axis has no offset); on the column axis the start is `0` and the offset is the result's column. -/
theorem gather2_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (o : Fin D) :
    Host.gather (dims2 N E D wf) x idx (ix2 e o) = x (ix2 (row N hN (idx (ix2 e (0 : Fin 1)))) o) := by
  unfold Host.gather
  congr 1
  funext a
  refine Fin.ext ?_
  match a with
  | ⟨0, h0⟩ =>
    show (dims2 N E D wf).start (ix2 e o) idx ⟨0, h0⟩ + (dims2 N E D wf).batchCoord (ix2 e o) ⟨0, h0⟩
      + (dims2 N E D wf).offCoord (ix2 e o) ⟨0, h0⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨0, h0⟩ : Fin 2) ∈ (dims2 N E D wf).startIndexMap from List.mem_singleton.mpr (Fin.ext rfl))]
    have hsi : (dims2 N E D wf).siIdx (ix2 e o) ⟨List.idxOf (⟨0, h0⟩ : Fin 2) (dims2 N E D wf).startIndexMap,
        List.idxOf_lt_length_iff.2 (List.mem_singleton.mpr (Fin.ext rfl))⟩ = ix2 e (0 : Fin 1) := by
      funext b; refine Fin.ext ?_
      match b with
      | ⟨0, _⟩ => rfl
      | ⟨1, _⟩ => rfl
    rw [hsi]
    rfl
  | ⟨1, h1⟩ =>
    show (dims2 N E D wf).start (ix2 e o) idx ⟨1, h1⟩ + (dims2 N E D wf).batchCoord (ix2 e o) ⟨1, h1⟩
      + (dims2 N E D wf).offCoord (ix2 e o) ⟨1, h1⟩ = _
    have hst : (dims2 N E D wf).start (ix2 e o) idx ⟨1, h1⟩ = 0 := by
      unfold GatherDims.start
      rw [dif_neg (fun h => absurd (show (1 : Nat) = 0 from congrArg Fin.val (List.mem_singleton.mp h)) (by decide))]
    rw [hst, GatherDims.batchCoord_eq_zero _ _ _ List.not_mem_nil]
    have hk : (dims2 N E D wf).sKept = [1] := kept2
    rw [offCoord_of_pos (dims2 N E D wf) (ix2 e o) ⟨1, h1⟩ 0 (show (0 : Nat) < 1 from Nat.one_pos)
      ((GatherDims.mem_sKept _ _).mpr ⟨fun h => absurd (show (1 : Nat) = 0 from congrArg Fin.val (List.mem_singleton.mp h)) (by decide), List.not_mem_nil⟩)
      (by rw [hk]; rfl)]
    rw [Nat.zero_add]
    rfl

/-- The dimension numbers of the same gather on arrays with a leading unit axis: a `1×N×D` operand, an `E×1` array
    of row numbers and a `1×E×D` result; slices `1×1×D`, the row axis (the middle one) collapsed and named by the
    start index, the result's first and last axes the slice's unit and column axes. -/
abbrev dims3 (N E D : Nat) (wf : GatherDims.WF ⟨3, ![1, N, D]⟩ ⟨2, ![E, 1]⟩ ⟨3, ![1, E, D]⟩ [0, 2] [1] [] [1] [] 1 ![1, 1, D]) :
    GatherDims ⟨3, ![1, N, D]⟩ ⟨2, ![E, 1]⟩ ⟨3, ![1, E, D]⟩ where
  offsetDims := [0, 2]
  collapsedSliceDims := [1]
  operandBatchingDims := []
  startIndicesBatchingDims := []
  startIndexMap := [1]
  indexVectorDim := 1
  sliceSizes := ![1, 1, D]
  wf := wf

/-- The gather with a leading unit axis read at `(b, e, o)`: the operand at `(b, row, o)` with `row` the row the
    word `idx[e, 0]` names (signed, clamped into `[0, N − 1]`). The unit and column axes start at `0` and take the
    result's coordinates as offsets; the row axis is the clamped start alone. -/
theorem gather3_apply {α : Type} {N E D w : Nat} (hN : 0 < N)
    (wf : GatherDims.WF ⟨3, ![1, N, D]⟩ ⟨2, ![E, 1]⟩ ⟨3, ![1, E, D]⟩ [0, 2] [1] [] [1] [] 1 ![1, 1, D])
    (x : (⟨3, ![1, N, D]⟩ : Shape).Idx → α) (idx : IVec ⟨2, ![E, 1]⟩ w) (b : Fin 1) (e : Fin E) (o : Fin D) :
    Host.gather (dims3 N E D wf) x idx (ix3 b e o) = x (ix3 b (row N hN (idx (ix2 e (0 : Fin 1)))) o) := by
  unfold Host.gather
  congr 1
  funext a
  refine Fin.ext ?_
  match a with
  | ⟨0, h0⟩ =>
    show (dims3 N E D wf).start (ix3 b e o) idx ⟨0, h0⟩ + (dims3 N E D wf).batchCoord (ix3 b e o) ⟨0, h0⟩
      + (dims3 N E D wf).offCoord (ix3 b e o) ⟨0, h0⟩ = _
    have hst : (dims3 N E D wf).start (ix3 b e o) idx ⟨0, h0⟩ = 0 := by
      unfold GatherDims.start
      rw [dif_neg (fun h => absurd (show (0 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨0, h0⟩ 0 (show (0 : Nat) < 2 from Nat.two_pos)
      ((GatherDims.mem_sKept _ _).mpr ⟨fun h => absurd (show (0 : Nat) = 1 from congrArg Fin.val (List.mem_singleton.mp h)) (by decide), List.not_mem_nil⟩)
      (by rw [hk]; rfl)]
    rw [Nat.zero_add]
    rfl
  | ⟨1, h1⟩ =>
    show (dims3 N E D wf).start (ix3 b e o) idx ⟨1, h1⟩ + (dims3 N E D wf).batchCoord (ix3 b e o) ⟨1, h1⟩
      + (dims3 N E D wf).offCoord (ix3 b e o) ⟨1, h1⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨1, h1⟩ : Fin 3) ∈ (dims3 N E D wf).startIndexMap from List.mem_singleton.mpr (Fin.ext rfl))]
    have hsi : (dims3 N E D wf).siIdx (ix3 b e o) ⟨List.idxOf (⟨1, h1⟩ : Fin 3) (dims3 N E D wf).startIndexMap,
        List.idxOf_lt_length_iff.2 (List.mem_singleton.mpr (Fin.ext rfl))⟩ = ix2 e (0 : Fin 1) := by
      funext c; refine Fin.ext ?_
      match c with
      | ⟨0, _⟩ => rfl
      | ⟨1, _⟩ => rfl
    rw [hsi]
    rfl
  | ⟨2, h2⟩ =>
    show (dims3 N E D wf).start (ix3 b e o) idx ⟨2, h2⟩ + (dims3 N E D wf).batchCoord (ix3 b e o) ⟨2, h2⟩
      + (dims3 N E D wf).offCoord (ix3 b e o) ⟨2, h2⟩ = _
    have hst : (dims3 N E D wf).start (ix3 b e o) idx ⟨2, h2⟩ = 0 := by
      unfold GatherDims.start
      rw [dif_neg (fun h => absurd (show (2 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨2, h2⟩ 1 (show (1 : Nat) < 2 from Nat.one_lt_two)
      ((GatherDims.mem_sKept _ _).mpr ⟨fun h => absurd (show (2 : Nat) = 1 from congrArg Fin.val (List.mem_singleton.mp h)) (by decide), List.not_mem_nil⟩)
      (by rw [hk]; rfl)]
    rw [Nat.zero_add]
    rfl

end Cert.LibRowGather

end
-- ==== Proof.LibRowScatter.lean ====
/-
  Accumulating rows into a matrix, with and without a leading axis of extent one.

  A scatter with an addition body takes an N x D operand, a list of E row numbers (one index word per update row) and
  an E x D array of updates, and adds update row e into operand row z(e), where z(e) is the e-th index word read as a
  signed integer; a row number outside [0, N) drops its update row. In the exact model the result element (n, o) is the
  operand element plus the sum of the update elements (e, o) with z(e) = n.

  The same accumulation can be written on arrays that carry a leading axis of extent one: a 1 x N x D operand and
  1 x E x D updates, the unit axis and the last axis being window axes and the middle axis the scattered one. This
  file proves that the two say the same thing, for all extents: reading the rank-3 result at (b, n, o) is reading the
  rank-2 result at (n, o).

  The proof computes, for both sets of dimension numbers, the start and the window coordinate on each operand axis
  (`start2_0` ... `window3_2`): the scattered axis starts at z(e) with window coordinate 0, every other axis starts
  at 0 with the update's own coordinate as window coordinate. An update index therefore lands on a given operand index
  exactly when z(e) is that index's row and the column coordinates agree (`resultIdx2`, `resultIdx3`); the unit axis
  adds no condition, since both of its coordinates are 0. So dropping the unit coordinate carries the set of updates
  landing on (b, n, o) bijectively onto the set of updates landing on (n, o) (`resultIdx_low`), and the two sums agree
  term by term (`scatterAdd_low`).
-/
import Idealize.ShloMosaic.Lib.ValueIdx
import Idealize.ShloMosaic.PureOps.Ideal
import proofs.«173822_j17076789969202_1_alg».proof.Proof.LibUnitAxis

noncomputable section

namespace Cert.LibRowScatter

open Idealize.ShloMosaic Idealize.ShloMosaic.ValueIdx Cert.LibUnitAxis

/-- The dimension numbers of the row accumulation on an N x D operand: E scatter indices of one component each,
    naming a row (operand axis 0, which is the inserted window axis); the updates are E x D, their axis 1 the window
    over the operand's columns. -/
abbrev sdims2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of the same accumulation on a 1 x N x D operand: the scatter indices name a coordinate on
    operand axis 1 (the inserted window axis); the updates are 1 x E x D, their axes 0 and 2 the windows over the
    operand's unit axis and its columns. -/
abbrev sdims3 (N E D : Nat) (wf : ScatterDims.WF ⟨3, ![1, N, D]⟩ ⟨2, ![E, 1]⟩ ⟨3, ![1, E, D]⟩ [0, 2] [1] [1] 1) :
    ScatterDims ⟨3, ![1, N, D]⟩ ⟨2, ![E, 1]⟩ ⟨3, ![1, E, D]⟩ where
  updateWindowDims := [0, 2]
  insertedWindowDims := [1]
  scatterDimsToOperandDims := [1]
  indexVectorDim := 1
  wf := wf

/-! ## Where an update lands, in general

An update index lands on operand index `i` exactly when start plus window coordinate equals `i`'s coordinate on every
axis: being inside the operand is then automatic, because `i` is. -/

/-- For any scatter dimension numbers: the result index of update index `j` is `i` if and only if, on every operand
    axis, the (signed, unclamped) start plus the window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some_inj]
    constructor
    · intro hi a
      have := h a
      rw [← hi]
      show _ = (((d.start j idx a + (d.window j a : Int)).toNat : Nat) : Int)
      omega
    · intro hi
      funext a
      refine Fin.ext ?_
      show (d.start j idx a + (d.window j a : Int)).toNat = (i a).val
      have := hi a
      omega
  · rename_i h
    constructor
    · intro hi; exact absurd hi (by simp)
    · intro hi
      exfalso
      apply h
      intro a
      have := hi a
      have := (i a).isLt
      omega

section
variable {N E D w : Nat}
  (wf2 : ScatterDims.WF ⟨2, ![N, D]⟩ ⟨2, ![E, 1]⟩ ⟨2, ![E, D]⟩ [1] [0] [0] 1)
  (wf3 : ScatterDims.WF ⟨3, ![1, N, D]⟩ ⟨2, ![E, 1]⟩ ⟨3, ![1, E, D]⟩ [0, 2] [1] [1] 1)

/-! ## Starts and window coordinates of the rank-2 accumulation -/

/-- The row axis is an inserted window axis: its window coordinate is 0. -/
theorem window2_0 (j : (⟨2, ![E, D]⟩ : Shape).Idx) : (sdims2 N E D wf2).window j 0 = 0 := rfl
/-- The column axis is the window axis: its window coordinate is the update's column. -/
theorem window2_1 (j : (⟨2, ![E, D]⟩ : Shape).Idx) : (sdims2 N E D wf2).window j 1 = (j 1).val := rfl
/-- The column axis is not named by the scatter indices: it starts at 0. -/
theorem start2_1 (j : (⟨2, ![E, D]⟩ : Shape).Idx) (idx : IVec ⟨2, ![E, 1]⟩ w) : (sdims2 N E D wf2).start j idx 1 = 0 := rfl
/-- Update (e, o) reads its start index at position (e, 0) of the scatter indices. -/
theorem siIdx2 (j : (⟨2, ![E, D]⟩ : Shape).Idx) (c : Fin 1) : (sdims2 N E D wf2).siIdx j c = ix2 (j 0) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start2_0 (j : (⟨2, ![E, D]⟩ : Shape).Idx) (idx : IVec ⟨2, ![E, 1]⟩ w) :
    (sdims2 N E D wf2).start j idx 0 = (idx (ix2 (j 0) (0 : Fin 1))).toInt := by
  unfold ScatterDims.start
  rw [dif_pos (show (0 : Fin 2) ∈ (sdims2 N E D wf2).scatterDimsToOperandDims from List.mem_singleton.mpr rfl)]
  rw [siIdx2]
  rfl

/-! ## Starts and window coordinates of the rank-3 accumulation -/

/-- The unit axis is a window axis: its window coordinate is the update's unit coordinate. -/
theorem window3_0 (j : (⟨3, ![1, E, D]⟩ : Shape).Idx) : (sdims3 N E D wf3).window j 0 = (j 0).val := rfl
/-- The row axis is an inserted window axis: its window coordinate is 0. -/
theorem window3_1 (j : (⟨3, ![1, E, D]⟩ : Shape).Idx) : (sdims3 N E D wf3).window j 1 = 0 := rfl
/-- The column axis is a window axis: its window coordinate is the update's column. -/
theorem window3_2 (j : (⟨3, ![1, E, D]⟩ : Shape).Idx) : (sdims3 N E D wf3).window j 2 = (j 2).val := rfl
/-- The unit axis is not named by the scatter indices: it starts at 0. -/
theorem start3_0 (j : (⟨3, ![1, E, D]⟩ : Shape).Idx) (idx : IVec ⟨2, ![E, 1]⟩ w) : (sdims3 N E D wf3).start j idx 0 = 0 := rfl
/-- The column axis is not named by the scatter indices: it starts at 0. -/
theorem start3_2 (j : (⟨3, ![1, E, D]⟩ : Shape).Idx) (idx : IVec ⟨2, ![E, 1]⟩ w) : (sdims3 N E D wf3).start j idx 2 = 0 := rfl
/-- Update (b, e, o) reads its start index at position (e, 0) of the scatter indices. -/
theorem siIdx3 (j : (⟨3, ![1, E, D]⟩ : Shape).Idx) (c : Fin 1) : (sdims3 N E D wf3).siIdx j c = ix2 (j 1) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start3_1 (j : (⟨3, ![1, E, D]⟩ : Shape).Idx) (idx : IVec ⟨2, ![E, 1]⟩ w) :
    (sdims3 N E D wf3).start j idx 1 = (idx (ix2 (j 1) (0 : Fin 1))).toInt := by
  unfold ScatterDims.start
  rw [dif_pos (show (1 : Fin 3) ∈ (sdims3 N E D wf3).scatterDimsToOperandDims from List.mem_singleton.mpr rfl)]
  rw [siIdx3]
  rfl

/-! ## Where an update lands, for the two accumulations -/

/-- Rank 2: update (e, o) lands on operand element (n, o') exactly when the row number of e is n and o = o'. -/
theorem resultIdx2 (j : (⟨2, ![E, D]⟩ : Shape).Idx) (idx : IVec ⟨2, ![E, 1]⟩ w) (i : (⟨2, ![N, D]⟩ : Shape).Idx) :
    (sdims2 N E D wf2).resultIdx? j idx = some i ↔
      (idx (ix2 (j 0) (0 : Fin 1))).toInt = ((i 0).val : Int) ∧ (j 1).val = (i 1).val := by
  rw [resultIdx?_eq_some_iff]
  constructor
  · intro h
    have h0 := h 0
    have h1 := h 1
    rw [start2_0, window2_0] at h0
    rw [start2_1, window2_1] at h1
    exact ⟨by omega, by omega⟩
  · rintro ⟨h0, h1⟩ a
    match a with
    | ⟨0, _⟩ =>
      show (sdims2 N E D wf2).start j idx 0 + ((sdims2 N E D wf2).window j 0 : Int) = ((i 0).val : Int)
      rw [start2_0, window2_0]; omega
    | ⟨1, _⟩ =>
      show (sdims2 N E D wf2).start j idx 1 + ((sdims2 N E D wf2).window j 1 : Int) = ((i 1).val : Int)
      rw [start2_1, window2_1]; omega

/-- Rank 3: update (b, e, o) lands on operand element (b', n, o') exactly when the row number of e is n and o = o';
    the unit coordinates b and b' are both 0 and add no condition. -/
theorem resultIdx3 (j : (⟨3, ![1, E, D]⟩ : Shape).Idx) (idx : IVec ⟨2, ![E, 1]⟩ w) (i : (⟨3, ![1, N, D]⟩ : Shape).Idx) :
    (sdims3 N E D wf3).resultIdx? j idx = some i ↔
      (idx (ix2 (j 1) (0 : Fin 1))).toInt = ((i 1).val : Int) ∧ (j 2).val = (i 2).val := by
  rw [resultIdx?_eq_some_iff]
  constructor
  · intro h
    have h1 := h 1
    have h2 := h 2
    rw [start3_1, window3_1] at h1
    rw [start3_2, window3_2] at h2
    exact ⟨by omega, by omega⟩
  · rintro ⟨h1, h2⟩ a
    match a with
    | ⟨0, _⟩ =>
      show (sdims3 N E D wf3).start j idx 0 + ((sdims3 N E D wf3).window j 0 : Int) = ((i 0).val : Int)
      rw [start3_0, window3_0]
      have hj : (j 0).val < 1 := (j 0).isLt
      have hi : (i 0).val < 1 := (i 0).isLt
      omega
    | ⟨1, _⟩ =>
      show (sdims3 N E D wf3).start j idx 1 + ((sdims3 N E D wf3).window j 1 : Int) = ((i 1).val : Int)
      rw [start3_1, window3_1]; omega
    | ⟨2, _⟩ =>
      show (sdims3 N E D wf3).start j idx 2 + ((sdims3 N E D wf3).window j 2 : Int) = ((i 2).val : Int)
      rw [start3_2, window3_2]; omega

/-- Rank 2, computed: when the row number z of update row e is inside [0, N), update (e, o) lands on (z, o). -/
theorem resultIdx2_some (j : (⟨2, ![E, D]⟩ : Shape).Idx) (idx : IVec ⟨2, ![E, 1]⟩ w)
    (h0 : 0 ≤ (idx (ix2 (j 0) (0 : Fin 1))).toInt) (hN : (idx (ix2 (j 0) (0 : Fin 1))).toInt < N) :
    (sdims2 N E D wf2).resultIdx? j idx
      = some (ix2 (n0 := N) (n1 := D) ⟨(idx (ix2 (j 0) (0 : Fin 1))).toInt.toNat, by omega⟩ (j 1)) := by
  rw [resultIdx2]
  refine ⟨?_, rfl⟩
  show _ = (((idx (ix2 (j 0) (0 : Fin 1))).toInt.toNat : Nat) : Int)
  omega

/-- Rank 2, computed: when the row number of update row e is outside [0, N), update (e, o) is dropped. -/
theorem resultIdx2_none (j : (⟨2, ![E, D]⟩ : Shape).Idx) (idx : IVec ⟨2, ![E, 1]⟩ w)
    (h : ¬ (0 ≤ (idx (ix2 (j 0) (0 : Fin 1))).toInt ∧ (idx (ix2 (j 0) (0 : Fin 1))).toInt < N)) :
    (sdims2 N E D wf2).resultIdx? j idx = none := by
  rw [Option.eq_none_iff_forall_ne_some]
  intro i hi
  rw [resultIdx2] at hi
  have hlt : (i 0).val < N := (i 0).isLt
  omega

/-- Dropping the unit coordinate on both sides: update index `j` of the rank-3 accumulation lands on `i` exactly when
    the update index under `j` lands, in the rank-2 accumulation, on the index under `i`. -/
theorem resultIdx_low (j : (⟨3, ![1, E, D]⟩ : Shape).Idx) (idx : IVec ⟨2, ![E, 1]⟩ w) (i : (⟨3, ![1, N, D]⟩ : Shape).Idx) :
    (sdims3 N E D wf3).resultIdx? j idx = some i ↔ (sdims2 N E D wf2).resultIdx? (low j) idx = some (low i) := by
  rw [resultIdx3, resultIdx2]
  exact Iff.rfl

end

/-- THE LAW. Accumulating the rows of `U` into `X` at the row numbers `idx`, written on arrays with a leading unit axis,
    is the accumulation on the arrays without it: the element at (b, n, o) of the one is the element at (n, o) of the
    other. The operand terms are the same element; the sums run over the updates landing on (b, n, o) and on (n, o),
    and dropping the unit coordinate is a bijection between these two sets that preserves the summand. -/
theorem scatterAdd_low {N E D w : Nat}
    (wf2 : ScatterDims.WF ⟨2, ![N, D]⟩ ⟨2, ![E, 1]⟩ ⟨2, ![E, D]⟩ [1] [0] [0] 1)
    (wf3 : ScatterDims.WF ⟨3, ![1, N, D]⟩ ⟨2, ![E, 1]⟩ ⟨3, ![1, E, D]⟩ [0, 2] [1] [1] 1)
    (X : (⟨2, ![N, D]⟩ : Shape).Idx → EReal) (idx : IVec ⟨2, ![E, 1]⟩ w) (U : (⟨2, ![E, D]⟩ : Shape).Idx → EReal)
    (i : (⟨3, ![1, N, D]⟩ : Shape).Idx) :
    Ideal.hostScatterAdd (sdims3 N E D wf3) (fun i' => X (low i')) idx (fun j => U (low j)) i
      = Ideal.hostScatterAdd (sdims2 N E D wf2) X idx U (low i) := by
  unfold Ideal.hostScatterAdd
  congr 1
  refine Finset.sum_equiv (lowEquiv (A := E) (B := D)) ?_ ?_
  · intro j
    rw [Finset.mem_filter, Finset.mem_filter]
    simp only [Finset.mem_univ, true_and]
    exact resultIdx_low wf2 wf3 j idx i
  · intro j _
    rfl

end Cert.LibRowScatter

end
-- ==== Proof.LibDot3.lean ====
/-
  A matrix product whose left operand and output carry a leading axis of extent one, read at an entry.

  The left operand is a `1×M×K` array, the right one a `K×N` array and the output a `1×M×N` array. The dimension
  numbers contract the left operand's last axis against the right operand's first; there are no batch axes, so the
  output's axes are the left operand's two free axes (the unit axis, then the rows) followed by the right operand's
  free axis (the columns). The contraction's index set is therefore a single axis of extent `K`, and at output entry
  `(b, p, q)` and contraction position `k` the operands are read at `(b, p, k)` on the left and at `(k, q)` on the
  right. Summing the products over the contraction index set is thus the textbook `∑ k : Fin K, l (b, p, k) * r (k, q)`.
  Stated for any dimension-number record whose six lists are these, so that every record of this form meets it by
  `rfl` hypotheses.
-/
import Idealize.ShloMosaic.Lib.ValueIdx
import Idealize.ShloMosaic.PureOps.Ideal.Laws

noncomputable section

namespace Cert.LibDot3

open Idealize.ShloMosaic Idealize.ShloMosaic.ValueIdx

/-- The sum over the contraction index set of a `1×M×K` by `K×N` product, at output entry `(b, p, q)`, is the sum
    over `k : Fin K` of the left operand at `(b, p, k)` times the right operand at `(k, q)`, in any commutative
    additive monoid with a product. The contraction index set has the one axis of extent `K`; the bijection with
    `Fin K` re-indexes the sum, and the operand indices are compared coordinate by coordinate: the two free left
    coordinates are the output's first two, the free right coordinate is the output's third, and the contracted
    coordinate on either side is the contraction position. -/
theorem sum_plain3 {R : Type} [AddCommMonoid R] [Mul R] {M K N : Nat}
    (d : DotDims ⟨3, ![1, M, K]⟩ ⟨2, ![K, N]⟩ ⟨3, ![1, M, N]⟩)
    (hlc : d.lhsContracting = [2]) (hrc : d.rhsContracting = [0]) (hln : d.lhsNonContracting = [0, 1])
    (hrn : d.rhsNonContracting = [1]) (hlb : d.lhsBatch = []) (hrb : d.rhsBatch = [])
    (l : (⟨3, ![1, M, K]⟩ : Shape).Idx → R) (r : (⟨2, ![K, N]⟩ : Shape).Idx → R) (b : Fin 1) (p : Fin M) (q : Fin N) :
    ∑ k : d.contr.Idx, l (d.lhsIdx (ix3 b p q) k) * r (d.rhsIdx (ix3 b p q) k) = ∑ k : Fin K, l (ix3 b p k) * r (ix2 k q) := by
  obtain ⟨lc, rc, ln, rn, lb, rb, wf⟩ := d
  dsimp only at hlc hrc hln hrn hlb hrb
  subst hlc hrc hln hrn hlb hrb
  generalize hd : (⟨[2], [0], [0, 1], [1], [], [], wf⟩ : DotDims ⟨3, ![1, M, K]⟩ ⟨2, ![K, N]⟩ ⟨3, ![1, M, N]⟩) = d
  have hlc : d.lhsContracting = [2] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix3 b p q) ((contrEquiv1 d K hr hs).symm k) = ix3 b p k := funext fun a => Fin.ext (by
    match a with
    | ⟨0, _⟩ =>
      subst hd
      unfold DotDims.lhsIdx
      split
      · rename_i hb; exact absurd hb List.not_mem_nil
      · split
        · rfl
        · rename_i hn; exact absurd (List.mem_cons.mpr (Or.inl (Fin.ext rfl))) hn
    | ⟨1, _⟩ =>
      subst hd
      unfold DotDims.lhsIdx
      split
      · rename_i hb; exact absurd hb List.not_mem_nil
      · split
        · rfl
        · rename_i hn
          exact absurd (List.mem_cons.mpr (Or.inr (List.mem_singleton.mpr (Fin.ext rfl)))) hn
    | ⟨2, _⟩ => exact (d.lhsIdx_val_of_single hlc _ _).trans hk)
  have er : d.rhsIdx (ix3 b p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibDot3

end
-- ==== Proof.LibRoundLaw.lean ====
/-
  One step of the two programs, and their starting terms, agree.

  Both programs accumulate rows into an N x D array, one relation at a time. For one relation, with A the N x K
  feature matrix (carried as a 1 x N x K array), Wr the relation's K x D weight matrix, Is a list of E source row
  numbers and Id a list of E destination row numbers:

  * the reference gathers the E rows A[Is e] (a 1 x E x K array), multiplies them by Wr (a 1 x E x D array of
    messages) and adds message e into row Id e of its 1 x N x D accumulator;
  * the other program has the whole product P = A Wr (N x D) at hand, gathers the E rows P[Is e], and adds row e of
    these into row Id e of its N x D accumulator; a leading axis of extent one is put in front at the end.

  The two agree because taking rows commutes with multiplying on the right by a matrix: entry (e, o) of the
  reference's messages is the sum over k of A[Is e, k] Wr[k, o], which is entry (Is e, o) of P, the entry the other
  program gathers. (The row a source index word names is clamped into [0, N - 1] in the same way on both sides, so
  nothing is asked of the words.) The messages being equal entry by entry through dropping the unit coordinate, and
  the accumulators being equal in the same way by hypothesis, the law of row accumulation with and without a unit
  axis carries the step. Only sums and products appear and none is rearranged, so no finiteness is needed: the
  statement holds for all extended-real entries.

  The starting term is the same computation without the gather and the accumulation: the product A Ws on the arrays
  with the unit axis is the N x D product with the unit axis put in front.
-/
import Idealize.ShloMosaic.Lib.ValueIdx
import Idealize.ShloMosaic.Lib.Pipeline.Value
import Idealize.ShloMosaic.PureOps.Ideal.Laws
import proofs.«173822_j17076789969202_1_alg».proof.Proof.LibUnitAxis
import proofs.«173822_j17076789969202_1_alg».proof.Proof.LibRowGather
import proofs.«173822_j17076789969202_1_alg».proof.Proof.LibRowScatter
import proofs.«173822_j17076789969202_1_alg».proof.Proof.LibDot3

noncomputable section

namespace Cert.RoundLaw

open Idealize.ShloMosaic Idealize.ShloMosaic.ValueIdx Cert.LibUnitAxis Cert.LibRowGather Cert.LibRowScatter

/-- Putting a unit axis in front of an N x D array: the entry at (b, n, o) of the 1 x N x D array is the entry at
    (n, o). (An axis of extent one is read at coordinate 0, which is the only coordinate it has.) -/
theorem bcast_low {α : Type} {N D : Nat}
    (hb : (⟨2, ![N, D]⟩ : Shape).BroadcastsInDim ⟨3, ![1, N, D]⟩ (![1, 2] : Fin 2 → Fin 3))
    (X : (⟨2, ![N, D]⟩ : Shape).Idx → α) (i : (⟨3, ![1, N, D]⟩ : Shape).Idx) :
    broadcastInDim ⟨3, ![1, N, D]⟩ ![1, 2] hb X i = X (low i) := by
  refine broadcastInDim_apply _ hb X i (low i) ?_
  intro a
  match a with
  | ⟨0, _⟩ =>
    show (i 1).val = if N = 1 then 0 else (i 1).val
    have : (i 1).val < N := (i 1).isLt
    split <;> omega
  | ⟨1, _⟩ =>
    show (i 2).val = if D = 1 then 0 else (i 2).val
    have : (i 2).val < D := (i 2).isLt
    split <;> omega

/-- ONE RELATION'S STEP. Gathering rows of A by `Is`, multiplying by `Wr` and accumulating the products' rows at the rows
    `Id` names, on arrays with a leading unit axis, is: gathering rows of the product P = A Wr by `Is`, accumulating
    them at the rows `Id` names on the arrays without that axis, and putting the unit axis in front — provided the two
    accumulators agree in the same way to begin with. Entry (b, e, o) of the messages is the sum over k of
    A[row(Is e), k] Wr[k, o] = P[row(Is e), o], the gathered entry (e, o) of P; the accumulation law does the rest. -/
theorem round_ops {N E D K w : Nat} (hN : 0 < N)
    (gd2 : GatherDims ⟨2, ![N, D]⟩ ⟨2, ![E, 1]⟩ ⟨2, ![E, D]⟩)
    (gd3 : GatherDims ⟨3, ![1, N, K]⟩ ⟨2, ![E, 1]⟩ ⟨3, ![1, E, K]⟩)
    (sd2 : ScatterDims ⟨2, ![N, D]⟩ ⟨2, ![E, 1]⟩ ⟨2, ![E, D]⟩)
    (sd3 : ScatterDims ⟨3, ![1, N, D]⟩ ⟨2, ![E, 1]⟩ ⟨3, ![1, E, D]⟩)
    (dd : DotDims ⟨3, ![1, E, K]⟩ ⟨2, ![K, D]⟩ ⟨3, ![1, E, D]⟩)
    (wfg2 : GatherDims.WF ⟨2, ![N, D]⟩ ⟨2, ![E, 1]⟩ ⟨2, ![E, D]⟩ [1] [0] [] [0] [] 1 ![1, D]) (hg2 : gd2 = dims2 N E D wfg2)
    (wfg3 : GatherDims.WF ⟨3, ![1, N, K]⟩ ⟨2, ![E, 1]⟩ ⟨3, ![1, E, K]⟩ [0, 2] [1] [] [1] [] 1 ![1, 1, K]) (hg3 : gd3 = dims3 N E K wfg3)
    (wfs2 : ScatterDims.WF ⟨2, ![N, D]⟩ ⟨2, ![E, 1]⟩ ⟨2, ![E, D]⟩ [1] [0] [0] 1) (hs2 : sd2 = sdims2 N E D wfs2)
    (wfs3 : ScatterDims.WF ⟨3, ![1, N, D]⟩ ⟨2, ![E, 1]⟩ ⟨3, ![1, E, D]⟩ [0, 2] [1] [1] 1) (hs3 : sd3 = sdims3 N E D wfs3)
    (hlc : dd.lhsContracting = [2]) (hrc : dd.rhsContracting = [0]) (hln : dd.lhsNonContracting = [0, 1])
    (hrn : dd.rhsNonContracting = [1]) (hlb : dd.lhsBatch = []) (hrb : dd.rhsBatch = [])
    (hb : (⟨2, ![N, D]⟩ : Shape).BroadcastsInDim ⟨3, ![1, N, D]⟩ (![1, 2] : Fin 2 → Fin 3))
    (hlt : FTy.bits .bf16 < FTy.bits .f32)
    (A : FVec Ideal ⟨3, ![1, N, K]⟩ .f32) (Wr : FVec Ideal ⟨2, ![K, D]⟩ .f32) (P : FVec Ideal ⟨2, ![N, D]⟩ .bf16)
    (hP : ∀ (n : Fin N) (o : Fin D), P (ix2 n o) = ∑ k : Fin K, A (ix3 (0 : Fin 1) n k) * Wr (ix2 k o))
    (X2 : FVec Ideal ⟨2, ![N, D]⟩ .f32) (X3 : FVec Ideal ⟨3, ![1, N, D]⟩ .f32)
    (hX : X3 = broadcastInDim ⟨3, ![1, N, D]⟩ ![1, 2] hb X2)
    (Is Id : IVec ⟨2, ![E, 1]⟩ w) :
    Host.scatterAdd (F := Ideal) sd3 X3 Id (Host.dotGeneral (F := Ideal) dd none (Host.gather gd3 A Is) Wr)
      = broadcastInDim ⟨3, ![1, N, D]⟩ ![1, 2] hb
          (Host.scatterAdd (F := Ideal) sd2 X2 Id (extf .f32 (Host.gather gd2 P Is) hlt)) := by
  subst hg2 hg3 hs2 hs3 hX
  funext i
  rw [bcast_low]
  have hX : broadcastInDim ⟨3, ![1, N, D]⟩ ![1, 2] hb X2 = fun i' => X2 (low i') := funext (bcast_low hb X2)
  have hU : Host.dotGeneral (F := Ideal) dd none (Host.gather (dims3 N E K wfg3) A Is) Wr
      = fun j => (extf .f32 (Host.gather (dims2 N E D wfg2) P Is) hlt : FVec Ideal ⟨2, ![E, D]⟩ .f32) (low j) := by
    funext j
    obtain ⟨b, e, o, rfl⟩ : ∃ b e o, j = ix3 b e o := ⟨_, _, _, eq_ix3 j⟩
    rw [Host.dotGeneral, Ideal.dotGeneral_apply, Cert.LibDot3.sum_plain3 dd hlc hrc hln hrn hlb hrb]
    rw [low_ix3, extf_apply, gather2_apply hN, hP]
    refine Finset.sum_congr rfl (fun k _ => ?_)
    rw [gather3_apply hN]
    obtain rfl : b = 0 := Subsingleton.elim _ _
    rfl
  rw [hX, hU]
  exact scatterAdd_low wfs2 wfs3 X2 Id _ i

/-- THE STARTING TERM. The product of the 1 x N x K array A with the K x D matrix Ws is the N x D product P0 = A Ws with
    a unit axis put in front: entry (b, n, o) is the sum over k of A[0, n, k] Ws[k, o]. -/
theorem base_ops {N D K : Nat}
    (dd0 : DotDims ⟨3, ![1, N, K]⟩ ⟨2, ![K, D]⟩ ⟨3, ![1, N, D]⟩)
    (hlc : dd0.lhsContracting = [2]) (hrc : dd0.rhsContracting = [0]) (hln : dd0.lhsNonContracting = [0, 1])
    (hrn : dd0.rhsNonContracting = [1]) (hlb : dd0.lhsBatch = []) (hrb : dd0.rhsBatch = [])
    (hb : (⟨2, ![N, D]⟩ : Shape).BroadcastsInDim ⟨3, ![1, N, D]⟩ (![1, 2] : Fin 2 → Fin 3))
    (hlt : FTy.bits .bf16 < FTy.bits .f32)
    (A : FVec Ideal ⟨3, ![1, N, K]⟩ .f32) (Ws : FVec Ideal ⟨2, ![K, D]⟩ .f32) (P0 : FVec Ideal ⟨2, ![N, D]⟩ .bf16)
    (hP0 : ∀ (n : Fin N) (o : Fin D), P0 (ix2 n o) = ∑ k : Fin K, A (ix3 (0 : Fin 1) n k) * Ws (ix2 k o)) :
    Host.dotGeneral (F := Ideal) dd0 none A Ws = broadcastInDim ⟨3, ![1, N, D]⟩ ![1, 2] hb (extf .f32 P0 hlt) := by
  funext i
  rw [bcast_low]
  obtain ⟨b, n, o, rfl⟩ : ∃ b n o, i = ix3 b n o := ⟨_, _, _, eq_ix3 i⟩
  rw [Host.dotGeneral, Ideal.dotGeneral_apply, Cert.LibDot3.sum_plain3 dd0 hlc hrc hln hrn hlb hrb]
  rw [low_ix3, extf_apply, hP0]
  obtain rfl : b = 0 := Subsingleton.elim _ _
  rfl

end Cert.RoundLaw

end
-- ==== Proof.Bridge.lean ====
/-
  The two programs compute the same array.

  Both results are built in nine stages. The reference starts from x times the self weight and, for each relation,
  gathers rows of x by the edge sources, multiplies them by the relation's weight and adds the products into the
  result at the edge destinations. The kernel's program multiplies first — the projected array holds x times every
  weight — and then, for each relation, gathers rows of the relation's product by the same sources and adds them in
  at the same destinations. Gathering rows commutes with multiplying on the right by a matrix, so each stage adds the
  same rows at the same places; the kernel's 50000 x 256 result with a leading unit axis is the reference's
  1 x 50000 x 256 result. The index columns are read by the same operations from the same edge list on both sides.
-/
import proofs.«173822_j17076789969202_1_alg».proof.Proof.KChainDef
import proofs.«173822_j17076789969202_1_alg».proof.Proof.RChainDef
import proofs.«173822_j17076789969202_1_alg».proof.Proof.LibRoundLaw
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.ValueIdx

variable (x : Cert.ReferenceIdeal.Chain.Acc Ideal) (wrel : Cert.ReferenceIdeal.Chain.Wrel Ideal)
  (wself : Cert.ReferenceIdeal.Chain.Wmat Ideal) (edges : Cert.KernelIdeal.Chain.Edges Ideal)
  (proj : Cert.KernelIdeal.Chain.Proj Ideal)

/-- A slab of the projected array read at an entry. -/
theorem slab_apply (k : Nat) (hk : k < 9) (h : Cert.KernelIdeal.S9x50000x256.Slices ![k, 0, 0] Cert.KernelIdeal.S1x50000x256)
    (n : Fin 50000) (o : Fin 256) :
    Cert.KernelIdeal.Chain.slab (F := Ideal) proj ![k, 0, 0] h (ix2 n o)
      = (proj : Cert.KernelIdeal.S9x50000x256.Idx → EReal) (ix3 (⟨k, hk⟩ : Fin 9) n o) := by
  unfold Cert.KernelIdeal.Chain.slab
  refine (shapeCast_1ab_ab_apply _ _ n o).trans ?_
  refine extractStridedSlice_apply _ _ _ (ix3 (0 : Fin 1) n o) (ix3 (⟨k, hk⟩ : Fin 9) n o) fun a => ?_
  match a with
  | ⟨0, _⟩ => show k = k + 0; omega
  | ⟨1, _⟩ => show n.val = 0 + n.val; omega
  | ⟨2, _⟩ => show o.val = 0 + o.val; omega

/-- A relation's weight matrix read at an entry. -/
theorem wmat_apply (k : Nat) (hk : k < 8) (h : Cert.ReferenceIdeal.S8x256x256.Slices ![k, 0, 0] Cert.ReferenceIdeal.S1x256x256)
    (p : Fin 256) (o : Fin 256) :
    Cert.ReferenceIdeal.Chain.wmat (F := Ideal) wrel ![k, 0, 0] h (ix2 p o)
      = (wrel : Cert.ReferenceIdeal.S8x256x256.Idx → EReal) (ix3 (⟨k, hk⟩ : Fin 8) p o) := by
  unfold Cert.ReferenceIdeal.Chain.wmat
  refine (shapeCast_1ab_ab_apply _ _ p o).trans ?_
  refine extractStridedSlice_apply _ _ _ (ix3 (0 : Fin 1) p o) (ix3 (⟨k, hk⟩ : Fin 8) p o) fun a => ?_
  match a with
  | ⟨0, _⟩ => show k = k + 0; omega
  | ⟨1, _⟩ => show p.val = 0 + p.val; omega
  | ⟨2, _⟩ => show o.val = 0 + o.val; omega

/-- The two programs read an edge column by the same operations. -/
theorem col_eq (s : Fin 3 → Nat) (h : Cert.KernelIdeal.S8x200000x2.Slices s Cert.KernelIdeal.S1x200000x1)
    (h' : Cert.ReferenceIdeal.S8x200000x2.Slices s Cert.ReferenceIdeal.S1x200000x1) :
    Cert.ReferenceIdeal.Chain.col (F := Ideal) edges s h' = Cert.KernelIdeal.Chain.col (F := Ideal) edges s h := rfl

/-- And wrap negative node numbers by the same operations. -/
theorem normIdx_eq (v : Cert.KernelIdeal.Chain.I32v Ideal) :
    Cert.ReferenceIdeal.Chain.normIdx (F := Ideal) v = Cert.KernelIdeal.Chain.normIdx (F := Ideal) v := rfl

/-- The leading unit axis the kernel's program adds at the end. -/
abbrev lead (X : Cert.KernelIdeal.Chain.Acc Ideal) : Cert.ReferenceIdeal.Chain.Acc Ideal :=
  broadcastInDim Cert.KernelIdeal.S1x50000x256 ![1, 2] Cert.KernelIdeal.Gen.bcast_S50000x256_S1x50000x256_1_2 X

variable (hself : ∀ (n : Fin 50000) (o : Fin 256),
    (proj : Cert.KernelIdeal.S9x50000x256.Idx → EReal) (ix3 (0 : Fin 9) n o)
      = ∑ k : Fin 256, (x : Cert.ReferenceIdeal.S1x50000x256.Idx → EReal) (ix3 (0 : Fin 1) n k)
          * (wself : Cert.ReferenceIdeal.S256x256.Idx → EReal) (ix2 k o))
  (hrel : ∀ (r : Fin 8) (n : Fin 50000) (o : Fin 256),
    (proj : Cert.KernelIdeal.S9x50000x256.Idx → EReal) (ix3 (⟨r.val + 1, by omega⟩ : Fin 9) n o)
      = ∑ k : Fin 256, (x : Cert.ReferenceIdeal.S1x50000x256.Idx → EReal) (ix3 (0 : Fin 1) n k)
          * (wrel : Cert.ReferenceIdeal.S8x256x256.Idx → EReal) (ix3 r k o))

include hself in
/-- The starting terms agree: x times the self weight is slab 0 of the projected array. -/
theorem base_agree :
    Cert.ReferenceIdeal.Chain.rBase (F := Ideal) x wself = lead (Cert.KernelIdeal.Chain.kBase (F := Ideal) proj) := by
  unfold Cert.ReferenceIdeal.Chain.rBase Cert.KernelIdeal.Chain.kBase lead
  refine Cert.RoundLaw.base_ops (N := 50000) (D := 256) (K := 256)
    Cert.ReferenceIdeal.dot_S1x50000x256_S256x256_S1x50000x256_2_0_01_1_n_n rfl rfl rfl rfl rfl rfl
    Cert.KernelIdeal.Gen.bcast_S50000x256_S1x50000x256_1_2 Cert.KernelIdeal.Gen.bitsLt_bf16_f32
    x wself (Cert.KernelIdeal.Chain.slab proj ![0, 0, 0] _) fun n o => ?_
  exact (slab_apply proj 0 (by omega) _ n o).trans (hself n o)

include hrel in
/-- One relation's step keeps the agreement. -/
theorem step_agree (k k1 : Nat) (hk : k < 8) (hk1 : k1 = k + 1)
    (hP : Cert.KernelIdeal.S9x50000x256.Slices ![k1, 0, 0] Cert.KernelIdeal.S1x50000x256)
    (hW : Cert.ReferenceIdeal.S8x256x256.Slices ![k, 0, 0] Cert.ReferenceIdeal.S1x256x256)
    (h0 : Cert.KernelIdeal.S8x200000x2.Slices ![k, 0, 0] Cert.KernelIdeal.S1x200000x1)
    (h1 : Cert.KernelIdeal.S8x200000x2.Slices ![k, 0, 1] Cert.KernelIdeal.S1x200000x1)
    (h0' : Cert.ReferenceIdeal.S8x200000x2.Slices ![k, 0, 0] Cert.ReferenceIdeal.S1x200000x1)
    (h1' : Cert.ReferenceIdeal.S8x200000x2.Slices ![k, 0, 1] Cert.ReferenceIdeal.S1x200000x1)
    (X2 : Cert.KernelIdeal.Chain.Acc Ideal) (X3 : Cert.ReferenceIdeal.Chain.Acc Ideal) (hX : X3 = lead X2) :
    Cert.ReferenceIdeal.Chain.rRound (F := Ideal) ![k, 0, 0] hW ![k, 0, 0] h0' ![k, 0, 1] h1' X3 x wrel edges
      = lead (Cert.KernelIdeal.Chain.kRound (F := Ideal) ![k1, 0, 0] hP ![k, 0, 0] h0 ![k, 0, 1] h1 X2 proj edges) := by
  subst hk1
  unfold Cert.ReferenceIdeal.Chain.rRound Cert.KernelIdeal.Chain.kRound lead
  rw [col_eq edges _ h0 h0', col_eq edges _ h1 h1', normIdx_eq, normIdx_eq]
  refine Cert.RoundLaw.round_ops (N := 50000) (E := 200000) (D := 256) (K := 256) (w := 32) (by decide)
    Cert.KernelIdeal.gather_S50000x256_S200000x1_S200000x256_1_0_n_n_0_1_1256
    Cert.ReferenceIdeal.gather_S1x50000x256_S200000x1_S1x200000x256_02_1_n_n_1_1_11256
    Cert.KernelIdeal.scatter_S50000x256_S200000x1_S200000x256_1_0_0_1
    Cert.ReferenceIdeal.scatter_S1x50000x256_S200000x1_S1x200000x256_02_1_1_1
    Cert.ReferenceIdeal.dot_S1x200000x256_S256x256_S1x200000x256_2_0_01_1_n_n
    Cert.KernelIdeal.Gen.gather_S50000x256_S200000x1_S200000x256_1_0_n_n_0_1_1256_wf rfl
    Cert.ReferenceIdeal.Gen.gather_S1x50000x256_S200000x1_S1x200000x256_02_1_n_n_1_1_11256_wf rfl
    Cert.KernelIdeal.Gen.scatter_S50000x256_S200000x1_S200000x256_1_0_0_1_wf rfl
    Cert.ReferenceIdeal.Gen.scatter_S1x50000x256_S200000x1_S1x200000x256_02_1_1_1_wf rfl
    rfl rfl rfl rfl rfl rfl
    Cert.KernelIdeal.Gen.bcast_S50000x256_S1x50000x256_1_2 Cert.KernelIdeal.Gen.bitsLt_bf16_f32
    x (Cert.ReferenceIdeal.Chain.wmat wrel ![k, 0, 0] hW) (Cert.KernelIdeal.Chain.slab proj ![k + 1, 0, 0] hP)
    (fun n o => ?_) X2 X3 hX _ _
  refine (slab_apply proj (k + 1) (by omega) hP n o).trans ((hrel ⟨k, hk⟩ n o).trans ?_)
  refine Finset.sum_congr rfl fun p _ => ?_
  rw [wmat_apply wrel k hk hW p o]

include hself hrel in
/-- The reference's result is the kernel program's. -/
theorem chains_agree :
    Cert.ReferenceIdeal.Chain.rChain (F := Ideal) x wrel wself edges = Cert.KernelIdeal.Chain.kChain (F := Ideal) proj edges := by
  unfold Cert.ReferenceIdeal.Chain.rChain Cert.KernelIdeal.Chain.kChain Cert.KernelIdeal.Chain.kAcc
  refine step_agree x wrel edges proj hrel 7 8 (by omega) rfl _ _ _ _ _ _ _ _ ?_
  refine step_agree x wrel edges proj hrel 6 7 (by omega) rfl _ _ _ _ _ _ _ _ ?_
  refine step_agree x wrel edges proj hrel 5 6 (by omega) rfl _ _ _ _ _ _ _ _ ?_
  refine step_agree x wrel edges proj hrel 4 5 (by omega) rfl _ _ _ _ _ _ _ _ ?_
  refine step_agree x wrel edges proj hrel 3 4 (by omega) rfl _ _ _ _ _ _ _ _ ?_
  refine step_agree x wrel edges proj hrel 2 3 (by omega) rfl _ _ _ _ _ _ _ _ ?_
  refine step_agree x wrel edges proj hrel 1 2 (by omega) rfl _ _ _ _ _ _ _ _ ?_
  refine step_agree x wrel edges proj hrel 0 1 (by omega) rfl _ _ _ _ _ _ _ _ ?_
  exact base_agree x wself proj hself

end Cert.Bridge

end
-- ==== Proof.lean ====
/-
  The certificate of a graph convolution with per-relation weights, computed two ways.

  The reference gathers, for every edge of every relation, the source node's features, multiplies them by the
  relation's weight matrix, and adds the product into the destination node's row, starting from the nodes' own
  features times the self weight. The kernel's program multiplies every node's features by all nine weight matrices
  once, in one tiled region (a 10 x 9 grid of 5000-row blocks against one weight matrix each), and then only gathers
  and adds rows of those products. At the ideal values the two results are the same array: gathering rows commutes
  with multiplying on the right by a matrix, the index columns are read from the same edge list by the same
  operations on both sides, and the accumulation at the destinations is the same exact sum. The law needs no
  finiteness: sums and products are formed but never rearranged, so the precondition is not opened.

  The three frames: each program runs to the end without a fault and leaves its arguments unchanged — for the two
  printings of the kernel's program by the launch theorem for one region with a host tail (the body's one store
  covers its block; no host line writes an argument or an array of the region), for the reference by its run.
  The idealization rewrote nothing, so what it must preserve is the empty conjunction.
-/
import proofs.«173822_j17076789969202_1_alg».proof.Defs
import proofs.«173822_j17076789969202_1_alg».proof.Proof.Gen.Kernel
import proofs.«173822_j17076789969202_1_alg».proof.Proof.Gen.KernelIdeal
import proofs.«173822_j17076789969202_1_alg».proof.Proof.Gen.ReferenceIdeal
import proofs.«173822_j17076789969202_1_alg».proof.Proof.Gen.Pre_finite_inputs
import proofs.«173822_j17076789969202_1_alg».proof.Proof.FrameB
import proofs.«173822_j17076789969202_1_alg».proof.Proof.FrameI
import proofs.«173822_j17076789969202_1_alg».proof.Proof.KRun
import proofs.«173822_j17076789969202_1_alg».proof.Proof.ProjArgs
import proofs.«173822_j17076789969202_1_alg».proof.Proof.RefValue
import proofs.«173822_j17076789969202_1_alg».proof.Proof.Bridge

set_option maxRecDepth 16384

noncomputable section

namespace Cert.Proof

open Idealize.ShloMosaic Idealize.SL.Sem

/-- The kernel's program as printed runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- And the reference: its run, with the result dropped. -/
theorem frame_ri : Cert.frame_ReferenceIdeal := fun m ρ _ =>
  (θ_run Cert.ReferenceIdeal.defs _ _).mono (fun _ h c => (h c).2) (Cert.ReferenceIdeal.Chain.ref_run (F := Ideal) m ρ)

/-- The idealization rewrote no operation. -/
theorem preserves : Cert.preserves_Kernel_KernelIdeal := trivial

/-- From memories agreeing on the arguments, the two idealized programs end with the same result array. -/
theorem algebraic : Cert.algebraic_KernelIdeal_ReferenceIdeal := by
  intro m ρ m' ρ' _ hagree
  refine ⟨_, Cert.KernelIdeal.Val.kernel_run m ρ (Cert.KernelIdeal.Fr.run_main m ρ)
    (fun c => Cert.KernelIdeal.Fr.W_main_arg0 m c) (fun c => Cert.KernelIdeal.Fr.W_main_arg1 m c)
    (fun c => Cert.KernelIdeal.Fr.W_main_arg2 m c) (fun c => Cert.KernelIdeal.Fr.W_main_arg3 m c), ?_⟩
  refine (θ_run Cert.ReferenceIdeal.defs _ _).mono (fun _ h c => ⟨(h c).1.trans ?_, (h c).2⟩)
    (Cert.ReferenceIdeal.Chain.ref_run (F := Ideal) m' ρ')
  rw [(hagree c).1, (hagree c).2.1, (hagree c).2.2.1, (hagree c).2.2.2]
  exact Cert.Bridge.chains_agree _ _ _ _ _
    (fun n o => Cert.KernelIdeal.Val.proj_self m c _ _ rfl rfl n o)
    (fun r n o => Cert.KernelIdeal.Val.proj_rel m c _ _ rfl rfl r n o)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
